-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S4x128x128 .f32) (main_arg3 : FVec F S4x128 .f32) (main_arg4 : FVec F S4x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩

abbrev nBuf : Space → Nat
  | .hbm => 106
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128x128, .f32⟩
  | .hbm, ⟨40, _⟩ => ⟨S128x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128x128, .f32⟩
  | .hbm, ⟨82, _⟩ => ⟨S128x128, .f32⟩
  | .hbm, ⟨83, _⟩ => ⟨S1x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S_, .f32⟩
  | .hbm, ⟨95, _⟩ => ⟨S50000x128, .f32⟩
  | .hbm, ⟨96, _⟩ => ⟨S600000x1, .i32⟩
  | .hbm, ⟨97, _⟩ => ⟨S50000x128, .f32⟩
  | .hbm, ⟨98, _⟩ => ⟨S1x128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S1x128x128, .f32⟩
  | .hbm, ⟨103, _⟩ => ⟨S128x128, .f32⟩
  | .hbm, ⟨104, _⟩ => ⟨S1x128, .f32⟩
  | .hbm, ⟨105, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_11 : Ref sig .tc := ⟨.hbm, 85, rfl⟩
abbrev main_v67 : Ref sig .tc := ⟨.hbm, 86, rfl⟩
abbrev main_v68 : Ref sig .tc := ⟨.hbm, 87, rfl⟩
abbrev main_c_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v76) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v78) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128, .f32⟩
  | 4 => ⟨S4x128x128, .f32⟩
  | 5 => ⟨S1x600000, .i32⟩
  | 6 => ⟨S600000, .i32⟩
  | 7 => ⟨S1x600000, .i32⟩
  | 8 => ⟨S600000, .i32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S50000x1, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S50000x128, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .i1⟩
  | 55 => ⟨S_, .f32⟩
  | 56 => ⟨S_, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S50000x128, .f32⟩
  | 91 => ⟨S_, .f32⟩
  | 92 => ⟨S50000x128, .f32⟩
  | 93 => ⟨S50000x128, .i1⟩
  | 94 => ⟨S_, .f32⟩
  | 95 => ⟨S50000x128, .f32⟩
  | 96 => ⟨S50000x128, .i1⟩
  | 97 => ⟨S_, .f32⟩
  | 98 => ⟨S_, .f32⟩
  | 99 => ⟨S50000x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S_, .f32⟩
  | 116 => ⟨S50000x128, .f32⟩
  | 117 => ⟨S600000x1, .i32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S_, .f32⟩
  | 9 => ⟨S50000x128, .f32⟩
  | 10 => ⟨S50000x128, .i1⟩
  | 11 => ⟨S_, .f32⟩
  | 12 => ⟨S_, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S50000x128, .f32⟩
  | 31 => ⟨S600000x1, .i32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S50000x128, .f32⟩
  | 47 => ⟨S_, .f32⟩
  | 48 => ⟨S50000x128, .f32⟩
  | 49 => ⟨S50000x128, .i1⟩
  | 50 => ⟨S_, .f32⟩
  | 51 => ⟨S50000x128, .f32⟩
  | 52 => ⟨S50000x128, .i1⟩
  | 53 => ⟨S_, .f32⟩
  | 54 => ⟨S_, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_cst_1 : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_v4 : Ref sig .tc := ⟨.hbm, 58, rfl⟩
abbrev main_call0_v5 : Ref sig .tc := ⟨.hbm, 59, rfl⟩
abbrev main_call0_cst_2 : Ref sig .tc := ⟨.hbm, 60, rfl⟩
abbrev main_call0_v6 : Ref sig .tc := ⟨.hbm, 61, rfl⟩
abbrev main_call0_v7 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_cst_1 : Ref sig .tc := ⟨.hbm, 97, rfl⟩
abbrev main_call1_call0_v0 : Ref sig .tc := ⟨.hbm, 98, rfl⟩
abbrev main_call1_call0_v1 : Ref sig .tc := ⟨.hbm, 99, rfl⟩
abbrev main_call1_v4 : Ref sig .tc := ⟨.hbm, 100, rfl⟩
abbrev main_call1_v5 : Ref sig .tc := ⟨.hbm, 101, rfl⟩
abbrev main_call1_cst_2 : Ref sig .tc := ⟨.hbm, 102, rfl⟩
abbrev main_call1_v6 : Ref sig .tc := ⟨.hbm, 103, rfl⟩
abbrev main_call1_v7 : Ref sig .tc := ⟨.hbm, 104, rfl⟩
abbrev main_v62 : Ref sig .tc := ⟨.hbm, 105, rfl⟩
abbrev main_c_8 : Ref sig .tc := ⟨.hbm, 106, rfl⟩
abbrev main_v63 : Ref sig .tc := ⟨.hbm, 107, rfl⟩
abbrev main_v64 : Ref sig .tc := ⟨.hbm, 108, rfl⟩
abbrev main_c_9 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_10 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_cst_1 : Ref sig .tc := ⟨.hbm, 139, rfl⟩
abbrev main_call2_call0_v0 : Ref sig .tc := ⟨.hbm, 140, rfl⟩
abbrev main_call2_call0_v1 : Ref sig .tc := ⟨.hbm, 141, rfl⟩
abbrev main_call2_v4 : Ref sig .tc := ⟨.hbm, 142, rfl⟩
abbrev main_call2_v5 : Ref sig .tc := ⟨.hbm, 143, rfl⟩
abbrev main_call2_cst_2 : Ref sig .tc := ⟨.hbm, 144, rfl⟩
abbrev main_call2_v6 : Ref sig .tc := ⟨.hbm, 145, rfl⟩
abbrev main_call2_v7 : Ref sig .tc := ⟨.hbm, 146, rfl⟩
abbrev main_v87 : Ref sig .tc := ⟨.hbm, 147, rfl⟩
abbrev main_c_11 : Ref sig .tc := ⟨.hbm, 148, rfl⟩
abbrev main_v88 : Ref sig .tc := ⟨.hbm, 149, rfl⟩
abbrev main_v89 : Ref sig .tc := ⟨.hbm, 150, rfl⟩
abbrev main_c_12 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_13 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_call3_cst : Ref sig .tc := ⟨.hbm, 175, rfl⟩
abbrev main_call3_v0 : Ref sig .tc := ⟨.hbm, 176, rfl⟩
abbrev main_call3_v1 : Ref sig .tc := ⟨.hbm, 177, rfl⟩
abbrev main_call3_cst_0 : Ref sig .tc := ⟨.hbm, 178, rfl⟩
abbrev main_call3_v2 : Ref sig .tc := ⟨.hbm, 179, rfl⟩
abbrev main_call3_v3 : Ref sig .tc := ⟨.hbm, 180, rfl⟩
abbrev main_call3_cst_1 : Ref sig .tc := ⟨.hbm, 181, rfl⟩
abbrev main_call3_call0_v0 : Ref sig .tc := ⟨.hbm, 182, rfl⟩
abbrev main_call3_call0_v1 : Ref sig .tc := ⟨.hbm, 183, rfl⟩
abbrev main_call3_v4 : Ref sig .tc := ⟨.hbm, 184, rfl⟩
abbrev main_call3_v5 : Ref sig .tc := ⟨.hbm, 185, rfl⟩
abbrev main_call3_cst_2 : Ref sig .tc := ⟨.hbm, 186, rfl⟩
abbrev main_call3_v6 : Ref sig .tc := ⟨.hbm, 187, rfl⟩
abbrev main_call3_v7 : Ref sig .tc := ⟨.hbm, 188, rfl⟩
abbrev main_v112 : Ref sig .tc := ⟨.hbm, 189, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KFoldRun.lean ====
/-
  The whole program's run, with its result buffer named.

  From any launch memory with zero counters, every weakly fair execution of the program on the TensorCores
  terminates without a fault, and in every final state the five argument arrays hold what they were launched with
  while the result buffer holds the last boundary's contents at that buffer: the value obtained by following the
  buffer back through the four layers' regions and the host stretches between them.
-/
import proofs.«104823_j65841848648310_1_alg».proof.Proof.Gen.KernelIdeal
import proofs.«104823_j65841848648310_1_alg».proof.Proof.Gen.KernelIdeal.Frame
import Idealize.ShloMosaic.PureOps.Ideal.Laws

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting; the result buffer ends at the last boundary's contents
    there, and every argument array as launched. -/
theorem run_named : θ_run (defs (F := Ideal)) (onTc (τ := τ) (main (F := Ideal))) ⟨m, fun _ => 0, ρ⟩ (fun r => ∀ c : Dev nD,
      r.2.mem ((c.tc : Thread nD τ).loc main_v84) = W8 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v84 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.KValue

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«104823_j65841848648310_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibGcnDense.lean ====
/-
  The dense tail of a graph-convolution layer, read at an index, at the ideal values.

  For an aggregated feature matrix agg (M rows, k columns), a column of per-row scales col (M rows), a weight matrix W
  (k rows, n columns), a bias row β and a residual matrix h (M rows, n columns), the tail's value at row p and column q is

      max( (∑ c, (agg(p, c) · col(p)) · W(c, q)) + β(q), 0 ) + h(p, q).

  Two spellings of it are read here and shown to be this one function: the one that scales the rows by a broadcast
  column, rounds both factors to a narrower format (which changes nothing at the ideal values), multiplies into a zero
  accumulator, adds the bias row, clamps below at a splat zero and adds the residual; and the host's, with the host's
  matrix product, the bias vector broadcast twice and the zero a broadcast scalar constant. A block of consecutive rows
  of the tail's value is the tail applied to the same rows of agg, col and h.
-/
import Idealize.ShloMosaic.PureOps.Ideal.Laws
import Idealize.ShloMosaic.Lib.ValueIdx
import Idealize.ShloMosaic.Lib.ValueLayout
import Idealize.ShloMosaic.Lib.Pipeline.Value
import proofs.«104823_j65841848648310_1_alg».proof.Proof.LibLinearLayer
import proofs.«104823_j65841848648310_1_alg».proof.Proof.LibRowStat

noncomputable section

namespace Cert.LibGcnDense

open Idealize.ShloMosaic Idealize.ShloMosaic.ValueIdx Cert.LibLinearLayer

variable {M k n : Nat}

/-- The rows of agg scaled by the column col: at (p, c), agg(p, c) · col(p). -/
def scaleRows (agg : FVec Ideal ⟨2, ![M, k]⟩ .f32) (col : FVec Ideal ⟨2, ![M, 1]⟩ .f32) : FVec Ideal ⟨2, ![M, k]⟩ .f32 :=
  fun j => agg j * col (ix2 (show Fin M from j 0) (0 : Fin 1))

/-- The dense tail: the linear layer of the scaled rows, clamped below at zero, plus the residual. -/
def dense (agg : FVec Ideal ⟨2, ![M, k]⟩ .f32) (col : FVec Ideal ⟨2, ![M, 1]⟩ .f32) (W : FVec Ideal ⟨2, ![k, n]⟩ .f32)
    (β : Fin n → EReal) (h : FVec Ideal ⟨2, ![M, n]⟩ .f32) : FVec Ideal ⟨2, ![M, n]⟩ .f32 :=
  fun i => max (lin (scaleRows agg col) W β i) (Ideal.ofBits .f32 0x00000000#32) + h i

theorem dense_apply (agg : FVec Ideal ⟨2, ![M, k]⟩ .f32) (col : FVec Ideal ⟨2, ![M, 1]⟩ .f32) (W : FVec Ideal ⟨2, ![k, n]⟩ .f32)
    (β : Fin n → EReal) (h : FVec Ideal ⟨2, ![M, n]⟩ .f32) (i : (⟨2, ![M, n]⟩ : Shape).Idx) :
    dense agg col W β h i = max (lin (scaleRows agg col) W β i) (Ideal.ofBits .f32 0x00000000#32) + h i := rfl

/-- Scaling by the column broadcast over the lanes (the vector spelling) is the row scaling. -/
theorem mulf_broadcastTo_eq (agg : FVec Ideal ⟨2, ![M, k]⟩ .f32) (col : FVec Ideal ⟨2, ![M, 1]⟩ .f32)
    (hb : (⟨2, ![M, 1]⟩ : Shape).Broadcasts ⟨2, ![M, k]⟩) :
    mulf agg (broadcastTo ⟨2, ![M, k]⟩ col hb) = scaleRows agg col := by
  funext j
  obtain ⟨p, c, rfl⟩ : ∃ (p : Fin M) (c : Fin k), j = ix2 p c := ⟨j 0, j 1, eq_ix2 j⟩
  rw [mulf_apply, Cert.LibRowStat.broadcastTo_a1_ab_apply]
  rfl

/-- Scaling by the column broadcast over the lanes (the host spelling) is the row scaling. -/
theorem mulf_broadcastInDim_eq (agg : FVec Ideal ⟨2, ![M, k]⟩ .f32) (col : FVec Ideal ⟨2, ![M, 1]⟩ .f32)
    (hb : (⟨2, ![M, 1]⟩ : Shape).BroadcastsInDim ⟨2, ![M, k]⟩ ![0, 1]) :
    mulf agg (broadcastInDim ⟨2, ![M, k]⟩ ![0, 1] hb col) = scaleRows agg col := by
  funext j
  obtain ⟨p, c, rfl⟩ : ∃ (p : Fin M) (c : Fin k), j = ix2 p c := ⟨j 0, j 1, eq_ix2 j⟩
  rw [mulf_apply, broadcastInDim_apply ![0, 1] hb col (ix2 p c) (ix2 p (0 : Fin 1)) (fun ax => by
    match ax with
    | ⟨0, _⟩ =>
      show p.val = if M = 1 then 0 else p.val
      split
      · have := p.isLt; omega
      · rfl
    | ⟨1, _⟩ => exact (if_pos rfl).symm)]
  rfl

/-- The kernel's spelling of the tail. -/
theorem body_eq_dense (D : DotDims ⟨2, ![M, k]⟩ ⟨2, ![k, n]⟩ ⟨2, ![M, n]⟩) (hD : D = DotDims.plain M k n)
    (hbits : FTy.bits .bf16 < FTy.bits .f32)
    (hcol : (⟨2, ![M, 1]⟩ : Shape).Broadcasts ⟨2, ![M, k]⟩)
    (hsc : (⟨1, ![n]⟩ : Shape).ShapeCasts ⟨2, ![1, n]⟩)
    (hb : (⟨2, ![1, n]⟩ : Shape).Broadcasts ⟨2, ![M, n]⟩)
    (agg : FVec Ideal ⟨2, ![M, k]⟩ .f32) (col : FVec Ideal ⟨2, ![M, 1]⟩ .f32) (W : FVec Ideal ⟨2, ![k, n]⟩ .f32)
    (b : FVec Ideal ⟨1, ![n]⟩ .f32) (h : FVec Ideal ⟨2, ![M, n]⟩ .f32) :
    addf (maximumf
        (addf (matmul D none (truncf .bf16 (mulf agg (broadcastTo ⟨2, ![M, k]⟩ col hcol)) hbits) (truncf .bf16 W hbits)
            (constant (F := Ideal) ⟨2, ![M, n]⟩ .f32 0x00000000#32))
          (broadcastTo ⟨2, ![M, n]⟩ (shapeCast ⟨2, ![1, n]⟩ b hsc) hb))
        (broadcast ⟨2, ![M, n]⟩ (Scalar.ofBits (F := Ideal) .f32 0x00000000#32))) h
      = dense agg col W (fun q => b (ix1 q)) h := by
  rw [body_eq_lin D hD hbits hb, mulf_broadcastTo_eq]
  funext i
  rw [dense_apply, addf_apply, maximumf_apply, broadcast_apply]
  have hβ : (fun q : Fin n => shapeCast ⟨2, ![1, n]⟩ b hsc (ix2 (0 : Fin 1) q)) = fun q => b (ix1 q) :=
    funext fun q => shapeCast_a_1a_apply b hsc 0 q
  rw [hβ]
  rfl

/-- The host's spelling of the tail. -/
theorem host_eq_dense (D : DotDims ⟨2, ![M, k]⟩ ⟨2, ![k, n]⟩ ⟨2, ![M, n]⟩) (hD : D = DotDims.plain M k n)
    (hcol : (⟨2, ![M, 1]⟩ : Shape).BroadcastsInDim ⟨2, ![M, k]⟩ ![0, 1])
    (h1 : (⟨1, ![n]⟩ : Shape).BroadcastsInDim ⟨2, ![1, n]⟩ ![1])
    (h2 : (⟨2, ![1, n]⟩ : Shape).BroadcastsInDim ⟨2, ![M, n]⟩ ![0, 1])
    (h0 : (⟨0, ![]⟩ : Shape).BroadcastsInDim ⟨2, ![M, n]⟩ ![])
    (agg : FVec Ideal ⟨2, ![M, k]⟩ .f32) (col : FVec Ideal ⟨2, ![M, 1]⟩ .f32) (W : FVec Ideal ⟨2, ![k, n]⟩ .f32)
    (b : FVec Ideal ⟨1, ![n]⟩ .f32) (h : FVec Ideal ⟨2, ![M, n]⟩ .f32) :
    addf (maximumf
        (addf (Host.dotGeneral D none (mulf agg (broadcastInDim ⟨2, ![M, k]⟩ ![0, 1] hcol col)) W)
          (broadcastInDim ⟨2, ![M, n]⟩ ![0, 1] h2 (broadcastInDim ⟨2, ![1, n]⟩ ![1] h1 b)))
        (broadcastInDim ⟨2, ![M, n]⟩ ![] h0 (constant (F := Ideal) ⟨0, ![]⟩ .f32 0x00000000#32))) h
      = dense agg col W (fun q => b (ix1 q)) h := by
  rw [host_eq_lin D hD h1 h2, mulf_broadcastInDim_eq]
  funext i
  rw [dense_apply, addf_apply, maximumf_apply,
    broadcastInDim_apply ![] h0 _ i ix0 (fun a => a.elim0), constant_apply]

/-- Rows of the tail's value are the tail of the same rows: if row a of the blocks xb, colb, hb holds row A of
    X, COL, H, the tail of the blocks at (a, q) is the tail of the arrays at (A, q). -/
theorem dense_rows {r : Nat} (X : FVec Ideal ⟨2, ![M, k]⟩ .f32) (xb : FVec Ideal ⟨2, ![r, k]⟩ .f32)
    (COL : FVec Ideal ⟨2, ![M, 1]⟩ .f32) (colb : FVec Ideal ⟨2, ![r, 1]⟩ .f32)
    (W : FVec Ideal ⟨2, ![k, n]⟩ .f32) (β : Fin n → EReal)
    (H : FVec Ideal ⟨2, ![M, n]⟩ .f32) (hb : FVec Ideal ⟨2, ![r, n]⟩ .f32)
    (a : Fin r) (A : Fin M) (q : Fin n)
    (hx : ∀ c : Fin k, xb (ix2 a c) = X (ix2 A c))
    (hcol : colb (ix2 a (0 : Fin 1)) = COL (ix2 A (0 : Fin 1)))
    (hh : hb (ix2 a q) = H (ix2 A q)) :
    dense xb colb W β hb (ix2 a q) = dense X COL W β H (ix2 A q) := by
  rw [dense_apply, dense_apply, hh, lin_apply, lin_apply]
  congr 3
  refine Finset.sum_congr rfl fun c _ => ?_
  show xb (ix2 a c) * colb (ix2 a (0 : Fin 1)) * _ = X (ix2 A c) * COL (ix2 A (0 : Fin 1)) * _
  rw [hx c, hcol]

/-- A block of r consecutive rows, the T-th one, of the tail's value is the tail of the same rows: if the blocks xb, colb, hb
    hold rows T·r … T·r + r − 1 of X, COL, H, the tail of the blocks at j is the tail of the arrays at i whenever i is j moved
    down by T·r rows. -/
theorem dense_block {r : Nat} (X : FVec Ideal ⟨2, ![M, k]⟩ .f32) (xb : FVec Ideal ⟨2, ![r, k]⟩ .f32)
    (COL : FVec Ideal ⟨2, ![M, 1]⟩ .f32) (colb : FVec Ideal ⟨2, ![r, 1]⟩ .f32)
    (W : FVec Ideal ⟨2, ![k, n]⟩ .f32) (β : Fin n → EReal)
    (H : FVec Ideal ⟨2, ![M, n]⟩ .f32) (hb : FVec Ideal ⟨2, ![r, n]⟩ .f32) (T : Nat)
    (hx : ∀ (y : (⟨2, ![r, k]⟩ : Shape).Idx) (z : (⟨2, ![M, k]⟩ : Shape).Idx),
      (z 0).val = T * r + (y 0).val → (z 1).val = (y 1).val → xb y = X z)
    (hcol : ∀ (y : (⟨2, ![r, 1]⟩ : Shape).Idx) (z : (⟨2, ![M, 1]⟩ : Shape).Idx),
      (z 0).val = T * r + (y 0).val → (z 1).val = (y 1).val → colb y = COL z)
    (hh : ∀ (y : (⟨2, ![r, n]⟩ : Shape).Idx) (z : (⟨2, ![M, n]⟩ : Shape).Idx),
      (z 0).val = T * r + (y 0).val → (z 1).val = (y 1).val → hb y = H z)
    (j : (⟨2, ![r, n]⟩ : Shape).Idx) (i : (⟨2, ![M, n]⟩ : Shape).Idx)
    (hi0 : (i 0).val = T * r + (j 0).val) (hi1 : (i 1).val = (j 1).val) :
    dense xb colb W β hb j = dense X COL W β H i := by
  obtain ⟨a, q, rfl⟩ : ∃ (a : Fin r) (q : Fin n), j = ix2 a q := ⟨j 0, j 1, eq_ix2 j⟩
  obtain ⟨A, q', rfl⟩ : ∃ (A : Fin M) (q' : Fin n), i = ix2 A q' := ⟨i 0, i 1, eq_ix2 i⟩
  have hA : A.val = T * r + a.val := hi0
  have hq : q' = q := Fin.ext hi1
  subst hq
  exact dense_rows X xb COL colb W β H hb a A q' (fun c => hx _ _ hA rfl) (hcol _ _ hA rfl) (hh _ _ hA rfl)

end Cert.LibGcnDense

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.LibGraphConvLayer.lean ====
/-
  One graph-convolution layer with mean aggregation and an exponential linear unit, read at an index, at the ideal
  values.

  For a matrix g of neighbour sums and a matrix x of node features (m rows, k columns each), a vector d of per-row
  scales (the inverse degrees), two weight matrices Wl and Wr (k rows, n columns) and a bias β, the layer's value at
  row a and column q is

      elu( (∑ c, (g(a, c) · d(a)) · Wl(c, q)) + (∑ c, x(a, c) · Wr(c, q)) + β(q) ),

  where elu(o) is o for o > 0 and exp(o) − 1 otherwise, on the extended reals (exp(−∞) = 0, so elu(−∞) = −1).

  Two spellings of it are read here and shown to be this one function. In the first the rows of g are scaled by a
  broadcast column, all four matrices are rounded to a narrower format (which changes nothing at the ideal values), the
  two products are formed into zero accumulators and added, the bias row is broadcast over the rows and added last, and
  the unit is written as a select between the value and exp of it minus a splat one. In the second the host's product
  of the scaled g with Wl receives the bias (a vector made a row, then broadcast over the rows) BEFORE the product of x
  with Wr is added, and the unit is the one the host's library writes: a select between the value and one times
  exp-minus-one of the value clamped above at zero. The two orders of the three summands agree because addition of
  extended reals is commutative and associative; no summand has to be finite. In the unit, where the value is not
  positive the clamp is the identity and exp-minus-one is exp minus one; where it is positive both selects take the
  value itself.
  A block of consecutive rows of the layer's value is the layer applied to the same rows of g, x and d.
-/
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value
import proofs.«104823_j65841848648310_1_alg».proof.Proof.LibMatmulPlain
import proofs.«104823_j65841848648310_1_alg».proof.Proof.LibRowStat
import proofs.«104823_j65841848648310_1_alg».proof.Proof.LibLinearLayer
import proofs.«104823_j65841848648310_1_alg».proof.Proof.LibGcnDense
import proofs.«104823_j65841848648310_1_alg».proof.Proof.LibF32Literals

noncomputable section

namespace Cert.LibGraphConvLayer

open Idealize.ShloMosaic Idealize.ShloMosaic.ValueIdx

/-! ## The exponential linear unit -/

/-- The exponential linear unit on the extended reals: the value itself where it is positive, exp of it minus one
    elsewhere. -/
def elu (o : EReal) : EReal := if 0 < o then o else Ideal.exp o - 1

/-- The unit as a select between the value and exp of it minus a splat one, against a splat zero. -/
def bodyAct {s : Shape} (o : FVec Ideal s .f32) : FVec Ideal s .f32 :=
  select (cmpf .ogt o (broadcast s (Scalar.ofBits (F := Ideal) .f32 0x00000000#32))) o
    (subf (exp o) (broadcast s (Scalar.ofBits (F := Ideal) .f32 0x3F800000#32)))

/-- Entry by entry the select spelling is the unit: the two splat words denote 0 and 1. -/
theorem bodyAct_apply {s : Shape} (o : FVec Ideal s .f32) (i : s.Idx) : bodyAct o i = elu (o i) := by
  unfold bodyAct elu
  rw [select_apply, cmpf_apply, subf_apply, broadcast_apply, broadcast_apply]
  show Scalar.select (Ideal.cmp .ogt (o i) (Ideal.ofBits .f32 0x00000000#32)) (o i)
      (Ideal.exp (o i) - Ideal.ofBits .f32 0x3F800000#32) = _
  rw [Ideal.ofBits_zero_f32, Cert.LibF32Literals.ofBits_one]
  by_cases h : (0 : EReal) < o i <;> simp [Scalar.select, Ideal.cmp, h]

/-- The unit as the host's library writes it: where the value is positive the value, elsewhere one times
    exp-minus-one of the value with its positive entries replaced by zero; zero and one are broadcast scalar
    constants, and the replacement zero passes through an identity conversion. -/
def hostAct {s : Shape} (h0 : (⟨0, ![]⟩ : Shape).BroadcastsInDim s ![]) (o : FVec Ideal s .f32) : FVec Ideal s .f32 :=
  select (cmpf .ogt o (broadcastInDim s ![] h0 (constant (F := Ideal) ⟨0, ![]⟩ .f32 0x00000000#32))) o
    (mulf (broadcastInDim s ![] h0 (constant (F := Ideal) ⟨0, ![]⟩ .f32 0x3F800000#32))
      (Host.expm1 (select (cmpf .ogt o (broadcastInDim s ![] h0 (constant (F := Ideal) ⟨0, ![]⟩ .f32 0x00000000#32)))
        (broadcastInDim s ![] h0 (id (constant (F := Ideal) ⟨0, ![]⟩ .f32 0x00000000#32))) o)))

/-- A broadcast scalar constant reads the extended real its word encodes. -/
theorem bcast_const_apply {s : Shape} (h0 : (⟨0, ![]⟩ : Shape).BroadcastsInDim s ![]) (b : BitVec (FTy.bits .f32))
    (i : s.Idx) : broadcastInDim s ![] h0 (constant (F := Ideal) ⟨0, ![]⟩ .f32 b) i = Ideal.ofBits .f32 b := by
  rw [broadcastInDim_apply ![] h0 _ i ix0 (fun a => a.elim0), constant_apply]

/-- Entry by entry the host's spelling is the unit. -/
theorem hostAct_apply {s : Shape} (h0 : (⟨0, ![]⟩ : Shape).BroadcastsInDim s ![]) (o : FVec Ideal s .f32) (i : s.Idx) :
    hostAct h0 o i = elu (o i) := by
  unfold hostAct elu
  rw [select_apply, cmpf_apply, mulf_apply, bcast_const_apply, bcast_const_apply]
  show Scalar.select (Ideal.cmp .ogt (o i) (Ideal.ofBits .f32 0x00000000#32)) (o i)
      (Ideal.ofBits .f32 0x3F800000#32 * (Ideal.exp (Scalar.select (Ideal.cmp .ogt (o i)
        (broadcastInDim s ![] h0 (constant (F := Ideal) ⟨0, ![]⟩ .f32 0x00000000#32) i))
        (broadcastInDim s ![] h0 (id (constant (F := Ideal) ⟨0, ![]⟩ .f32 0x00000000#32)) i) (o i)) - 1)) = _
  rw [show (id (constant (F := Ideal) ⟨0, ![]⟩ .f32 0x00000000#32)) = constant (F := Ideal) ⟨0, ![]⟩ .f32 0x00000000#32 from rfl,
    bcast_const_apply, Ideal.ofBits_zero_f32, Cert.LibF32Literals.ofBits_one]
  by_cases h : (0 : EReal) < o i <;> simp [Scalar.select, Ideal.cmp, h]

/-! ## The layer -/

variable {m k n : Nat}

/-- The value before the unit: at row a and column q, the scaled neighbour sums times Wl, plus the node's features
    times Wr, plus the bias. -/
def pre (g x : FVec Ideal ⟨2, ![m, k]⟩ .f32) (d : Fin m → EReal) (Wl Wr : FVec Ideal ⟨2, ![k, n]⟩ .f32) (β : Fin n → EReal)
    (a : Fin m) (q : Fin n) : EReal :=
  ((∑ c : Fin k, (g (ix2 a c) * d a) * Wl (ix2 c q)) + (∑ c : Fin k, x (ix2 a c) * Wr (ix2 c q))) + β q

/-- The layer: the unit of the value before it, entry by entry. -/
def conv (g x : FVec Ideal ⟨2, ![m, k]⟩ .f32) (d : Fin m → EReal) (Wl Wr : FVec Ideal ⟨2, ![k, n]⟩ .f32) (β : Fin n → EReal) :
    FVec Ideal ⟨2, ![m, n]⟩ .f32 :=
  fun i => elu (pre g x d Wl Wr β (show Fin m from i 0) (show Fin n from i 1))

theorem conv_apply (g x : FVec Ideal ⟨2, ![m, k]⟩ .f32) (d : Fin m → EReal) (Wl Wr : FVec Ideal ⟨2, ![k, n]⟩ .f32)
    (β : Fin n → EReal) (a : Fin m) (q : Fin n) :
    conv g x d Wl Wr β (ix2 a q) = elu (pre g x d Wl Wr β a q) := rfl

/-- The first spelling. -/
theorem body_eq_conv (D : DotDims ⟨2, ![m, k]⟩ ⟨2, ![k, n]⟩ ⟨2, ![m, n]⟩) (hD : D = DotDims.plain m k n)
    (hbits : FTy.bits .bf16 < FTy.bits .f32)
    (hcol : (⟨2, ![m, 1]⟩ : Shape).Broadcasts ⟨2, ![m, k]⟩)
    (hb : (⟨2, ![1, n]⟩ : Shape).Broadcasts ⟨2, ![m, n]⟩)
    (G X : FVec Ideal ⟨2, ![m, k]⟩ .f32) (col : FVec Ideal ⟨2, ![m, 1]⟩ .f32) (Wl Wr : FVec Ideal ⟨2, ![k, n]⟩ .f32)
    (bias : FVec Ideal ⟨2, ![1, n]⟩ .f32) :
    bodyAct
        (addf
          (addf
            (matmul D none (truncf .bf16 (mulf G (broadcastTo ⟨2, ![m, k]⟩ col hcol)) hbits) (truncf .bf16 Wl hbits)
              (constant (F := Ideal) ⟨2, ![m, n]⟩ .f32 0x00000000#32))
            (matmul D none (truncf .bf16 X hbits) (truncf .bf16 Wr hbits)
              (constant (F := Ideal) ⟨2, ![m, n]⟩ .f32 0x00000000#32)))
          (broadcastTo ⟨2, ![m, n]⟩ bias hb))
      = conv G X (fun p => col (ix2 p (0 : Fin 1))) Wl Wr (fun q => bias (ix2 (0 : Fin 1) q)) := by
  subst hD
  funext j
  obtain ⟨a, q, rfl⟩ : ∃ (a : Fin m) (q : Fin n), j = ix2 a q := ⟨j 0, j 1, eq_ix2 j⟩
  rw [bodyAct_apply, conv_apply, addf_apply, addf_apply, Cert.LibMatmulPlain.matmul_plain_zero_apply,
    Cert.LibMatmulPlain.matmul_plain_zero_apply, broadcastTo_1b_ab_apply, Cert.LibGcnDense.mulf_broadcastTo_eq]
  rfl

/-- The second spelling. -/
theorem host_eq_conv (D : DotDims ⟨2, ![m, k]⟩ ⟨2, ![k, n]⟩ ⟨2, ![m, n]⟩) (hD : D = DotDims.plain m k n)
    (h0 : (⟨0, ![]⟩ : Shape).BroadcastsInDim ⟨2, ![m, n]⟩ ![])
    (hcol : (⟨2, ![m, 1]⟩ : Shape).BroadcastsInDim ⟨2, ![m, k]⟩ ![0, 1])
    (h1 : (⟨1, ![n]⟩ : Shape).BroadcastsInDim ⟨2, ![1, n]⟩ ![1])
    (h2 : (⟨2, ![1, n]⟩ : Shape).BroadcastsInDim ⟨2, ![m, n]⟩ ![0, 1])
    (G X : FVec Ideal ⟨2, ![m, k]⟩ .f32) (col : FVec Ideal ⟨2, ![m, 1]⟩ .f32) (Wl Wr : FVec Ideal ⟨2, ![k, n]⟩ .f32)
    (b : FVec Ideal ⟨1, ![n]⟩ .f32) :
    hostAct h0
        (addf
          (addf (Host.dotGeneral D none (mulf G (broadcastInDim ⟨2, ![m, k]⟩ ![0, 1] hcol col)) Wl)
            (broadcastInDim ⟨2, ![m, n]⟩ ![0, 1] h2 (broadcastInDim ⟨2, ![1, n]⟩ ![1] h1 b)))
          (Host.dotGeneral D none X Wr))
      = conv G X (fun p => col (ix2 p (0 : Fin 1))) Wl Wr (fun q => b (ix1 q)) := by
  rw [Cert.LibLinearLayer.host_eq_lin D hD h1 h2, Cert.LibGcnDense.mulf_broadcastInDim_eq]
  subst hD
  funext j
  obtain ⟨a, q, rfl⟩ : ∃ (a : Fin m) (q : Fin n), j = ix2 a q := ⟨j 0, j 1, eq_ix2 j⟩
  rw [hostAct_apply, conv_apply, addf_apply, Cert.LibLinearLayer.lin_apply, StackMember.dotGeneral_plain_apply,
    add_right_comm]
  rfl

/-- Rows of the layer's value are the layer of the same rows: if row a of the blocks gb, xb and of the scales db holds
    row A of g, x and d, the layer of the blocks at (a, q) is the layer of the arrays at (A, q). -/
theorem conv_rows {M r : Nat} (Gm X : FVec Ideal ⟨2, ![M, k]⟩ .f32) (gb xb : FVec Ideal ⟨2, ![r, k]⟩ .f32)
    (dM : Fin M → EReal) (db : Fin r → EReal) (Wl Wr : FVec Ideal ⟨2, ![k, n]⟩ .f32) (β : Fin n → EReal)
    (a : Fin r) (A : Fin M) (q : Fin n)
    (hg : ∀ c : Fin k, gb (ix2 a c) = Gm (ix2 A c)) (hx : ∀ c : Fin k, xb (ix2 a c) = X (ix2 A c)) (hd : db a = dM A) :
    conv gb xb db Wl Wr β (ix2 a q) = conv Gm X dM Wl Wr β (ix2 A q) := by
  rw [conv_apply, conv_apply]
  unfold pre
  have e1 : (∑ c : Fin k, (gb (ix2 a c) * db a) * Wl (ix2 c q)) = ∑ c : Fin k, (Gm (ix2 A c) * dM A) * Wl (ix2 c q) :=
    Finset.sum_congr rfl fun c _ => by rw [hg c, hd]
  have e2 : (∑ c : Fin k, xb (ix2 a c) * Wr (ix2 c q)) = ∑ c : Fin k, X (ix2 A c) * Wr (ix2 c q) :=
    Finset.sum_congr rfl fun c _ => by rw [hx c]
  rw [e1, e2]

/-- A block of r consecutive rows, the T-th one, of the layer's value is the layer of the same rows: if the blocks gb, xb
    and the column block cb hold rows T·r … T·r + r − 1 of g, x and of the scale column, the layer of the blocks at j is
    the layer of the arrays at i whenever i is j moved down by T·r rows. -/
theorem conv_block {M r : Nat} (Gm X : FVec Ideal ⟨2, ![M, k]⟩ .f32) (gb xb : FVec Ideal ⟨2, ![r, k]⟩ .f32)
    (C : FVec Ideal ⟨2, ![M, 1]⟩ .f32) (cb : FVec Ideal ⟨2, ![r, 1]⟩ .f32)
    (Wl Wr : FVec Ideal ⟨2, ![k, n]⟩ .f32) (β : Fin n → EReal) (T : Nat)
    (hg : ∀ (y : (⟨2, ![r, k]⟩ : Shape).Idx) (z : (⟨2, ![M, k]⟩ : Shape).Idx),
      (z 0).val = T * r + (y 0).val → (z 1).val = (y 1).val → gb y = Gm z)
    (hx : ∀ (y : (⟨2, ![r, k]⟩ : Shape).Idx) (z : (⟨2, ![M, k]⟩ : Shape).Idx),
      (z 0).val = T * r + (y 0).val → (z 1).val = (y 1).val → xb y = X z)
    (hc : ∀ (y : (⟨2, ![r, 1]⟩ : Shape).Idx) (z : (⟨2, ![M, 1]⟩ : Shape).Idx),
      (z 0).val = T * r + (y 0).val → (z 1).val = (y 1).val → cb y = C z)
    (j : (⟨2, ![r, n]⟩ : Shape).Idx) (i : (⟨2, ![M, n]⟩ : Shape).Idx)
    (hi0 : (i 0).val = T * r + (j 0).val) (hi1 : (i 1).val = (j 1).val) :
    conv gb xb (fun p => cb (ix2 p (0 : Fin 1))) Wl Wr β j = conv Gm X (fun p => C (ix2 p (0 : Fin 1))) Wl Wr β i := by
  obtain ⟨a, q, rfl⟩ : ∃ (a : Fin r) (q : Fin n), j = ix2 a q := ⟨j 0, j 1, eq_ix2 j⟩
  obtain ⟨A, q', rfl⟩ : ∃ (A : Fin M) (q' : Fin n), i = ix2 A q' := ⟨i 0, i 1, eq_ix2 i⟩
  have hA : A.val = T * r + a.val := hi0
  have hq : q' = q := Fin.ext hi1
  subst hq
  exact conv_rows Gm X gb xb _ _ Wl Wr β a A q' (fun c => hg _ _ hA rfl) (fun c => hx _ _ hA rfl) (hc _ _ hA rfl)

end Cert.LibGraphConvLayer

end
-- ==== Proof.KRegion0.lean ====
/-
  What the first layer's kernel leaves in its result array, as one function of the arrays it is launched on.

  The kernel runs on a grid of 25 points; point t stages rows 2000·t … 2000·t + 1999 of the neighbour sums, of the
  inverse-degree column and of the node features, the two 128×128 weight matrices and the bias row whole, and writes
  back rows 2000·t … 2000·t + 1999 of the result. What the body stores is the graph-convolution layer of its staged
  blocks; a block of rows of the layer's value is the layer of the same rows of its operands, and the 25 row blocks
  tile the 50000 rows, so the result array ends holding the layer of the whole arrays. The arrays' contents at the
  region's entry are a parameter here.
-/
import proofs.«104823_j65841848648310_1_alg».proof.Proof.Gen.KernelIdeal.Frame
import proofs.«104823_j65841848648310_1_alg».proof.Proof.LibGraphConvLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibGraphConvLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is launched on: neighbour sums, inverse-degree column, node features,
    the two weight matrices and the bias row, as the region finds them. -/
def G (c : Dev nD) : FVec Ideal S50000x128 .f32 :=
  conv (m := 50000) (k := 128) (n := 128)
    (V c main_v22 : FVec Ideal S50000x128 .f32) (V c main_arg0 : FVec Ideal S50000x128 .f32)
    (fun p => (V c main_v12 : FVec Ideal S50000x1 .f32) (ix2 p (0 : Fin 1)))
    (V c main_v24 : FVec Ideal S128x128 .f32) (V c main_v28 : FVec Ideal S128x128 .f32)
    (fun q => (V c main_v29 : FVec Ideal S1x128 .f32) (ix2 (0 : Fin 1) q))

/-- What the body stores is the layer of its six loaded blocks. -/
theorem pay_eq (x0 : Vec Ideal S2000x128 .f32) (x1 : Vec Ideal S2000x1 .f32) (x2 : Vec Ideal S2000x128 .f32)
    (x3 x5 : Vec Ideal S128x128 .f32) (x4 : Vec Ideal S1x128 .f32) :
    k0_pay1 x0 x1 x2 x3 x5 x4
      = conv (m := 2000) (k := 128) (n := 128) x0 x2 (fun p => x1 (ix2 p (0 : Fin 1))) x3 x5
          (fun q => x4 (ix2 (0 : Fin 1) q)) := by
  unfold k0_pay1
  simp only [shapeCast_self]
  exact body_eq_conv dot_S2000x128_S128x128_S2000x128_1_0_0_1_n_n rfl bitsLt_bf16_f32 broadcasts_S2000x1_S2000x128
    broadcasts_S1x128_S2000x128 x0 x2 x1 x3 x5 x4

/-- The printed index maps over the grid: the three row-blocked inputs and the output sit at block row t, the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t is rows 2000·t … 2000·t + 1999 of its array. -/
theorem rows_sums (c : Dev nD) (t : Fin cfg0.N) (y : S2000x128.Idx) (z : S50000x128.Idx)
    (h0 : (z 0).val = t.val * 2000 + (y 0).val) (h1 : (z 1).val = (y 1).val) :
    (iblk0 V c 0 t : Vec Ideal S2000x128 .f32) y = (V c main_v22 : FVec Ideal S50000x128 .f32) z := by
  obtain ⟨e00, e01, e10, e11, e20, e21, e30, e31, e40, e41, e50, e51, e60, e61⟩ := idx_facts t
  unfold iblk0
  rw [View.read_apply]
  show V c main_v22 _ = V c main_v22 _
  congr 1
  funext a
  apply Fin.ext
  match a with
  | ⟨0, _⟩ => show win0_0.index t (0 : Fin 2) * 2000 + 1 * (y 0).val = (z 0).val; rw [e00, h0]; omega
  | ⟨1, _⟩ => show win0_0.index t (1 : Fin 2) * 128 + 1 * (y 1).val = (z 1).val; rw [e01, h1]; omega

/-- Window 1's block at point t is rows 2000·t … 2000·t + 1999 of its array. -/
theorem rows_scale (c : Dev nD) (t : Fin cfg0.N) (y : S2000x1.Idx) (z : S50000x1.Idx)
    (h0 : (z 0).val = t.val * 2000 + (y 0).val) (h1 : (z 1).val = (y 1).val) :
    (iblk0 V c 1 t : Vec Ideal S2000x1 .f32) y = (V c main_v12 : FVec Ideal S50000x1 .f32) z := by
  obtain ⟨e00, e01, e10, e11, e20, e21, e30, e31, e40, e41, e50, e51, e60, e61⟩ := idx_facts t
  unfold iblk0
  rw [View.read_apply]
  show V c main_v12 _ = V c main_v12 _
  congr 1
  funext a
  apply Fin.ext
  match a with
  | ⟨0, _⟩ => show win0_1.index t (0 : Fin 2) * 2000 + 1 * (y 0).val = (z 0).val; rw [e10, h0]; omega
  | ⟨1, _⟩ => show win0_1.index t (1 : Fin 2) * 1 + 1 * (y 1).val = (z 1).val; rw [e11, h1]; omega

/-- Window 2's block at point t is rows 2000·t … 2000·t + 1999 of its array. -/
theorem rows_feat (c : Dev nD) (t : Fin cfg0.N) (y : S2000x128.Idx) (z : S50000x128.Idx)
    (h0 : (z 0).val = t.val * 2000 + (y 0).val) (h1 : (z 1).val = (y 1).val) :
    (iblk0 V c 2 t : Vec Ideal S2000x128 .f32) y = (V c main_arg0 : FVec Ideal S50000x128 .f32) z := by
  obtain ⟨e00, e01, e10, e11, e20, e21, e30, e31, e40, e41, e50, e51, e60, e61⟩ := idx_facts t
  unfold iblk0
  rw [View.read_apply]
  show V c main_arg0 _ = V c main_arg0 _
  congr 1
  funext a
  apply Fin.ext
  match a with
  | ⟨0, _⟩ => show win0_2.index t (0 : Fin 2) * 2000 + 1 * (y 0).val = (z 0).val; rw [e20, h0]; omega
  | ⟨1, _⟩ => show win0_2.index t (1 : Fin 2) * 128 + 1 * (y 1).val = (z 1).val; rw [e21, h1]; omega

/-- Window 3's block at every point is its whole array. -/
theorem whole_wl (c : Dev nD) (t : Fin cfg0.N) :
    (iblk0 V c 3 t : Vec Ideal S128x128 .f32) = (V c main_v24 : FVec Ideal S128x128 .f32) := by
  obtain ⟨e00, e01, e10, e11, e20, e21, e30, e31, e40, e41, e50, e51, e60, e61⟩ := idx_facts t
  funext y
  unfold iblk0
  rw [View.read_apply]
  show V c main_v24 _ = V c main_v24 y
  congr 1
  funext a
  apply Fin.ext
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-- Window 5's block at every point is its whole array. -/
theorem whole_wr (c : Dev nD) (t : Fin cfg0.N) :
    (iblk0 V c 5 t : Vec Ideal S128x128 .f32) = (V c main_v28 : FVec Ideal S128x128 .f32) := by
  obtain ⟨e00, e01, e10, e11, e20, e21, e30, e31, e40, e41, e50, e51, e60, e61⟩ := idx_facts t
  funext y
  unfold iblk0
  rw [View.read_apply]
  show V c main_v28 _ = V c main_v28 y
  congr 1
  funext a
  apply Fin.ext
  match a with
  | ⟨0, _⟩ => show win0_5.index t (0 : Fin 2) * 128 + 1 * (y 0).val = (y 0).val; rw [e50]; omega
  | ⟨1, _⟩ => show win0_5.index t (1 : Fin 2) * 128 + 1 * (y 1).val = (y 1).val; rw [e51]; omega

/-- Window 4's block at every point is its whole array. -/
theorem whole_bias (c : Dev nD) (t : Fin cfg0.N) :
    (iblk0 V c 4 t : Vec Ideal S1x128 .f32) = (V c main_v29 : FVec Ideal S1x128 .f32) := by
  obtain ⟨e00, e01, e10, e11, e20, e21, e30, e31, e40, e41, e50, e51, e60, e61⟩ := idx_facts t
  funext y
  unfold iblk0
  rw [View.read_apply]
  show V c main_v29 _ = V c main_v29 y
  congr 1
  funext a
  apply Fin.ext
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-- WHAT POINT t WRITES BACK is rows 2000·t … 2000·t + 1999 of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x128) hz, View.ld_unit_zero (S := S1x128) hz]
  rw [pay_eq, whole_wl V c t, whole_wr V c t, whole_bias V c t]
  obtain ⟨e00, e01, e10, e11, e20, e21, e30, e31, e40, e41, e50, e51, e60, e61⟩ := idx_facts t
  funext j
  refine conv_block (M := 50000) (r := 2000) (V c main_v22 : FVec Ideal S50000x128 .f32) (V c main_arg0 : FVec Ideal S50000x128 .f32)
    (iblk0 V c 0 t : Vec Ideal S2000x128 .f32) (iblk0 V c 2 t : Vec Ideal S2000x128 .f32)
    (V c main_v12 : FVec Ideal S50000x1 .f32) (iblk0 V c 1 t : Vec Ideal S2000x1 .f32)
    (V c main_v24 : FVec Ideal S128x128 .f32) (V c main_v28 : FVec Ideal S128x128 .f32)
    (fun q => (V c main_v29 : FVec Ideal S1x128 .f32) (ix2 (0 : Fin 1) q)) t.val
    (rows_sums V c t) (rows_feat V c t) (rows_scale V c t) _ _ ?_ ?_
  · show win0_6.index t (0 : Fin 2) * 2000 + 1 * (j 0).val = t.val * 2000 + (j 0).val
    rw [e60]; omega
  · show win0_6.index t (1 : Fin 2) * 128 + 1 * (j 1).val = (j 1).val
    rw [e61]; omega

/-- An index of the result array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v30).slice (win0_6.rect t)).set ↔ _
  rw [View.set_slice_whole, Rect.mem_set_unit]
  exact Iff.rfl

/-- The 25 row blocks tile the 50000 rows: row i lies in the block of point i / 2000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_6 _, ?_⟩
  obtain ⟨e00, e01, e10, e11, e20, e21, e30, e31, e40, e41, e50, e51, e60, e61⟩ :=
    idx_facts ⟨(i 0).val / 2000, by rw [hN]; omega⟩
  rw [mem_blk]
  intro a
  match a with
  | ⟨0, _⟩ =>
    show win0_6.index _ (0 : Fin 2) * 2000 ≤ (i 0).val ∧ (i 0).val < win0_6.index _ (0 : Fin 2) * 2000 + 2000
    rw [e60]
    show (i 0).val / 2000 * 2000 ≤ (i 0).val ∧ (i 0).val < (i 0).val / 2000 * 2000 + 2000
    omega
  | ⟨1, _⟩ =>
    show win0_6.index _ (1 : Fin 2) * 128 ≤ (i 1).val ∧ (i 1).val < win0_6.index _ (1 : Fin 2) * 128 + 128
    rw [e61]
    omega

/-- THE RESULT ARRAY after the region: the layer of the arrays the region was launched on. -/
theorem final (c : Dev nD) : (dat0 V c).arrAt 6 cfg0.N = G V c :=
  (dat0 V c).arrAt_eq_of_cover 6 (G V c) (fun t _ => flushed_eq V c t) cover

end Cert.KernelIdeal.Region0

end
-- ==== Proof.KRegion1.lean ====
/-
  What the second layer's kernel leaves in its result array, as one function of the arrays it is launched on.

  The kernel runs on a grid of 25 points; point t stages rows 2000·t … 2000·t + 1999 of the neighbour sums, of the
  inverse-degree column and of the node features, the two 128×128 weight matrices and the bias row whole, and writes
  back rows 2000·t … 2000·t + 1999 of the result. What the body stores is the graph-convolution layer of its staged
  blocks; a block of rows of the layer's value is the layer of the same rows of its operands, and the 25 row blocks
  tile the 50000 rows, so the result array ends holding the layer of the whole arrays. The arrays' contents at the
  region's entry are a parameter here.
-/
import proofs.«104823_j65841848648310_1_alg».proof.Proof.Gen.KernelIdeal.Frame
import proofs.«104823_j65841848648310_1_alg».proof.Proof.LibGraphConvLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibGraphConvLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is launched on: neighbour sums, inverse-degree column, node features,
    the two weight matrices and the bias row, as the region finds them. -/
def G (c : Dev nD) : FVec Ideal S50000x128 .f32 :=
  conv (m := 50000) (k := 128) (n := 128)
    (V c main_v40 : FVec Ideal S50000x128 .f32) (V c main_v30 : FVec Ideal S50000x128 .f32)
    (fun p => (V c main_v12 : FVec Ideal S50000x1 .f32) (ix2 p (0 : Fin 1)))
    (V c main_v42 : FVec Ideal S128x128 .f32) (V c main_v46 : FVec Ideal S128x128 .f32)
    (fun q => (V c main_v47 : FVec Ideal S1x128 .f32) (ix2 (0 : Fin 1) q))

/-- What the body stores is the layer of its six loaded blocks. -/
theorem pay_eq (x0 : Vec Ideal S2000x128 .f32) (x1 : Vec Ideal S2000x1 .f32) (x2 : Vec Ideal S2000x128 .f32)
    (x3 x5 : Vec Ideal S128x128 .f32) (x4 : Vec Ideal S1x128 .f32) :
    k1_pay1 x0 x1 x2 x3 x5 x4
      = conv (m := 2000) (k := 128) (n := 128) x0 x2 (fun p => x1 (ix2 p (0 : Fin 1))) x3 x5
          (fun q => x4 (ix2 (0 : Fin 1) q)) := by
  unfold k1_pay1
  simp only [shapeCast_self]
  exact body_eq_conv dot_S2000x128_S128x128_S2000x128_1_0_0_1_n_n rfl bitsLt_bf16_f32 broadcasts_S2000x1_S2000x128
    broadcasts_S1x128_S2000x128 x0 x2 x1 x3 x5 x4

/-- The printed index maps over the grid: the three row-blocked inputs and the output sit at block row t, the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t is rows 2000·t … 2000·t + 1999 of its array. -/
theorem rows_sums (c : Dev nD) (t : Fin cfg1.N) (y : S2000x128.Idx) (z : S50000x128.Idx)
    (h0 : (z 0).val = t.val * 2000 + (y 0).val) (h1 : (z 1).val = (y 1).val) :
    (iblk1 V c 0 t : Vec Ideal S2000x128 .f32) y = (V c main_v40 : FVec Ideal S50000x128 .f32) z := by
  obtain ⟨e00, e01, e10, e11, e20, e21, e30, e31, e40, e41, e50, e51, e60, e61⟩ := idx_facts t
  unfold iblk1
  rw [View.read_apply]
  show V c main_v40 _ = V c main_v40 _
  congr 1
  funext a
  apply Fin.ext
  match a with
  | ⟨0, _⟩ => show win1_0.index t (0 : Fin 2) * 2000 + 1 * (y 0).val = (z 0).val; rw [e00, h0]; omega
  | ⟨1, _⟩ => show win1_0.index t (1 : Fin 2) * 128 + 1 * (y 1).val = (z 1).val; rw [e01, h1]; omega

/-- Window 1's block at point t is rows 2000·t … 2000·t + 1999 of its array. -/
theorem rows_scale (c : Dev nD) (t : Fin cfg1.N) (y : S2000x1.Idx) (z : S50000x1.Idx)
    (h0 : (z 0).val = t.val * 2000 + (y 0).val) (h1 : (z 1).val = (y 1).val) :
    (iblk1 V c 1 t : Vec Ideal S2000x1 .f32) y = (V c main_v12 : FVec Ideal S50000x1 .f32) z := by
  obtain ⟨e00, e01, e10, e11, e20, e21, e30, e31, e40, e41, e50, e51, e60, e61⟩ := idx_facts t
  unfold iblk1
  rw [View.read_apply]
  show V c main_v12 _ = V c main_v12 _
  congr 1
  funext a
  apply Fin.ext
  match a with
  | ⟨0, _⟩ => show win1_1.index t (0 : Fin 2) * 2000 + 1 * (y 0).val = (z 0).val; rw [e10, h0]; omega
  | ⟨1, _⟩ => show win1_1.index t (1 : Fin 2) * 1 + 1 * (y 1).val = (z 1).val; rw [e11, h1]; omega

/-- Window 2's block at point t is rows 2000·t … 2000·t + 1999 of its array. -/
theorem rows_feat (c : Dev nD) (t : Fin cfg1.N) (y : S2000x128.Idx) (z : S50000x128.Idx)
    (h0 : (z 0).val = t.val * 2000 + (y 0).val) (h1 : (z 1).val = (y 1).val) :
    (iblk1 V c 2 t : Vec Ideal S2000x128 .f32) y = (V c main_v30 : FVec Ideal S50000x128 .f32) z := by
  obtain ⟨e00, e01, e10, e11, e20, e21, e30, e31, e40, e41, e50, e51, e60, e61⟩ := idx_facts t
  unfold iblk1
  rw [View.read_apply]
  show V c main_v30 _ = V c main_v30 _
  congr 1
  funext a
  apply Fin.ext
  match a with
  | ⟨0, _⟩ => show win1_2.index t (0 : Fin 2) * 2000 + 1 * (y 0).val = (z 0).val; rw [e20, h0]; omega
  | ⟨1, _⟩ => show win1_2.index t (1 : Fin 2) * 128 + 1 * (y 1).val = (z 1).val; rw [e21, h1]; omega

/-- Window 3's block at every point is its whole array. -/
theorem whole_wl (c : Dev nD) (t : Fin cfg1.N) :
    (iblk1 V c 3 t : Vec Ideal S128x128 .f32) = (V c main_v42 : FVec Ideal S128x128 .f32) := by
  obtain ⟨e00, e01, e10, e11, e20, e21, e30, e31, e40, e41, e50, e51, e60, e61⟩ := idx_facts t
  funext y
  unfold iblk1
  rw [View.read_apply]
  show V c main_v42 _ = V c main_v42 y
  congr 1
  funext a
  apply Fin.ext
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

/-- Window 5's block at every point is its whole array. -/
theorem whole_wr (c : Dev nD) (t : Fin cfg1.N) :
    (iblk1 V c 5 t : Vec Ideal S128x128 .f32) = (V c main_v46 : FVec Ideal S128x128 .f32) := by
  obtain ⟨e00, e01, e10, e11, e20, e21, e30, e31, e40, e41, e50, e51, e60, e61⟩ := idx_facts t
  funext y
  unfold iblk1
  rw [View.read_apply]
  show V c main_v46 _ = V c main_v46 y
  congr 1
  funext a
  apply Fin.ext
  match a with
  | ⟨0, _⟩ => show win1_5.index t (0 : Fin 2) * 128 + 1 * (y 0).val = (y 0).val; rw [e50]; omega
  | ⟨1, _⟩ => show win1_5.index t (1 : Fin 2) * 128 + 1 * (y 1).val = (y 1).val; rw [e51]; omega

/-- Window 4's block at every point is its whole array. -/
theorem whole_bias (c : Dev nD) (t : Fin cfg1.N) :
    (iblk1 V c 4 t : Vec Ideal S1x128 .f32) = (V c main_v47 : FVec Ideal S1x128 .f32) := by
  obtain ⟨e00, e01, e10, e11, e20, e21, e30, e31, e40, e41, e50, e51, e60, e61⟩ := idx_facts t
  funext y
  unfold iblk1
  rw [View.read_apply]
  show V c main_v47 _ = V c main_v47 y
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 128 + 1 * (y 1).val = (y 1).val; rw [e41]; omega

/-- WHAT POINT t WRITES BACK is rows 2000·t … 2000·t + 1999 of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x128) hz, View.ld_unit_zero (S := S1x128) hz]
  rw [pay_eq, whole_wl V c t, whole_wr V c t, whole_bias V c t]
  obtain ⟨e00, e01, e10, e11, e20, e21, e30, e31, e40, e41, e50, e51, e60, e61⟩ := idx_facts t
  funext j
  refine conv_block (M := 50000) (r := 2000) (V c main_v40 : FVec Ideal S50000x128 .f32) (V c main_v30 : FVec Ideal S50000x128 .f32)
    (iblk1 V c 0 t : Vec Ideal S2000x128 .f32) (iblk1 V c 2 t : Vec Ideal S2000x128 .f32)
    (V c main_v12 : FVec Ideal S50000x1 .f32) (iblk1 V c 1 t : Vec Ideal S2000x1 .f32)
    (V c main_v42 : FVec Ideal S128x128 .f32) (V c main_v46 : FVec Ideal S128x128 .f32)
    (fun q => (V c main_v47 : FVec Ideal S1x128 .f32) (ix2 (0 : Fin 1) q)) t.val
    (rows_sums V c t) (rows_feat V c t) (rows_scale V c t) _ _ ?_ ?_
  · show win1_6.index t (0 : Fin 2) * 2000 + 1 * (j 0).val = t.val * 2000 + (j 0).val
    rw [e60]; omega
  · show win1_6.index t (1 : Fin 2) * 128 + 1 * (j 1).val = (j 1).val
    rw [e61]; omega

/-- An index of the result array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v48).slice (win1_6.rect t)).set ↔ _
  rw [View.set_slice_whole, Rect.mem_set_unit]
  exact Iff.rfl

/-- The 25 row blocks tile the 50000 rows: row i lies in the block of point i / 2000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_6 _, ?_⟩
  obtain ⟨e00, e01, e10, e11, e20, e21, e30, e31, e40, e41, e50, e51, e60, e61⟩ :=
    idx_facts ⟨(i 0).val / 2000, by rw [hN]; omega⟩
  rw [mem_blk]
  intro a
  match a with
  | ⟨0, _⟩ =>
    show win1_6.index _ (0 : Fin 2) * 2000 ≤ (i 0).val ∧ (i 0).val < win1_6.index _ (0 : Fin 2) * 2000 + 2000
    rw [e60]
    show (i 0).val / 2000 * 2000 ≤ (i 0).val ∧ (i 0).val < (i 0).val / 2000 * 2000 + 2000
    omega
  | ⟨1, _⟩ =>
    show win1_6.index _ (1 : Fin 2) * 128 ≤ (i 1).val ∧ (i 1).val < win1_6.index _ (1 : Fin 2) * 128 + 128
    rw [e61]
    omega

/-- THE RESULT ARRAY after the region: the layer of the arrays the region was launched on. -/
theorem final (c : Dev nD) : (dat1 V c).arrAt 6 cfg1.N = G V c :=
  (dat1 V c).arrAt_eq_of_cover 6 (G V c) (fun t _ => flushed_eq V c t) cover

end Cert.KernelIdeal.Region1

end
-- ==== Proof.KRegion2.lean ====
/-
  What the third layer's kernel leaves in its result array, as one function of the arrays it is launched on.

  The kernel runs on a grid of 25 points; point t stages rows 2000·t … 2000·t + 1999 of the neighbour sums, of the
  inverse-degree column and of the node features, the two 128×128 weight matrices and the bias row whole, and writes
  back rows 2000·t … 2000·t + 1999 of the result. What the body stores is the graph-convolution layer of its staged
  blocks; a block of rows of the layer's value is the layer of the same rows of its operands, and the 25 row blocks
  tile the 50000 rows, so the result array ends holding the layer of the whole arrays. The arrays' contents at the
  region's entry are a parameter here.
-/
import proofs.«104823_j65841848648310_1_alg».proof.Proof.Gen.KernelIdeal.Frame
import proofs.«104823_j65841848648310_1_alg».proof.Proof.LibGraphConvLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.LibGraphConvLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is launched on: neighbour sums, inverse-degree column, node features,
    the two weight matrices and the bias row, as the region finds them. -/
def G (c : Dev nD) : FVec Ideal S50000x128 .f32 :=
  conv (m := 50000) (k := 128) (n := 128)
    (V c main_v58 : FVec Ideal S50000x128 .f32) (V c main_v48 : FVec Ideal S50000x128 .f32)
    (fun p => (V c main_v12 : FVec Ideal S50000x1 .f32) (ix2 p (0 : Fin 1)))
    (V c main_v60 : FVec Ideal S128x128 .f32) (V c main_v64 : FVec Ideal S128x128 .f32)
    (fun q => (V c main_v65 : FVec Ideal S1x128 .f32) (ix2 (0 : Fin 1) q))

/-- What the body stores is the layer of its six loaded blocks. -/
theorem pay_eq (x0 : Vec Ideal S2000x128 .f32) (x1 : Vec Ideal S2000x1 .f32) (x2 : Vec Ideal S2000x128 .f32)
    (x3 x5 : Vec Ideal S128x128 .f32) (x4 : Vec Ideal S1x128 .f32) :
    k2_pay1 x0 x1 x2 x3 x5 x4
      = conv (m := 2000) (k := 128) (n := 128) x0 x2 (fun p => x1 (ix2 p (0 : Fin 1))) x3 x5
          (fun q => x4 (ix2 (0 : Fin 1) q)) := by
  unfold k2_pay1
  simp only [shapeCast_self]
  exact body_eq_conv dot_S2000x128_S128x128_S2000x128_1_0_0_1_n_n rfl bitsLt_bf16_f32 broadcasts_S2000x1_S2000x128
    broadcasts_S1x128_S2000x128 x0 x2 x1 x3 x5 x4

/-- The printed index maps over the grid: the three row-blocked inputs and the output sit at block row t, the weights
    and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 2000·t … 2000·t + 1999 of its array. -/
theorem rows_sums (c : Dev nD) (t : Fin cfg2.N) (y : S2000x128.Idx) (z : S50000x128.Idx)
    (h0 : (z 0).val = t.val * 2000 + (y 0).val) (h1 : (z 1).val = (y 1).val) :
    (iblk2 V c 0 t : Vec Ideal S2000x128 .f32) y = (V c main_v58 : FVec Ideal S50000x128 .f32) z := by
  obtain ⟨e00, e01, e10, e11, e20, e21, e30, e31, e40, e41, e50, e51, e60, e61⟩ := idx_facts t
  unfold iblk2
  rw [View.read_apply]
  show V c main_v58 _ = V c main_v58 _
  congr 1
  funext a
  apply Fin.ext
  match a with
  | ⟨0, _⟩ => show win2_0.index t (0 : Fin 2) * 2000 + 1 * (y 0).val = (z 0).val; rw [e00, h0]; omega
  | ⟨1, _⟩ => show win2_0.index t (1 : Fin 2) * 128 + 1 * (y 1).val = (z 1).val; rw [e01, h1]; omega

/-- Window 1's block at point t is rows 2000·t … 2000·t + 1999 of its array. -/
theorem rows_scale (c : Dev nD) (t : Fin cfg2.N) (y : S2000x1.Idx) (z : S50000x1.Idx)
    (h0 : (z 0).val = t.val * 2000 + (y 0).val) (h1 : (z 1).val = (y 1).val) :
    (iblk2 V c 1 t : Vec Ideal S2000x1 .f32) y = (V c main_v12 : FVec Ideal S50000x1 .f32) z := by
  obtain ⟨e00, e01, e10, e11, e20, e21, e30, e31, e40, e41, e50, e51, e60, e61⟩ := idx_facts t
  unfold iblk2
  rw [View.read_apply]
  show V c main_v12 _ = V c main_v12 _
  congr 1
  funext a
  apply Fin.ext
  match a with
  | ⟨0, _⟩ => show win2_1.index t (0 : Fin 2) * 2000 + 1 * (y 0).val = (z 0).val; rw [e10, h0]; omega
  | ⟨1, _⟩ => show win2_1.index t (1 : Fin 2) * 1 + 1 * (y 1).val = (z 1).val; rw [e11, h1]; omega

/-- Window 2's block at point t is rows 2000·t … 2000·t + 1999 of its array. -/
theorem rows_feat (c : Dev nD) (t : Fin cfg2.N) (y : S2000x128.Idx) (z : S50000x128.Idx)
    (h0 : (z 0).val = t.val * 2000 + (y 0).val) (h1 : (z 1).val = (y 1).val) :
    (iblk2 V c 2 t : Vec Ideal S2000x128 .f32) y = (V c main_v48 : FVec Ideal S50000x128 .f32) z := by
  obtain ⟨e00, e01, e10, e11, e20, e21, e30, e31, e40, e41, e50, e51, e60, e61⟩ := idx_facts t
  unfold iblk2
  rw [View.read_apply]
  show V c main_v48 _ = V c main_v48 _
  congr 1
  funext a
  apply Fin.ext
  match a with
  | ⟨0, _⟩ => show win2_2.index t (0 : Fin 2) * 2000 + 1 * (y 0).val = (z 0).val; rw [e20, h0]; omega
  | ⟨1, _⟩ => show win2_2.index t (1 : Fin 2) * 128 + 1 * (y 1).val = (z 1).val; rw [e21, h1]; omega

/-- Window 3's block at every point is its whole array. -/
theorem whole_wl (c : Dev nD) (t : Fin cfg2.N) :
    (iblk2 V c 3 t : Vec Ideal S128x128 .f32) = (V c main_v60 : FVec Ideal S128x128 .f32) := by
  obtain ⟨e00, e01, e10, e11, e20, e21, e30, e31, e40, e41, e50, e51, e60, e61⟩ := idx_facts t
  funext y
  unfold iblk2
  rw [View.read_apply]
  show V c main_v60 _ = V c main_v60 y
  congr 1
  funext a
  apply Fin.ext
  match a with
  | ⟨0, _⟩ => show win2_3.index t (0 : Fin 2) * 128 + 1 * (y 0).val = (y 0).val; rw [e30]; omega
  | ⟨1, _⟩ => show win2_3.index t (1 : Fin 2) * 128 + 1 * (y 1).val = (y 1).val; rw [e31]; omega

/-- Window 5's block at every point is its whole array. -/
theorem whole_wr (c : Dev nD) (t : Fin cfg2.N) :
    (iblk2 V c 5 t : Vec Ideal S128x128 .f32) = (V c main_v64 : FVec Ideal S128x128 .f32) := by
  obtain ⟨e00, e01, e10, e11, e20, e21, e30, e31, e40, e41, e50, e51, e60, e61⟩ := idx_facts t
  funext y
  unfold iblk2
  rw [View.read_apply]
  show V c main_v64 _ = V c main_v64 y
  congr 1
  funext a
  apply Fin.ext
  match a with
  | ⟨0, _⟩ => show win2_5.index t (0 : Fin 2) * 128 + 1 * (y 0).val = (y 0).val; rw [e50]; omega
  | ⟨1, _⟩ => show win2_5.index t (1 : Fin 2) * 128 + 1 * (y 1).val = (y 1).val; rw [e51]; omega

/-- Window 4's block at every point is its whole array. -/
theorem whole_bias (c : Dev nD) (t : Fin cfg2.N) :
    (iblk2 V c 4 t : Vec Ideal S1x128 .f32) = (V c main_v65 : FVec Ideal S1x128 .f32) := by
  obtain ⟨e00, e01, e10, e11, e20, e21, e30, e31, e40, e41, e50, e51, e60, e61⟩ := idx_facts t
  funext y
  unfold iblk2
  rw [View.read_apply]
  show V c main_v65 _ = V c main_v65 y
  congr 1
  funext a
  apply Fin.ext
  match a with
  | ⟨0, _⟩ => show win2_4.index t (0 : Fin 2) * 1 + 1 * (y 0).val = (y 0).val; rw [e40]; omega
  | ⟨1, _⟩ => show win2_4.index t (1 : Fin 2) * 128 + 1 * (y 1).val = (y 1).val; rw [e41]; omega

/-- WHAT POINT t WRITES BACK is rows 2000·t … 2000·t + 1999 of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz,
    View.ld_unit_zero (S := S128x128) hz, View.ld_unit_zero (S := S1x128) hz]
  rw [pay_eq, whole_wl V c t, whole_wr V c t, whole_bias V c t]
  obtain ⟨e00, e01, e10, e11, e20, e21, e30, e31, e40, e41, e50, e51, e60, e61⟩ := idx_facts t
  funext j
  refine conv_block (M := 50000) (r := 2000) (V c main_v58 : FVec Ideal S50000x128 .f32) (V c main_v48 : FVec Ideal S50000x128 .f32)
    (iblk2 V c 0 t : Vec Ideal S2000x128 .f32) (iblk2 V c 2 t : Vec Ideal S2000x128 .f32)
    (V c main_v12 : FVec Ideal S50000x1 .f32) (iblk2 V c 1 t : Vec Ideal S2000x1 .f32)
    (V c main_v60 : FVec Ideal S128x128 .f32) (V c main_v64 : FVec Ideal S128x128 .f32)
    (fun q => (V c main_v65 : FVec Ideal S1x128 .f32) (ix2 (0 : Fin 1) q)) t.val
    (rows_sums V c t) (rows_feat V c t) (rows_scale V c t) _ _ ?_ ?_
  · show win2_6.index t (0 : Fin 2) * 2000 + 1 * (j 0).val = t.val * 2000 + (j 0).val
    rw [e60]; omega
  · show win2_6.index t (1 : Fin 2) * 128 + 1 * (j 1).val = (j 1).val
    rw [e61]; omega

/-- An index of the result array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v66).slice (win2_6.rect t)).set ↔ _
  rw [View.set_slice_whole, Rect.mem_set_unit]
  exact Iff.rfl

/-- The 25 row blocks tile the 50000 rows: row i lies in the block of point i / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_6 _, ?_⟩
  obtain ⟨e00, e01, e10, e11, e20, e21, e30, e31, e40, e41, e50, e51, e60, e61⟩ :=
    idx_facts ⟨(i 0).val / 2000, by rw [hN]; omega⟩
  rw [mem_blk]
  intro a
  match a with
  | ⟨0, _⟩ =>
    show win2_6.index _ (0 : Fin 2) * 2000 ≤ (i 0).val ∧ (i 0).val < win2_6.index _ (0 : Fin 2) * 2000 + 2000
    rw [e60]
    show (i 0).val / 2000 * 2000 ≤ (i 0).val ∧ (i 0).val < (i 0).val / 2000 * 2000 + 2000
    omega
  | ⟨1, _⟩ =>
    show win2_6.index _ (1 : Fin 2) * 128 ≤ (i 1).val ∧ (i 1).val < win2_6.index _ (1 : Fin 2) * 128 + 128
    rw [e61]
    omega

/-- THE RESULT ARRAY after the region: the layer of the arrays the region was launched on. -/
theorem final (c : Dev nD) : (dat2 V c).arrAt 6 cfg2.N = G V c :=
  (dat2 V c).arrAt_eq_of_cover 6 (G V c) (fun t _ => flushed_eq V c t) cover

end Cert.KernelIdeal.Region2

end
-- ==== Proof.KRegion3.lean ====
/-
  What the fourth layer's kernel leaves in its result array, as one function of the arrays it is launched on.

  The kernel runs on a grid of 25 points; point t stages rows 2000·t … 2000·t + 1999 of the neighbour sums, of the
  inverse-degree column and of the node features, the two 128×128 weight matrices and the bias row whole, and writes
  back rows 2000·t … 2000·t + 1999 of the result. What the body stores is the graph-convolution layer of its staged
  blocks; a block of rows of the layer's value is the layer of the same rows of its operands, and the 25 row blocks
  tile the 50000 rows, so the result array ends holding the layer of the whole arrays. The arrays' contents at the
  region's entry are a parameter here.
-/
import proofs.«104823_j65841848648310_1_alg».proof.Proof.Gen.KernelIdeal.Frame
import proofs.«104823_j65841848648310_1_alg».proof.Proof.LibGraphConvLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.LibGraphConvLayer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is launched on: neighbour sums, inverse-degree column, node features,
    the two weight matrices and the bias row, as the region finds them. -/
def G (c : Dev nD) : FVec Ideal S50000x128 .f32 :=
  conv (m := 50000) (k := 128) (n := 128)
    (V c main_v76 : FVec Ideal S50000x128 .f32) (V c main_v66 : FVec Ideal S50000x128 .f32)
    (fun p => (V c main_v12 : FVec Ideal S50000x1 .f32) (ix2 p (0 : Fin 1)))
    (V c main_v78 : FVec Ideal S128x128 .f32) (V c main_v82 : FVec Ideal S128x128 .f32)
    (fun q => (V c main_v83 : FVec Ideal S1x128 .f32) (ix2 (0 : Fin 1) q))

/-- What the body stores is the layer of its six loaded blocks. -/
theorem pay_eq (x0 : Vec Ideal S2000x128 .f32) (x1 : Vec Ideal S2000x1 .f32) (x2 : Vec Ideal S2000x128 .f32)
    (x3 x5 : Vec Ideal S128x128 .f32) (x4 : Vec Ideal S1x128 .f32) :
    k3_pay1 x0 x1 x2 x3 x5 x4
      = conv (m := 2000) (k := 128) (n := 128) x0 x2 (fun p => x1 (ix2 p (0 : Fin 1))) x3 x5
          (fun q => x4 (ix2 (0 : Fin 1) q)) := by
  unfold k3_pay1
  simp only [shapeCast_self]
  exact body_eq_conv dot_S2000x128_S128x128_S2000x128_1_0_0_1_n_n rfl bitsLt_bf16_f32 broadcasts_S2000x1_S2000x128
    broadcasts_S1x128_S2000x128 x0 x2 x1 x3 x5 x4

/-- The printed index maps over the grid: the three row-blocked inputs and the output sit at block row t, the weights
    and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0's block at point t is rows 2000·t … 2000·t + 1999 of its array. -/
theorem rows_sums (c : Dev nD) (t : Fin cfg3.N) (y : S2000x128.Idx) (z : S50000x128.Idx)
    (h0 : (z 0).val = t.val * 2000 + (y 0).val) (h1 : (z 1).val = (y 1).val) :
    (iblk3 V c 0 t : Vec Ideal S2000x128 .f32) y = (V c main_v76 : FVec Ideal S50000x128 .f32) z := by
  obtain ⟨e00, e01, e10, e11, e20, e21, e30, e31, e40, e41, e50, e51, e60, e61⟩ := idx_facts t
  unfold iblk3
  rw [View.read_apply]
  show V c main_v76 _ = V c main_v76 _
  congr 1
  funext a
  apply Fin.ext
  match a with
  | ⟨0, _⟩ => show win3_0.index t (0 : Fin 2) * 2000 + 1 * (y 0).val = (z 0).val; rw [e00, h0]; omega
  | ⟨1, _⟩ => show win3_0.index t (1 : Fin 2) * 128 + 1 * (y 1).val = (z 1).val; rw [e01, h1]; omega

/-- Window 1's block at point t is rows 2000·t … 2000·t + 1999 of its array. -/
theorem rows_scale (c : Dev nD) (t : Fin cfg3.N) (y : S2000x1.Idx) (z : S50000x1.Idx)
    (h0 : (z 0).val = t.val * 2000 + (y 0).val) (h1 : (z 1).val = (y 1).val) :
    (iblk3 V c 1 t : Vec Ideal S2000x1 .f32) y = (V c main_v12 : FVec Ideal S50000x1 .f32) z := by
  obtain ⟨e00, e01, e10, e11, e20, e21, e30, e31, e40, e41, e50, e51, e60, e61⟩ := idx_facts t
  unfold iblk3
  rw [View.read_apply]
  show V c main_v12 _ = V c main_v12 _
  congr 1
  funext a
  apply Fin.ext
  match a with
  | ⟨0, _⟩ => show win3_1.index t (0 : Fin 2) * 2000 + 1 * (y 0).val = (z 0).val; rw [e10, h0]; omega
  | ⟨1, _⟩ => show win3_1.index t (1 : Fin 2) * 1 + 1 * (y 1).val = (z 1).val; rw [e11, h1]; omega

/-- Window 2's block at point t is rows 2000·t … 2000·t + 1999 of its array. -/
theorem rows_feat (c : Dev nD) (t : Fin cfg3.N) (y : S2000x128.Idx) (z : S50000x128.Idx)
    (h0 : (z 0).val = t.val * 2000 + (y 0).val) (h1 : (z 1).val = (y 1).val) :
    (iblk3 V c 2 t : Vec Ideal S2000x128 .f32) y = (V c main_v66 : FVec Ideal S50000x128 .f32) z := by
  obtain ⟨e00, e01, e10, e11, e20, e21, e30, e31, e40, e41, e50, e51, e60, e61⟩ := idx_facts t
  unfold iblk3
  rw [View.read_apply]
  show V c main_v66 _ = V c main_v66 _
  congr 1
  funext a
  apply Fin.ext
  match a with
  | ⟨0, _⟩ => show win3_2.index t (0 : Fin 2) * 2000 + 1 * (y 0).val = (z 0).val; rw [e20, h0]; omega
  | ⟨1, _⟩ => show win3_2.index t (1 : Fin 2) * 128 + 1 * (y 1).val = (z 1).val; rw [e21, h1]; omega

/-- Window 3's block at every point is its whole array. -/
theorem whole_wl (c : Dev nD) (t : Fin cfg3.N) :
    (iblk3 V c 3 t : Vec Ideal S128x128 .f32) = (V c main_v78 : FVec Ideal S128x128 .f32) := by
  obtain ⟨e00, e01, e10, e11, e20, e21, e30, e31, e40, e41, e50, e51, e60, e61⟩ := idx_facts t
  funext y
  unfold iblk3
  rw [View.read_apply]
  show V c main_v78 _ = V c main_v78 y
  congr 1
  funext a
  apply Fin.ext
  match a with
  | ⟨0, _⟩ => show win3_3.index t (0 : Fin 2) * 128 + 1 * (y 0).val = (y 0).val; rw [e30]; omega
  | ⟨1, _⟩ => show win3_3.index t (1 : Fin 2) * 128 + 1 * (y 1).val = (y 1).val; rw [e31]; omega

/-- Window 5's block at every point is its whole array. -/
theorem whole_wr (c : Dev nD) (t : Fin cfg3.N) :
    (iblk3 V c 5 t : Vec Ideal S128x128 .f32) = (V c main_v82 : FVec Ideal S128x128 .f32) := by
  obtain ⟨e00, e01, e10, e11, e20, e21, e30, e31, e40, e41, e50, e51, e60, e61⟩ := idx_facts t
  funext y
  unfold iblk3
  rw [View.read_apply]
  show V c main_v82 _ = V c main_v82 y
  congr 1
  funext a
  apply Fin.ext
  match a with
  | ⟨0, _⟩ => show win3_5.index t (0 : Fin 2) * 128 + 1 * (y 0).val = (y 0).val; rw [e50]; omega
  | ⟨1, _⟩ => show win3_5.index t (1 : Fin 2) * 128 + 1 * (y 1).val = (y 1).val; rw [e51]; omega

/-- Window 4's block at every point is its whole array. -/
theorem whole_bias (c : Dev nD) (t : Fin cfg3.N) :
    (iblk3 V c 4 t : Vec Ideal S1x128 .f32) = (V c main_v83 : FVec Ideal S1x128 .f32) := by
  obtain ⟨e00, e01, e10, e11, e20, e21, e30, e31, e40, e41, e50, e51, e60, e61⟩ := idx_facts t
  funext y
  unfold iblk3
  rw [View.read_apply]
  show V c main_v83 _ = V c main_v83 y
  congr 1
  funext a
  apply Fin.ext
  match a with
  | ⟨0, _⟩ => show win3_4.index t (0 : Fin 2) * 1 + 1 * (y 0).val = (y 0).val; rw [e40]; omega
  | ⟨1, _⟩ => show win3_4.index t (1 : Fin 2) * 128 + 1 * (y 1).val = (y 1).val; rw [e41]; omega

/-- WHAT POINT t WRITES BACK is rows 2000·t … 2000·t + 1999 of the layer of the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x128) hz, View.ld_unit_zero (S := S2000x1) hz,
    View.ld_unit_zero (S := S128x128) hz, View.ld_unit_zero (S := S1x128) hz]
  rw [pay_eq, whole_wl V c t, whole_wr V c t, whole_bias V c t]
  obtain ⟨e00, e01, e10, e11, e20, e21, e30, e31, e40, e41, e50, e51, e60, e61⟩ := idx_facts t
  funext j
  refine conv_block (M := 50000) (r := 2000) (V c main_v76 : FVec Ideal S50000x128 .f32) (V c main_v66 : FVec Ideal S50000x128 .f32)
    (iblk3 V c 0 t : Vec Ideal S2000x128 .f32) (iblk3 V c 2 t : Vec Ideal S2000x128 .f32)
    (V c main_v12 : FVec Ideal S50000x1 .f32) (iblk3 V c 1 t : Vec Ideal S2000x1 .f32)
    (V c main_v78 : FVec Ideal S128x128 .f32) (V c main_v82 : FVec Ideal S128x128 .f32)
    (fun q => (V c main_v83 : FVec Ideal S1x128 .f32) (ix2 (0 : Fin 1) q)) t.val
    (rows_sums V c t) (rows_feat V c t) (rows_scale V c t) _ _ ?_ ?_
  · show win3_6.index t (0 : Fin 2) * 2000 + 1 * (j 0).val = t.val * 2000 + (j 0).val
    rw [e60]; omega
  · show win3_6.index t (1 : Fin 2) * 128 + 1 * (j 1).val = (j 1).val
    rw [e61]; omega

/-- An index of the result array is in point t's block iff each coordinate is in the block's range on its axis. -/
theorem mem_blk (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v84).slice (win3_6.rect t)).set ↔ _
  rw [View.set_slice_whole, Rect.mem_set_unit]
  exact Iff.rfl

/-- The 25 row blocks tile the 50000 rows: row i lies in the block of point i / 2000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_6 _, ?_⟩
  obtain ⟨e00, e01, e10, e11, e20, e21, e30, e31, e40, e41, e50, e51, e60, e61⟩ :=
    idx_facts ⟨(i 0).val / 2000, by rw [hN]; omega⟩
  rw [mem_blk]
  intro a
  match a with
  | ⟨0, _⟩ =>
    show win3_6.index _ (0 : Fin 2) * 2000 ≤ (i 0).val ∧ (i 0).val < win3_6.index _ (0 : Fin 2) * 2000 + 2000
    rw [e60]
    show (i 0).val / 2000 * 2000 ≤ (i 0).val ∧ (i 0).val < (i 0).val / 2000 * 2000 + 2000
    omega
  | ⟨1, _⟩ =>
    show win3_6.index _ (1 : Fin 2) * 128 ≤ (i 1).val ∧ (i 1).val < win3_6.index _ (1 : Fin 2) * 128 + 128
    rw [e61]
    omega

/-- THE RESULT ARRAY after the region: the layer of the arrays the region was launched on. -/
theorem final (c : Dev nD) : (dat3 V c).arrAt 6 cfg3.N = G V c :=
  (dat3 V c).arrAt_eq_of_cover 6 (G V c) (fun t _ => flushed_eq V c t) cover

end Cert.KernelIdeal.Region3

end
-- ==== Proof.KFoldRegion.lean ====
/-
  What a layer's region leaves in the buffers the later layers read.

  A region rewrites its seven arrays and nothing else: its result array ends at the layer of the arrays it was
  entered with, its six input arrays end as they were found, and every other buffer is untouched. The buffers read
  again after a region are the two vectors of row numbers, the inverse-degree column (an input array of every
  region), the three stacked parameter arrays, and the region's own result.
-/
import proofs.«104823_j65841848648310_1_alg».proof.Proof.Gen.KernelIdeal
import proofs.«104823_j65841848648310_1_alg».proof.Proof.Gen.KernelIdeal.Frame
import proofs.«104823_j65841848648310_1_alg».proof.Proof.KRegion0
import proofs.«104823_j65841848648310_1_alg».proof.Proof.KRegion1
import proofs.«104823_j65841848648310_1_alg».proof.Proof.KRegion2
import proofs.«104823_j65841848648310_1_alg».proof.Proof.KRegion3
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## Layer 0's region -/

/-- main_v1 is none of the region's arrays: it is left as found. -/
theorem W2_v1 (c : Dev nD) :
    W2 m ρ c (Proc.devRef .tc main_v1) = W1 m ρ c (Proc.devRef .tc main_v1) := W2_of_ne m ρ c main_v1 (by decide)
/-- main_v3 is none of the region's arrays: it is left as found. -/
theorem W2_v3 (c : Dev nD) :
    W2 m ρ c (Proc.devRef .tc main_v3) = W1 m ρ c (Proc.devRef .tc main_v3) := W2_of_ne m ρ c main_v3 (by decide)
/-- main_arg2 is none of the region's arrays: it is left as found. -/
theorem W2_arg2 (c : Dev nD) :
    W2 m ρ c (Proc.devRef .tc main_arg2) = W1 m ρ c (Proc.devRef .tc main_arg2) := W2_of_ne m ρ c main_arg2 (by decide)
/-- main_arg3 is none of the region's arrays: it is left as found. -/
theorem W2_arg3 (c : Dev nD) :
    W2 m ρ c (Proc.devRef .tc main_arg3) = W1 m ρ c (Proc.devRef .tc main_arg3) := W2_of_ne m ρ c main_arg3 (by decide)
/-- main_arg4 is none of the region's arrays: it is left as found. -/
theorem W2_arg4 (c : Dev nD) :
    W2 m ρ c (Proc.devRef .tc main_arg4) = W1 m ρ c (Proc.devRef .tc main_arg4) := W2_of_ne m ρ c main_arg4 (by decide)
/-- The inverse-degree column is an input array of the region: it ends as found. -/
theorem W2_v12 (c : Dev nD) :
    W2 m ρ c (Proc.devRef .tc main_v12) = W1 m ρ c (Proc.devRef .tc main_v12) :=
  (W2_arr m ρ c 1).trans (((dat0 (V1 m ρ) c).arrAt_in 1 rfl _).trans (A_eq0 (V1 m ρ) c 1))
/-- The region's result array ends at the layer of the arrays the region was entered with. -/
theorem W2_res (c : Dev nD) :
    W2 m ρ c (Proc.devRef .tc main_v30) = Region0.G (V1 m ρ) c :=
  (W2_arr m ρ c 6).trans (Region0.final (V1 m ρ) c)

/-! ## Layer 1's region -/

/-- main_v1 is none of the region's arrays: it is left as found. -/
theorem W4_v1 (c : Dev nD) :
    W4 m ρ c (Proc.devRef .tc main_v1) = W3 m ρ c (Proc.devRef .tc main_v1) := W4_of_ne m ρ c main_v1 (by decide)
/-- main_v3 is none of the region's arrays: it is left as found. -/
theorem W4_v3 (c : Dev nD) :
    W4 m ρ c (Proc.devRef .tc main_v3) = W3 m ρ c (Proc.devRef .tc main_v3) := W4_of_ne m ρ c main_v3 (by decide)
/-- main_arg2 is none of the region's arrays: it is left as found. -/
theorem W4_arg2 (c : Dev nD) :
    W4 m ρ c (Proc.devRef .tc main_arg2) = W3 m ρ c (Proc.devRef .tc main_arg2) := W4_of_ne m ρ c main_arg2 (by decide)
/-- main_arg3 is none of the region's arrays: it is left as found. -/
theorem W4_arg3 (c : Dev nD) :
    W4 m ρ c (Proc.devRef .tc main_arg3) = W3 m ρ c (Proc.devRef .tc main_arg3) := W4_of_ne m ρ c main_arg3 (by decide)
/-- main_arg4 is none of the region's arrays: it is left as found. -/
theorem W4_arg4 (c : Dev nD) :
    W4 m ρ c (Proc.devRef .tc main_arg4) = W3 m ρ c (Proc.devRef .tc main_arg4) := W4_of_ne m ρ c main_arg4 (by decide)
/-- The inverse-degree column is an input array of the region: it ends as found. -/
theorem W4_v12 (c : Dev nD) :
    W4 m ρ c (Proc.devRef .tc main_v12) = W3 m ρ c (Proc.devRef .tc main_v12) :=
  (W4_arr m ρ c 1).trans (((dat1 (V3 m ρ) c).arrAt_in 1 rfl _).trans (A_eq1 (V3 m ρ) c 1))
/-- The region's result array ends at the layer of the arrays the region was entered with. -/
theorem W4_res (c : Dev nD) :
    W4 m ρ c (Proc.devRef .tc main_v48) = Region1.G (V3 m ρ) c :=
  (W4_arr m ρ c 6).trans (Region1.final (V3 m ρ) c)

/-! ## Layer 2's region -/

/-- main_v1 is none of the region's arrays: it is left as found. -/
theorem W6_v1 (c : Dev nD) :
    W6 m ρ c (Proc.devRef .tc main_v1) = W5 m ρ c (Proc.devRef .tc main_v1) := W6_of_ne m ρ c main_v1 (by decide)
/-- main_v3 is none of the region's arrays: it is left as found. -/
theorem W6_v3 (c : Dev nD) :
    W6 m ρ c (Proc.devRef .tc main_v3) = W5 m ρ c (Proc.devRef .tc main_v3) := W6_of_ne m ρ c main_v3 (by decide)
/-- main_arg2 is none of the region's arrays: it is left as found. -/
theorem W6_arg2 (c : Dev nD) :
    W6 m ρ c (Proc.devRef .tc main_arg2) = W5 m ρ c (Proc.devRef .tc main_arg2) := W6_of_ne m ρ c main_arg2 (by decide)
/-- main_arg3 is none of the region's arrays: it is left as found. -/
theorem W6_arg3 (c : Dev nD) :
    W6 m ρ c (Proc.devRef .tc main_arg3) = W5 m ρ c (Proc.devRef .tc main_arg3) := W6_of_ne m ρ c main_arg3 (by decide)
/-- main_arg4 is none of the region's arrays: it is left as found. -/
theorem W6_arg4 (c : Dev nD) :
    W6 m ρ c (Proc.devRef .tc main_arg4) = W5 m ρ c (Proc.devRef .tc main_arg4) := W6_of_ne m ρ c main_arg4 (by decide)
/-- The inverse-degree column is an input array of the region: it ends as found. -/
theorem W6_v12 (c : Dev nD) :
    W6 m ρ c (Proc.devRef .tc main_v12) = W5 m ρ c (Proc.devRef .tc main_v12) :=
  (W6_arr m ρ c 1).trans (((dat2 (V5 m ρ) c).arrAt_in 1 rfl _).trans (A_eq2 (V5 m ρ) c 1))
/-- The region's result array ends at the layer of the arrays the region was entered with. -/
theorem W6_res (c : Dev nD) :
    W6 m ρ c (Proc.devRef .tc main_v66) = Region2.G (V5 m ρ) c :=
  (W6_arr m ρ c 6).trans (Region2.final (V5 m ρ) c)

/-! ## Layer 3's region -/

/-- The program's result array ends at the layer of the arrays the last region was entered with. -/
theorem W8_res (c : Dev nD) :
    W8 m ρ c (Proc.devRef .tc main_v84) = Region3.G (V7 m ρ) c :=
  (W8_arr m ρ c 6).trans (Region3.final (V7 m ρ) c)

end Cert.KernelIdeal.KValue

end
-- ==== Proof.KHost.lean ====
/-
  The host operations between the kernel program's four regions, read as the pieces of a graph-convolution network.

  Before its first region the program reads the two rows of the edge list (the rows to gather from, the rows to add
  into), computes the inverse degrees (one over the larger of one and the number of edges into the row, reshaped to a
  column), the neighbour sums of the feature argument (gather, then scatter-add into zeros), and slices the first
  layer's two matrices and bias (the bias made a one-row matrix). Before each later region it computes the neighbour sums
  of the previous region's result and slices that layer's matrices and bias. Here each of those buffers, after its
  stretch of operations run from any contents of the device's buffers, is stated as a term of what the stretch found:
  the program's own operations, named. A buffer a stretch does not write keeps its contents. The definitions are those of
  the reference's value, over this program's shapes and facts, with the two layouts this program adds (the
  inverse degrees reshaped to a column, the bias reshaped to a row).
-/
import proofs.«104823_j65841848648310_1_alg».proof.Proof.Gen.KernelIdeal
import proofs.«104823_j65841848648310_1_alg».proof.Proof.Gen.KernelIdeal.Launch
import proofs.«104823_j65841848648310_1_alg».proof.Proof.LibGraphConvLayer
import Idealize.ShloMosaic.Lib.StableHlo.Run
import Idealize.ShloMosaic.PureOps.Ideal
import Idealize.ShloMosaic.PureOps.Ideal.Laws
import Idealize.ShloMosaic.Lib.ValueIdx

noncomputable section

namespace Cert.KernelIdeal.KHost

open Idealize.ShloMosaic Idealize.ShloMosaic.TcCoe Idealize.ShloMosaic.ValueIdx Idealize.ShloMosaic.StableHlo
open Cert.KernelIdeal Cert.KernelIdeal.Gen

section Parts

variable {F : FTy → Type} [FloatOps F]

/-- Row 0 of the edge list as a vector: per edge, the row number the gather reads, as written. -/
def srcRaw (a1 : (⟨S2x600000, .i32⟩ : BufTy).Contents (Elt F)) : (⟨S600000, .i32⟩ : BufTy).Contents (Elt F) :=
  shapeCast S600000 (extractStridedSlice S1x600000 ![0, 0] a1 slices_S2x600000_S1x600000_0_0) shapeCasts_S1x600000_S600000

/-- Row 1 of the edge list as a vector: per edge, the row number the scatter adds into. -/
def dstRaw (a1 : (⟨S2x600000, .i32⟩ : BufTy).Contents (Elt F)) : (⟨S600000, .i32⟩ : BufTy).Contents (Elt F) :=
  shapeCast S600000 (extractStridedSlice S1x600000 ![1, 0] a1 slices_S2x600000_S1x600000_1_0) shapeCasts_S1x600000_S600000

/-- The gather's index column: a negative row number has 50000 added to it, then the vector is made a column. -/
def srcColOf (v1 : (⟨S600000, .i32⟩ : BufTy).Contents (Elt F)) : (⟨S600000x1, .i32⟩ : BufTy).Contents (Elt F) :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 50000#32))) v1)

/-- The scatter's index column: the vector made a column. -/
def dstColOf (v3 : (⟨S600000, .i32⟩ : BufTy).Contents (Elt F)) : (⟨S600000x1, .i32⟩ : BufTy).Contents (Elt F) :=
  broadcastInDim S600000x1 ![0] bcast_S600000_S600000x1_0 v3

/-- The per-row scale: one over the larger of the in-degree and one, the in-degree a scatter-add of ones into zeros. -/
def invDegOf (v3 : (⟨S600000, .i32⟩ : BufTy).Contents (Elt F)) : (⟨S50000, .f32⟩ : BufTy).Contents (Elt F) :=
  Host.divf (broadcastInDim S50000 ![] bcast_S_S50000 (constant S_ .f32 0x3F800000#32))
    (maximumf
      (Host.scatterAdd scatter_S50000_S600000x1_S600000_n_0_0_1
        (broadcastInDim S50000 ![] bcast_S_S50000 (constant S_ .f32 0x00000000#32))
        (dstColOf v3)
        (broadcastInDim S600000 ![] bcast_S_S600000 (constant S_ .f32 0x3F800000#32)))
      (broadcastInDim S50000 ![] bcast_S_S50000 (constant S_ .f32 0x3F800000#32)))

/-- The neighbour sums of X: into zeros, by the scatter column, the rows of X gathered by the gather column. -/
def aggCols (s d : (⟨S600000x1, .i32⟩ : BufTy).Contents (Elt F)) (X : (⟨S50000x128, .f32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32)) d
    (Host.gather gather_S50000x128_S600000x1_S600000x128_1_0_n_n_0_1_1128 X s)

/-- Slice K of a stack of four 128 by 128 matrices. -/
def wMat (K : ℕ) (h : S4x128x128.Slices ![K, 0, 0] S1x128x128) (a : (⟨S4x128x128, .f32⟩ : BufTy).Contents (Elt F)) :
    (⟨S128x128, .f32⟩ : BufTy).Contents (Elt F) :=
  shapeCast S128x128 (extractStridedSlice S1x128x128 ![K, 0, 0] a h) shapeCasts_S1x128x128_S128x128

/-- Slice K of a stack of four vectors of 128. -/
def bVec (K : ℕ) (h : S4x128.Slices ![K, 0] S1x128) (a3 : (⟨S4x128, .f32⟩ : BufTy).Contents (Elt F)) :
    (⟨S128, .f32⟩ : BufTy).Contents (Elt F) :=
  shapeCast S128 (extractStridedSlice S1x128 ![K, 0] a3 h) shapeCasts_S1x128_S128

/-- The per-row scales as a column. -/
def invColK (v3 : (⟨S600000, .i32⟩ : BufTy).Contents (Elt F)) : (⟨S50000x1, .f32⟩ : BufTy).Contents (Elt F) :=
  shapeCast S50000x1 (invDegOf v3) shapeCasts_S50000_S50000x1

/-- Slice K of the stacked biases as a row. -/
def biasRow (K : ℕ) (h : S4x128.Slices ![K, 0] S1x128) (a3 : (⟨S4x128, .f32⟩ : BufTy).Contents (Elt F)) :
    (⟨S1x128, .f32⟩ : BufTy).Contents (Elt F) :=
  shapeCast S1x128 (bVec K h a3) shapeCasts_S128_S1x128

end Parts

/-! ## At the ideal values, as functions of the argument arrays -/

/-- The gather's index column of the edge list. -/
def srcCol (a1 : (⟨S2x600000, .i32⟩ : BufTy).Contents (Elt Ideal)) : (⟨S600000x1, .i32⟩ : BufTy).Contents (Elt Ideal) :=
  srcColOf (srcRaw a1)

/-- The scatter's index column of the edge list. -/
def dstCol (a1 : (⟨S2x600000, .i32⟩ : BufTy).Contents (Elt Ideal)) : (⟨S600000x1, .i32⟩ : BufTy).Contents (Elt Ideal) :=
  dstColOf (dstRaw a1)

/-- The neighbour sums of X over the edge list. -/
def aggOf (a1 : (⟨S2x600000, .i32⟩ : BufTy).Contents (Elt Ideal)) (X : FVec Ideal S50000x128 .f32) : FVec Ideal S50000x128 .f32 :=
  aggCols (srcCol a1) (dstCol a1) X

/-- The per-row scales of the edge list. -/
def invDeg (a1 : (⟨S2x600000, .i32⟩ : BufTy).Contents (Elt Ideal)) : FVec Ideal S50000 .f32 :=
  invDegOf (dstRaw a1)

/-- One layer over the edge list: the graph-convolution layer of the neighbour sums of X and X. -/
def layerOf (a1 : (⟨S2x600000, .i32⟩ : BufTy).Contents (Elt Ideal)) (d : Fin 50000 → EReal)
    (Wl Wr : FVec Ideal S128x128 .f32) (β : Fin 128 → EReal) (X : FVec Ideal S50000x128 .f32) : FVec Ideal S50000x128 .f32 :=
  Cert.LibGraphConvLayer.conv (m := 50000) (k := 128) (n := 128) (aggOf a1 X) X d Wl Wr β

/-- The four layers, one after the other, each with its own slice of the stacked weights and biases. -/
def net (a1 : (⟨S2x600000, .i32⟩ : BufTy).Contents (Elt Ideal)) (a2 : FVec Ideal S4x128x128 .f32) (a3 : FVec Ideal S4x128 .f32)
    (a4 : FVec Ideal S4x128x128 .f32) (X0 : FVec Ideal S50000x128 .f32) : FVec Ideal S50000x128 .f32 :=
  layerOf a1 (fun p => invDeg a1 (ix1 p)) (wMat (F := Ideal) 3 slices_S4x128x128_S1x128x128_3_0_0 a2) (wMat (F := Ideal) 3 slices_S4x128x128_S1x128x128_3_0_0 a4)
      (fun q => bVec (F := Ideal) 3 slices_S4x128_S1x128_3_0 a3 (ix1 q))
    (layerOf a1 (fun p => invDeg a1 (ix1 p)) (wMat (F := Ideal) 2 slices_S4x128x128_S1x128x128_2_0_0 a2) (wMat (F := Ideal) 2 slices_S4x128x128_S1x128x128_2_0_0 a4)
        (fun q => bVec (F := Ideal) 2 slices_S4x128_S1x128_2_0 a3 (ix1 q))
      (layerOf a1 (fun p => invDeg a1 (ix1 p)) (wMat (F := Ideal) 1 slices_S4x128x128_S1x128x128_1_0_0 a2) (wMat (F := Ideal) 1 slices_S4x128x128_S1x128x128_1_0_0 a4)
          (fun q => bVec (F := Ideal) 1 slices_S4x128_S1x128_1_0 a3 (ix1 q))
        (layerOf a1 (fun p => invDeg a1 (ix1 p)) (wMat (F := Ideal) 0 slices_S4x128x128_S1x128x128_0_0_0 a2) (wMat (F := Ideal) 0 slices_S4x128x128_S1x128x128_0_0_0 a4)
            (fun q => bVec (F := Ideal) 0 slices_S4x128_S1x128_0_0 a3 (ix1 q)) X0)))

/-! ## What each stretch leaves

From any contents `W` of the device's buffers. -/

/-! ## The first stretch (37 operations): the edge-list rows, the inverse degrees, the first layer's operands -/

set_option maxRecDepth 8192 in
set_option maxHeartbeats 2000000 in
theorem host0_v1 (W : Valuation τ sig (Elt Ideal)) :
    after (hostOps0 (F := Ideal)) W (no_index (Proc.devRef .tc main_v1)) = srcRaw (W (Proc.devRef .tc main_arg1)) := by
  simp only [hostOps0]
  after_results_simp
  rfl
set_option maxRecDepth 8192 in
set_option maxHeartbeats 2000000 in
theorem host0_v3 (W : Valuation τ sig (Elt Ideal)) :
    after (hostOps0 (F := Ideal)) W (no_index (Proc.devRef .tc main_v3)) = dstRaw (W (Proc.devRef .tc main_arg1)) := by
  simp only [hostOps0]
  after_results_simp
  rfl
set_option maxRecDepth 8192 in
set_option maxHeartbeats 2000000 in
theorem host0_v12 (W : Valuation τ sig (Elt Ideal)) :
    after (hostOps0 (F := Ideal)) W (no_index (Proc.devRef .tc main_v12)) = invColK (F := Ideal) (dstRaw (W (Proc.devRef .tc main_arg1))) := by
  simp only [hostOps0]
  after_results_simp
  rfl
set_option maxRecDepth 8192 in
set_option maxHeartbeats 2000000 in
theorem host0_agg (W : Valuation τ sig (Elt Ideal)) :
    after (hostOps0 (F := Ideal)) W (no_index (Proc.devRef .tc main_v22)) = aggOf (W (Proc.devRef .tc main_arg1)) (W (Proc.devRef .tc main_arg0)) := by
  simp only [hostOps0]
  after_results_simp
  rfl
set_option maxRecDepth 8192 in
set_option maxHeartbeats 2000000 in
theorem host0_wl (W : Valuation τ sig (Elt Ideal)) :
    after (hostOps0 (F := Ideal)) W (no_index (Proc.devRef .tc main_v24)) = wMat (F := Ideal) 0 slices_S4x128x128_S1x128x128_0_0_0 (W (Proc.devRef .tc main_arg2)) := by
  simp only [hostOps0]
  after_results_simp
  rfl
set_option maxRecDepth 8192 in
set_option maxHeartbeats 2000000 in
theorem host0_wr (W : Valuation τ sig (Elt Ideal)) :
    after (hostOps0 (F := Ideal)) W (no_index (Proc.devRef .tc main_v28)) = wMat (F := Ideal) 0 slices_S4x128x128_S1x128x128_0_0_0 (W (Proc.devRef .tc main_arg4)) := by
  simp only [hostOps0]
  after_results_simp
  rfl
set_option maxRecDepth 8192 in
set_option maxHeartbeats 2000000 in
theorem host0_bias (W : Valuation τ sig (Elt Ideal)) :
    after (hostOps0 (F := Ideal)) W (no_index (Proc.devRef .tc main_v29)) = biasRow (F := Ideal) 0 slices_S4x128_S1x128_0_0 (W (Proc.devRef .tc main_arg3)) := by
  simp only [hostOps0]
  after_results_simp
  rfl
set_option maxRecDepth 8192 in
set_option maxHeartbeats 2000000 in
theorem host0_keep_arg0 (W : Valuation τ sig (Elt Ideal)) :
    after (hostOps0 (F := Ideal)) W (no_index (Proc.devRef .tc main_arg0)) = (W (Proc.devRef .tc main_arg0)) := by
  simp only [hostOps0]
  after_results_simp
set_option maxRecDepth 8192 in
set_option maxHeartbeats 2000000 in
theorem host0_keep_arg1 (W : Valuation τ sig (Elt Ideal)) :
    after (hostOps0 (F := Ideal)) W (no_index (Proc.devRef .tc main_arg1)) = (W (Proc.devRef .tc main_arg1)) := by
  simp only [hostOps0]
  after_results_simp
set_option maxRecDepth 8192 in
set_option maxHeartbeats 2000000 in
theorem host0_keep_arg2 (W : Valuation τ sig (Elt Ideal)) :
    after (hostOps0 (F := Ideal)) W (no_index (Proc.devRef .tc main_arg2)) = (W (Proc.devRef .tc main_arg2)) := by
  simp only [hostOps0]
  after_results_simp
set_option maxRecDepth 8192 in
set_option maxHeartbeats 2000000 in
theorem host0_keep_arg3 (W : Valuation τ sig (Elt Ideal)) :
    after (hostOps0 (F := Ideal)) W (no_index (Proc.devRef .tc main_arg3)) = (W (Proc.devRef .tc main_arg3)) := by
  simp only [hostOps0]
  after_results_simp
set_option maxRecDepth 8192 in
set_option maxHeartbeats 2000000 in
theorem host0_keep_arg4 (W : Valuation τ sig (Elt Ideal)) :
    after (hostOps0 (F := Ideal)) W (no_index (Proc.devRef .tc main_arg4)) = (W (Proc.devRef .tc main_arg4)) := by
  simp only [hostOps0]
  after_results_simp

/-! ## Stretch 1 (20 operations): layer 1's neighbour sums of the previous result, and its matrices and bias row -/

set_option maxRecDepth 8192 in
set_option maxHeartbeats 2000000 in
theorem host1_agg (W : Valuation τ sig (Elt Ideal)) :
    after (hostOps1 (F := Ideal)) W (no_index (Proc.devRef .tc main_v40)) = aggCols (F := Ideal) (srcColOf (W (Proc.devRef .tc main_v1))) (dstColOf (W (Proc.devRef .tc main_v3))) (W (Proc.devRef .tc main_v30)) := by
  simp only [hostOps1]
  after_results_simp
  rfl
set_option maxRecDepth 8192 in
set_option maxHeartbeats 2000000 in
theorem host1_wl (W : Valuation τ sig (Elt Ideal)) :
    after (hostOps1 (F := Ideal)) W (no_index (Proc.devRef .tc main_v42)) = wMat (F := Ideal) 1 slices_S4x128x128_S1x128x128_1_0_0 (W (Proc.devRef .tc main_arg2)) := by
  simp only [hostOps1]
  after_results_simp
  rfl
set_option maxRecDepth 8192 in
set_option maxHeartbeats 2000000 in
theorem host1_wr (W : Valuation τ sig (Elt Ideal)) :
    after (hostOps1 (F := Ideal)) W (no_index (Proc.devRef .tc main_v46)) = wMat (F := Ideal) 1 slices_S4x128x128_S1x128x128_1_0_0 (W (Proc.devRef .tc main_arg4)) := by
  simp only [hostOps1]
  after_results_simp
  rfl
set_option maxRecDepth 8192 in
set_option maxHeartbeats 2000000 in
theorem host1_bias (W : Valuation τ sig (Elt Ideal)) :
    after (hostOps1 (F := Ideal)) W (no_index (Proc.devRef .tc main_v47)) = biasRow (F := Ideal) 1 slices_S4x128_S1x128_1_0 (W (Proc.devRef .tc main_arg3)) := by
  simp only [hostOps1]
  after_results_simp
  rfl
set_option maxRecDepth 8192 in
set_option maxHeartbeats 2000000 in
theorem host1_keep_v1 (W : Valuation τ sig (Elt Ideal)) :
    after (hostOps1 (F := Ideal)) W (no_index (Proc.devRef .tc main_v1)) = (W (Proc.devRef .tc main_v1)) := by
  simp only [hostOps1]
  after_results_simp
set_option maxRecDepth 8192 in
set_option maxHeartbeats 2000000 in
theorem host1_keep_v3 (W : Valuation τ sig (Elt Ideal)) :
    after (hostOps1 (F := Ideal)) W (no_index (Proc.devRef .tc main_v3)) = (W (Proc.devRef .tc main_v3)) := by
  simp only [hostOps1]
  after_results_simp
set_option maxRecDepth 8192 in
set_option maxHeartbeats 2000000 in
theorem host1_keep_v12 (W : Valuation τ sig (Elt Ideal)) :
    after (hostOps1 (F := Ideal)) W (no_index (Proc.devRef .tc main_v12)) = (W (Proc.devRef .tc main_v12)) := by
  simp only [hostOps1]
  after_results_simp
set_option maxRecDepth 8192 in
set_option maxHeartbeats 2000000 in
theorem host1_keep_prev (W : Valuation τ sig (Elt Ideal)) :
    after (hostOps1 (F := Ideal)) W (no_index (Proc.devRef .tc main_v30)) = (W (Proc.devRef .tc main_v30)) := by
  simp only [hostOps1]
  after_results_simp
set_option maxRecDepth 8192 in
set_option maxHeartbeats 2000000 in
theorem host1_keep_arg0 (W : Valuation τ sig (Elt Ideal)) :
    after (hostOps1 (F := Ideal)) W (no_index (Proc.devRef .tc main_arg0)) = (W (Proc.devRef .tc main_arg0)) := by
  simp only [hostOps1]
  after_results_simp
set_option maxRecDepth 8192 in
set_option maxHeartbeats 2000000 in
theorem host1_keep_arg1 (W : Valuation τ sig (Elt Ideal)) :
    after (hostOps1 (F := Ideal)) W (no_index (Proc.devRef .tc main_arg1)) = (W (Proc.devRef .tc main_arg1)) := by
  simp only [hostOps1]
  after_results_simp
set_option maxRecDepth 8192 in
set_option maxHeartbeats 2000000 in
theorem host1_keep_arg2 (W : Valuation τ sig (Elt Ideal)) :
    after (hostOps1 (F := Ideal)) W (no_index (Proc.devRef .tc main_arg2)) = (W (Proc.devRef .tc main_arg2)) := by
  simp only [hostOps1]
  after_results_simp
set_option maxRecDepth 8192 in
set_option maxHeartbeats 2000000 in
theorem host1_keep_arg3 (W : Valuation τ sig (Elt Ideal)) :
    after (hostOps1 (F := Ideal)) W (no_index (Proc.devRef .tc main_arg3)) = (W (Proc.devRef .tc main_arg3)) := by
  simp only [hostOps1]
  after_results_simp
set_option maxRecDepth 8192 in
set_option maxHeartbeats 2000000 in
theorem host1_keep_arg4 (W : Valuation τ sig (Elt Ideal)) :
    after (hostOps1 (F := Ideal)) W (no_index (Proc.devRef .tc main_arg4)) = (W (Proc.devRef .tc main_arg4)) := by
  simp only [hostOps1]
  after_results_simp

/-! ## Stretch 2 (20 operations): layer 2's neighbour sums of the previous result, and its matrices and bias row -/

set_option maxRecDepth 8192 in
set_option maxHeartbeats 2000000 in
theorem host2_agg (W : Valuation τ sig (Elt Ideal)) :
    after (hostOps2 (F := Ideal)) W (no_index (Proc.devRef .tc main_v58)) = aggCols (F := Ideal) (srcColOf (W (Proc.devRef .tc main_v1))) (dstColOf (W (Proc.devRef .tc main_v3))) (W (Proc.devRef .tc main_v48)) := by
  simp only [hostOps2]
  after_results_simp
  rfl
set_option maxRecDepth 8192 in
set_option maxHeartbeats 2000000 in
theorem host2_wl (W : Valuation τ sig (Elt Ideal)) :
    after (hostOps2 (F := Ideal)) W (no_index (Proc.devRef .tc main_v60)) = wMat (F := Ideal) 2 slices_S4x128x128_S1x128x128_2_0_0 (W (Proc.devRef .tc main_arg2)) := by
  simp only [hostOps2]
  after_results_simp
  rfl
set_option maxRecDepth 8192 in
set_option maxHeartbeats 2000000 in
theorem host2_wr (W : Valuation τ sig (Elt Ideal)) :
    after (hostOps2 (F := Ideal)) W (no_index (Proc.devRef .tc main_v64)) = wMat (F := Ideal) 2 slices_S4x128x128_S1x128x128_2_0_0 (W (Proc.devRef .tc main_arg4)) := by
  simp only [hostOps2]
  after_results_simp
  rfl
set_option maxRecDepth 8192 in
set_option maxHeartbeats 2000000 in
theorem host2_bias (W : Valuation τ sig (Elt Ideal)) :
    after (hostOps2 (F := Ideal)) W (no_index (Proc.devRef .tc main_v65)) = biasRow (F := Ideal) 2 slices_S4x128_S1x128_2_0 (W (Proc.devRef .tc main_arg3)) := by
  simp only [hostOps2]
  after_results_simp
  rfl
set_option maxRecDepth 8192 in
set_option maxHeartbeats 2000000 in
theorem host2_keep_v1 (W : Valuation τ sig (Elt Ideal)) :
    after (hostOps2 (F := Ideal)) W (no_index (Proc.devRef .tc main_v1)) = (W (Proc.devRef .tc main_v1)) := by
  simp only [hostOps2]
  after_results_simp
set_option maxRecDepth 8192 in
set_option maxHeartbeats 2000000 in
theorem host2_keep_v3 (W : Valuation τ sig (Elt Ideal)) :
    after (hostOps2 (F := Ideal)) W (no_index (Proc.devRef .tc main_v3)) = (W (Proc.devRef .tc main_v3)) := by
  simp only [hostOps2]
  after_results_simp
set_option maxRecDepth 8192 in
set_option maxHeartbeats 2000000 in
theorem host2_keep_v12 (W : Valuation τ sig (Elt Ideal)) :
    after (hostOps2 (F := Ideal)) W (no_index (Proc.devRef .tc main_v12)) = (W (Proc.devRef .tc main_v12)) := by
  simp only [hostOps2]
  after_results_simp
set_option maxRecDepth 8192 in
set_option maxHeartbeats 2000000 in
theorem host2_keep_prev (W : Valuation τ sig (Elt Ideal)) :
    after (hostOps2 (F := Ideal)) W (no_index (Proc.devRef .tc main_v48)) = (W (Proc.devRef .tc main_v48)) := by
  simp only [hostOps2]
  after_results_simp
set_option maxRecDepth 8192 in
set_option maxHeartbeats 2000000 in
theorem host2_keep_arg0 (W : Valuation τ sig (Elt Ideal)) :
    after (hostOps2 (F := Ideal)) W (no_index (Proc.devRef .tc main_arg0)) = (W (Proc.devRef .tc main_arg0)) := by
  simp only [hostOps2]
  after_results_simp
set_option maxRecDepth 8192 in
set_option maxHeartbeats 2000000 in
theorem host2_keep_arg1 (W : Valuation τ sig (Elt Ideal)) :
    after (hostOps2 (F := Ideal)) W (no_index (Proc.devRef .tc main_arg1)) = (W (Proc.devRef .tc main_arg1)) := by
  simp only [hostOps2]
  after_results_simp
set_option maxRecDepth 8192 in
set_option maxHeartbeats 2000000 in
theorem host2_keep_arg2 (W : Valuation τ sig (Elt Ideal)) :
    after (hostOps2 (F := Ideal)) W (no_index (Proc.devRef .tc main_arg2)) = (W (Proc.devRef .tc main_arg2)) := by
  simp only [hostOps2]
  after_results_simp
set_option maxRecDepth 8192 in
set_option maxHeartbeats 2000000 in
theorem host2_keep_arg3 (W : Valuation τ sig (Elt Ideal)) :
    after (hostOps2 (F := Ideal)) W (no_index (Proc.devRef .tc main_arg3)) = (W (Proc.devRef .tc main_arg3)) := by
  simp only [hostOps2]
  after_results_simp
set_option maxRecDepth 8192 in
set_option maxHeartbeats 2000000 in
theorem host2_keep_arg4 (W : Valuation τ sig (Elt Ideal)) :
    after (hostOps2 (F := Ideal)) W (no_index (Proc.devRef .tc main_arg4)) = (W (Proc.devRef .tc main_arg4)) := by
  simp only [hostOps2]
  after_results_simp

/-! ## Stretch 3 (20 operations): layer 3's neighbour sums of the previous result, and its matrices and bias row -/

set_option maxRecDepth 8192 in
set_option maxHeartbeats 2000000 in
theorem host3_agg (W : Valuation τ sig (Elt Ideal)) :
    after (hostOps3 (F := Ideal)) W (no_index (Proc.devRef .tc main_v76)) = aggCols (F := Ideal) (srcColOf (W (Proc.devRef .tc main_v1))) (dstColOf (W (Proc.devRef .tc main_v3))) (W (Proc.devRef .tc main_v66)) := by
  simp only [hostOps3]
  after_results_simp
  rfl
set_option maxRecDepth 8192 in
set_option maxHeartbeats 2000000 in
theorem host3_wl (W : Valuation τ sig (Elt Ideal)) :
    after (hostOps3 (F := Ideal)) W (no_index (Proc.devRef .tc main_v78)) = wMat (F := Ideal) 3 slices_S4x128x128_S1x128x128_3_0_0 (W (Proc.devRef .tc main_arg2)) := by
  simp only [hostOps3]
  after_results_simp
  rfl
set_option maxRecDepth 8192 in
set_option maxHeartbeats 2000000 in
theorem host3_wr (W : Valuation τ sig (Elt Ideal)) :
    after (hostOps3 (F := Ideal)) W (no_index (Proc.devRef .tc main_v82)) = wMat (F := Ideal) 3 slices_S4x128x128_S1x128x128_3_0_0 (W (Proc.devRef .tc main_arg4)) := by
  simp only [hostOps3]
  after_results_simp
  rfl
set_option maxRecDepth 8192 in
set_option maxHeartbeats 2000000 in
theorem host3_bias (W : Valuation τ sig (Elt Ideal)) :
    after (hostOps3 (F := Ideal)) W (no_index (Proc.devRef .tc main_v83)) = biasRow (F := Ideal) 3 slices_S4x128_S1x128_3_0 (W (Proc.devRef .tc main_arg3)) := by
  simp only [hostOps3]
  after_results_simp
  rfl
set_option maxRecDepth 8192 in
set_option maxHeartbeats 2000000 in
theorem host3_keep_v1 (W : Valuation τ sig (Elt Ideal)) :
    after (hostOps3 (F := Ideal)) W (no_index (Proc.devRef .tc main_v1)) = (W (Proc.devRef .tc main_v1)) := by
  simp only [hostOps3]
  after_results_simp
set_option maxRecDepth 8192 in
set_option maxHeartbeats 2000000 in
theorem host3_keep_v3 (W : Valuation τ sig (Elt Ideal)) :
    after (hostOps3 (F := Ideal)) W (no_index (Proc.devRef .tc main_v3)) = (W (Proc.devRef .tc main_v3)) := by
  simp only [hostOps3]
  after_results_simp
set_option maxRecDepth 8192 in
set_option maxHeartbeats 2000000 in
theorem host3_keep_v12 (W : Valuation τ sig (Elt Ideal)) :
    after (hostOps3 (F := Ideal)) W (no_index (Proc.devRef .tc main_v12)) = (W (Proc.devRef .tc main_v12)) := by
  simp only [hostOps3]
  after_results_simp
set_option maxRecDepth 8192 in
set_option maxHeartbeats 2000000 in
theorem host3_keep_prev (W : Valuation τ sig (Elt Ideal)) :
    after (hostOps3 (F := Ideal)) W (no_index (Proc.devRef .tc main_v66)) = (W (Proc.devRef .tc main_v66)) := by
  simp only [hostOps3]
  after_results_simp
set_option maxRecDepth 8192 in
set_option maxHeartbeats 2000000 in
theorem host3_keep_arg0 (W : Valuation τ sig (Elt Ideal)) :
    after (hostOps3 (F := Ideal)) W (no_index (Proc.devRef .tc main_arg0)) = (W (Proc.devRef .tc main_arg0)) := by
  simp only [hostOps3]
  after_results_simp
set_option maxRecDepth 8192 in
set_option maxHeartbeats 2000000 in
theorem host3_keep_arg1 (W : Valuation τ sig (Elt Ideal)) :
    after (hostOps3 (F := Ideal)) W (no_index (Proc.devRef .tc main_arg1)) = (W (Proc.devRef .tc main_arg1)) := by
  simp only [hostOps3]
  after_results_simp
set_option maxRecDepth 8192 in
set_option maxHeartbeats 2000000 in
theorem host3_keep_arg2 (W : Valuation τ sig (Elt Ideal)) :
    after (hostOps3 (F := Ideal)) W (no_index (Proc.devRef .tc main_arg2)) = (W (Proc.devRef .tc main_arg2)) := by
  simp only [hostOps3]
  after_results_simp
set_option maxRecDepth 8192 in
set_option maxHeartbeats 2000000 in
theorem host3_keep_arg3 (W : Valuation τ sig (Elt Ideal)) :
    after (hostOps3 (F := Ideal)) W (no_index (Proc.devRef .tc main_arg3)) = (W (Proc.devRef .tc main_arg3)) := by
  simp only [hostOps3]
  after_results_simp
set_option maxRecDepth 8192 in
set_option maxHeartbeats 2000000 in
theorem host3_keep_arg4 (W : Valuation τ sig (Elt Ideal)) :
    after (hostOps3 (F := Ideal)) W (no_index (Proc.devRef .tc main_arg4)) = (W (Proc.devRef .tc main_arg4)) := by
  simp only [hostOps3]
  after_results_simp

end Cert.KernelIdeal.KHost

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.KValue.lean ====
/-
  The program's value: four graph-convolution layers of its argument arrays.

  The result buffer is followed back through the run. The last region leaves in it the layer of the arrays that
  region was entered with; those arrays were written by the host stretch before it from the row numbers, the
  inverse-degree column and the stacked parameters (all computed once, before the first region, and untouched since:
  a region rewrites only its own result array) and from the previous region's result. Three more steps of the same
  kind reach the launch memory. At each region the inverse-degree column read at row p, column 0 is the scale of
  row p, and the bias row read at row 0, column q is entry q of the layer's bias.
-/
import proofs.«104823_j65841848648310_1_alg».proof.Proof.KFoldRun
import proofs.«104823_j65841848648310_1_alg».proof.Proof.KFoldRegion
import proofs.«104823_j65841848648310_1_alg».proof.Proof.KHost
import proofs.«104823_j65841848648310_1_alg».proof.Proof.LibColRow
import Idealize.ShloMosaic.Lib.ValueLayout

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.LibGraphConvLayer

/-! ## One layer with its own slices of the stacked parameters, and the two layout reads -/

/-- Layer K over the edge list a1: slice K of the two stacked weight arrays a2, a4 and of the stacked biases a3. -/
def layerK (K : ℕ) (hw : S4x128x128.Slices ![K, 0, 0] S1x128x128) (hb : S4x128.Slices ![K, 0] S1x128)
    (a1 : IVec S2x600000 32) (a2 : FVec Ideal S4x128x128 .f32) (a3 : FVec Ideal S4x128 .f32)
    (a4 : FVec Ideal S4x128x128 .f32) (X : FVec Ideal S50000x128 .f32) : FVec Ideal S50000x128 .f32 :=
  KHost.layerOf a1 (fun p => KHost.invDeg a1 (ix1 p)) (KHost.wMat (F := Ideal) K hw a2) (KHost.wMat (F := Ideal) K hw a4)
    (fun q => KHost.bVec (F := Ideal) K hb a3 (ix1 q)) X

/-- The four layers in turn are the program's value. -/
theorem net_eq (a1 : IVec S2x600000 32) (a2 : FVec Ideal S4x128x128 .f32) (a3 : FVec Ideal S4x128 .f32)
    (a4 : FVec Ideal S4x128x128 .f32) (X0 : FVec Ideal S50000x128 .f32) :
    layerK 3 slices_S4x128x128_S1x128x128_3_0_0 slices_S4x128_S1x128_3_0 a1 a2 a3 a4 (layerK 2 slices_S4x128x128_S1x128x128_2_0_0 slices_S4x128_S1x128_2_0 a1 a2 a3 a4
      (layerK 1 slices_S4x128x128_S1x128x128_1_0_0 slices_S4x128_S1x128_1_0 a1 a2 a3 a4 (layerK 0 slices_S4x128x128_S1x128x128_0_0_0 slices_S4x128_S1x128_0_0 a1 a2 a3 a4 X0)))
      = KHost.net a1 a2 a3 a4 X0 := rfl

/-- The layer a region computes, from arrays holding the neighbour sums of X, X itself, the inverse-degree column,
    slice K of the weights and slice K of the biases as a row: the column read at (p, 0) is the scale of row p, the
    row read at (0, q) is entry q of the bias. -/
theorem conv_layouts (K : ℕ) (hw : S4x128x128.Slices ![K, 0, 0] S1x128x128) (hb : S4x128.Slices ![K, 0] S1x128)
    (a1 : IVec S2x600000 32) (a2 : FVec Ideal S4x128x128 .f32) (a3 : FVec Ideal S4x128 .f32)
    (a4 : FVec Ideal S4x128x128 .f32) (X : FVec Ideal S50000x128 .f32) :
    conv (m := 50000) (k := 128) (n := 128) (KHost.aggOf a1 X) X
        (fun p => (KHost.invColK (F := Ideal) (KHost.dstRaw a1) : FVec Ideal S50000x1 .f32) (ix2 p (0 : Fin 1)))
        (KHost.wMat (F := Ideal) K hw a2) (KHost.wMat (F := Ideal) K hw a4)
        (fun q => (KHost.biasRow (F := Ideal) K hb a3 : FVec Ideal S1x128 .f32) (ix2 (0 : Fin 1) q))
      = layerK K hw hb a1 a2 a3 a4 X := by
  have hcol : (fun p : Fin 50000 => (KHost.invColK (F := Ideal) (KHost.dstRaw a1) : FVec Ideal S50000x1 .f32) (ix2 p (0 : Fin 1)))
      = fun p => KHost.invDeg a1 (ix1 p) :=
    funext fun p => Cert.LibColRow.shapeCast_a_a1_apply (KHost.invDegOf (F := Ideal) (KHost.dstRaw a1)) shapeCasts_S50000_S50000x1 p 0
  have hrow : (fun q : Fin 128 => (KHost.biasRow (F := Ideal) K hb a3 : FVec Ideal S1x128 .f32) (ix2 (0 : Fin 1) q))
      = fun q => KHost.bVec (F := Ideal) K hb a3 (ix1 q) :=
    funext fun q => shapeCast_a_1a_apply (KHost.bVec (F := Ideal) K hb a3) shapeCasts_S128_S1x128 0 q
  rw [hcol, hrow]
  rfl

/-! ## A region's layer depends on the entry contents only through its six input arrays -/

variable (V : (c : Dev nD) → (b : Ref sig .tc) → Buf (Elt Ideal) ((c : Thread nD τ).loc b))

theorem G0_congr (c : Dev nD) {g x : FVec Ideal S50000x128 .f32} {col : FVec Ideal S50000x1 .f32} {wl wr : FVec Ideal S128x128 .f32}
    {row : FVec Ideal S1x128 .f32}
    (hg : (V c main_v22 : FVec Ideal S50000x128 .f32) = g) (hx : (V c main_arg0 : FVec Ideal S50000x128 .f32) = x)
    (hcol : (V c main_v12 : FVec Ideal S50000x1 .f32) = col) (hwl : (V c main_v24 : FVec Ideal S128x128 .f32) = wl)
    (hwr : (V c main_v28 : FVec Ideal S128x128 .f32) = wr) (hrow : (V c main_v29 : FVec Ideal S1x128 .f32) = row) :
    Region0.G V c = conv (m := 50000) (k := 128) (n := 128) g x (fun p => col (ix2 p (0 : Fin 1))) wl wr
      (fun q => row (ix2 (0 : Fin 1) q)) := by
  unfold Region0.G
  rw [hg, hx, hcol, hwl, hwr, hrow]

theorem G1_congr (c : Dev nD) {g x : FVec Ideal S50000x128 .f32} {col : FVec Ideal S50000x1 .f32} {wl wr : FVec Ideal S128x128 .f32}
    {row : FVec Ideal S1x128 .f32}
    (hg : (V c main_v40 : FVec Ideal S50000x128 .f32) = g) (hx : (V c main_v30 : FVec Ideal S50000x128 .f32) = x)
    (hcol : (V c main_v12 : FVec Ideal S50000x1 .f32) = col) (hwl : (V c main_v42 : FVec Ideal S128x128 .f32) = wl)
    (hwr : (V c main_v46 : FVec Ideal S128x128 .f32) = wr) (hrow : (V c main_v47 : FVec Ideal S1x128 .f32) = row) :
    Region1.G V c = conv (m := 50000) (k := 128) (n := 128) g x (fun p => col (ix2 p (0 : Fin 1))) wl wr
      (fun q => row (ix2 (0 : Fin 1) q)) := by
  unfold Region1.G
  rw [hg, hx, hcol, hwl, hwr, hrow]

theorem G2_congr (c : Dev nD) {g x : FVec Ideal S50000x128 .f32} {col : FVec Ideal S50000x1 .f32} {wl wr : FVec Ideal S128x128 .f32}
    {row : FVec Ideal S1x128 .f32}
    (hg : (V c main_v58 : FVec Ideal S50000x128 .f32) = g) (hx : (V c main_v48 : FVec Ideal S50000x128 .f32) = x)
    (hcol : (V c main_v12 : FVec Ideal S50000x1 .f32) = col) (hwl : (V c main_v60 : FVec Ideal S128x128 .f32) = wl)
    (hwr : (V c main_v64 : FVec Ideal S128x128 .f32) = wr) (hrow : (V c main_v65 : FVec Ideal S1x128 .f32) = row) :
    Region2.G V c = conv (m := 50000) (k := 128) (n := 128) g x (fun p => col (ix2 p (0 : Fin 1))) wl wr
      (fun q => row (ix2 (0 : Fin 1) q)) := by
  unfold Region2.G
  rw [hg, hx, hcol, hwl, hwr, hrow]

theorem G3_congr (c : Dev nD) {g x : FVec Ideal S50000x128 .f32} {col : FVec Ideal S50000x1 .f32} {wl wr : FVec Ideal S128x128 .f32}
    {row : FVec Ideal S1x128 .f32}
    (hg : (V c main_v76 : FVec Ideal S50000x128 .f32) = g) (hx : (V c main_v66 : FVec Ideal S50000x128 .f32) = x)
    (hcol : (V c main_v12 : FVec Ideal S50000x1 .f32) = col) (hwl : (V c main_v78 : FVec Ideal S128x128 .f32) = wl)
    (hwr : (V c main_v82 : FVec Ideal S128x128 .f32) = wr) (hrow : (V c main_v83 : FVec Ideal S1x128 .f32) = row) :
    Region3.G V c = conv (m := 50000) (k := 128) (n := 128) g x (fun p => col (ix2 p (0 : Fin 1))) wl wr
      (fun q => row (ix2 (0 : Fin 1) q)) := by
  unfold Region3.G
  rw [hg, hx, hcol, hwl, hwr, hrow]

/-! ## The fold, boundary by boundary -/

variable (m : (ℓ : Loc nD τ sig) → Buf (Elt Ideal) ℓ) (ρ : Dev nD → PrngReg)

/-- The argument arrays as launched, on core c. -/
abbrev A0 (c : Dev nD) : FVec Ideal S50000x128 .f32 := m ((c.tc : Thread nD τ).loc main_arg0)
abbrev A1 (c : Dev nD) : IVec S2x600000 32 := m ((c.tc : Thread nD τ).loc main_arg1)
abbrev A2 (c : Dev nD) : FVec Ideal S4x128x128 .f32 := m ((c.tc : Thread nD τ).loc main_arg2)
abbrev A3 (c : Dev nD) : FVec Ideal S4x128 .f32 := m ((c.tc : Thread nD τ).loc main_arg3)
abbrev A4 (c : Dev nD) : FVec Ideal S4x128x128 .f32 := m ((c.tc : Thread nD τ).loc main_arg4)

/-! ### Layer 0: the region's entry contents, and what it leaves -/

theorem E0_agg (c : Dev nD) : (V1 m ρ c main_v22 : FVec Ideal S50000x128 .f32) = KHost.aggOf (A1 m c) (A0 m c) :=
  KHost.host0_agg (W0 m ρ c)
theorem E0_x (c : Dev nD) : (V1 m ρ c main_arg0 : FVec Ideal S50000x128 .f32) = A0 m c :=
  KHost.host0_keep_arg0 (W0 m ρ c)
theorem E0_col (c : Dev nD) : (V1 m ρ c main_v12 : FVec Ideal S50000x1 .f32) = KHost.invColK (F := Ideal) (KHost.dstRaw (A1 m c)) :=
  KHost.host0_v12 (W0 m ρ c)
theorem E0_wl (c : Dev nD) : (V1 m ρ c main_v24 : FVec Ideal S128x128 .f32) = KHost.wMat (F := Ideal) 0 slices_S4x128x128_S1x128x128_0_0_0 (A2 m c) :=
  KHost.host0_wl (W0 m ρ c)
theorem E0_wr (c : Dev nD) : (V1 m ρ c main_v28 : FVec Ideal S128x128 .f32) = KHost.wMat (F := Ideal) 0 slices_S4x128x128_S1x128x128_0_0_0 (A4 m c) :=
  KHost.host0_wr (W0 m ρ c)
theorem E0_row (c : Dev nD) : (V1 m ρ c main_v29 : FVec Ideal S1x128 .f32) = KHost.biasRow (F := Ideal) 0 slices_S4x128_S1x128_0_0 (A3 m c) :=
  KHost.host0_bias (W0 m ρ c)
/-- The region's layer is layer 0 of the features so far. -/
theorem G0_eq (c : Dev nD) : Region0.G (V1 m ρ) c = (layerK 0 slices_S4x128x128_S1x128x128_0_0_0 slices_S4x128_S1x128_0_0 (A1 m c) (A2 m c) (A3 m c) (A4 m c) (A0 m c)) :=
  (G0_congr (V1 m ρ) c (E0_agg m ρ c) (E0_x m ρ c) (E0_col m ρ c) (E0_wl m ρ c) (E0_wr m ρ c) (E0_row m ρ c)).trans
    (conv_layouts 0 slices_S4x128x128_S1x128x128_0_0_0 slices_S4x128_S1x128_0_0 (A1 m c) (A2 m c) (A3 m c) (A4 m c) (A0 m c))
theorem B2_v1 (c : Dev nD) : W2 m ρ c (Proc.devRef .tc main_v1) = KHost.srcRaw (A1 m c) :=
  (W2_v1 m ρ c).trans (KHost.host0_v1 (W0 m ρ c))
theorem B2_v3 (c : Dev nD) : W2 m ρ c (Proc.devRef .tc main_v3) = KHost.dstRaw (A1 m c) :=
  (W2_v3 m ρ c).trans (KHost.host0_v3 (W0 m ρ c))
theorem B2_v12 (c : Dev nD) : W2 m ρ c (Proc.devRef .tc main_v12) = KHost.invColK (F := Ideal) (KHost.dstRaw (A1 m c)) :=
  (W2_v12 m ρ c).trans (KHost.host0_v12 (W0 m ρ c))
theorem B2_arg2 (c : Dev nD) : W2 m ρ c (Proc.devRef .tc main_arg2) = A2 m c :=
  (W2_arg2 m ρ c).trans (KHost.host0_keep_arg2 (W0 m ρ c))
theorem B2_arg3 (c : Dev nD) : W2 m ρ c (Proc.devRef .tc main_arg3) = A3 m c :=
  (W2_arg3 m ρ c).trans (KHost.host0_keep_arg3 (W0 m ρ c))
theorem B2_arg4 (c : Dev nD) : W2 m ρ c (Proc.devRef .tc main_arg4) = A4 m c :=
  (W2_arg4 m ρ c).trans (KHost.host0_keep_arg4 (W0 m ρ c))
theorem B2_res (c : Dev nD) : W2 m ρ c (Proc.devRef .tc main_v30) = (layerK 0 slices_S4x128x128_S1x128x128_0_0_0 slices_S4x128_S1x128_0_0 (A1 m c) (A2 m c) (A3 m c) (A4 m c) (A0 m c)) :=
  (W2_res m ρ c).trans (G0_eq m ρ c)

/-! ### Layer 1: the region's entry contents, and what it leaves -/

theorem E1_agg (c : Dev nD) : (V3 m ρ c main_v40 : FVec Ideal S50000x128 .f32) = KHost.aggOf (A1 m c) (layerK 0 slices_S4x128x128_S1x128x128_0_0_0 slices_S4x128_S1x128_0_0 (A1 m c) (A2 m c) (A3 m c) (A4 m c) (A0 m c)) :=
  (KHost.host1_agg (W2 m ρ c)).trans (by rw [B2_v1 m ρ c, B2_v3 m ρ c, B2_res m ρ c]; rfl)
theorem E1_x (c : Dev nD) : (V3 m ρ c main_v30 : FVec Ideal S50000x128 .f32) = (layerK 0 slices_S4x128x128_S1x128x128_0_0_0 slices_S4x128_S1x128_0_0 (A1 m c) (A2 m c) (A3 m c) (A4 m c) (A0 m c)) :=
  (KHost.host1_keep_prev (W2 m ρ c)).trans (B2_res m ρ c)
theorem E1_col (c : Dev nD) : (V3 m ρ c main_v12 : FVec Ideal S50000x1 .f32) = KHost.invColK (F := Ideal) (KHost.dstRaw (A1 m c)) :=
  (KHost.host1_keep_v12 (W2 m ρ c)).trans (B2_v12 m ρ c)
theorem E1_wl (c : Dev nD) : (V3 m ρ c main_v42 : FVec Ideal S128x128 .f32) = KHost.wMat (F := Ideal) 1 slices_S4x128x128_S1x128x128_1_0_0 (A2 m c) :=
  (KHost.host1_wl (W2 m ρ c)).trans (by rw [B2_arg2 m ρ c])
theorem E1_wr (c : Dev nD) : (V3 m ρ c main_v46 : FVec Ideal S128x128 .f32) = KHost.wMat (F := Ideal) 1 slices_S4x128x128_S1x128x128_1_0_0 (A4 m c) :=
  (KHost.host1_wr (W2 m ρ c)).trans (by rw [B2_arg4 m ρ c])
theorem E1_row (c : Dev nD) : (V3 m ρ c main_v47 : FVec Ideal S1x128 .f32) = KHost.biasRow (F := Ideal) 1 slices_S4x128_S1x128_1_0 (A3 m c) :=
  (KHost.host1_bias (W2 m ρ c)).trans (by rw [B2_arg3 m ρ c])
/-- The region's layer is layer 1 of the features so far. -/
theorem G1_eq (c : Dev nD) : Region1.G (V3 m ρ) c = (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))) :=
  (G1_congr (V3 m ρ) c (E1_agg m ρ c) (E1_x m ρ c) (E1_col m ρ c) (E1_wl m ρ c) (E1_wr m ρ c) (E1_row m ρ c)).trans
    (conv_layouts 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))
theorem B4_v1 (c : Dev nD) : W4 m ρ c (Proc.devRef .tc main_v1) = KHost.srcRaw (A1 m c) :=
  (W4_v1 m ρ c).trans ((KHost.host1_keep_v1 (W2 m ρ c)).trans (B2_v1 m ρ c))
theorem B4_v3 (c : Dev nD) : W4 m ρ c (Proc.devRef .tc main_v3) = KHost.dstRaw (A1 m c) :=
  (W4_v3 m ρ c).trans ((KHost.host1_keep_v3 (W2 m ρ c)).trans (B2_v3 m ρ c))
theorem B4_v12 (c : Dev nD) : W4 m ρ c (Proc.devRef .tc main_v12) = KHost.invColK (F := Ideal) (KHost.dstRaw (A1 m c)) :=
  (W4_v12 m ρ c).trans ((KHost.host1_keep_v12 (W2 m ρ c)).trans (B2_v12 m ρ c))
theorem B4_arg2 (c : Dev nD) : W4 m ρ c (Proc.devRef .tc main_arg2) = A2 m c :=
  (W4_arg2 m ρ c).trans ((KHost.host1_keep_arg2 (W2 m ρ c)).trans (B2_arg2 m ρ c))
theorem B4_arg3 (c : Dev nD) : W4 m ρ c (Proc.devRef .tc main_arg3) = A3 m c :=
  (W4_arg3 m ρ c).trans ((KHost.host1_keep_arg3 (W2 m ρ c)).trans (B2_arg3 m ρ c))
theorem B4_arg4 (c : Dev nD) : W4 m ρ c (Proc.devRef .tc main_arg4) = A4 m c :=
  (W4_arg4 m ρ c).trans ((KHost.host1_keep_arg4 (W2 m ρ c)).trans (B2_arg4 m ρ c))
theorem B4_res (c : Dev nD) : W4 m ρ c (Proc.devRef .tc main_v48) = (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))) :=
  (W4_res m ρ c).trans (G1_eq m ρ c)

/-! ### Layer 2: the region's entry contents, and what it leaves -/

theorem E2_agg (c : Dev nD) : (V5 m ρ c main_v58 : FVec Ideal S50000x128 .f32) = KHost.aggOf (A1 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))) :=
  (KHost.host2_agg (W4 m ρ c)).trans (by rw [B4_v1 m ρ c, B4_v3 m ρ c, B4_res m ρ c]; rfl)
theorem E2_x (c : Dev nD) : (V5 m ρ c main_v48 : FVec Ideal S50000x128 .f32) = (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))) :=
  (KHost.host2_keep_prev (W4 m ρ c)).trans (B4_res m ρ c)
theorem E2_col (c : Dev nD) : (V5 m ρ c main_v12 : FVec Ideal S50000x1 .f32) = KHost.invColK (F := Ideal) (KHost.dstRaw (A1 m c)) :=
  (KHost.host2_keep_v12 (W4 m ρ c)).trans (B4_v12 m ρ c)
theorem E2_wl (c : Dev nD) : (V5 m ρ c main_v60 : FVec Ideal S128x128 .f32) = KHost.wMat (F := Ideal) 2 slices_S4x128x128_S1x128x128_2_0_0 (A2 m c) :=
  (KHost.host2_wl (W4 m ρ c)).trans (by rw [B4_arg2 m ρ c])
theorem E2_wr (c : Dev nD) : (V5 m ρ c main_v64 : FVec Ideal S128x128 .f32) = KHost.wMat (F := Ideal) 2 slices_S4x128x128_S1x128x128_2_0_0 (A4 m c) :=
  (KHost.host2_wr (W4 m ρ c)).trans (by rw [B4_arg4 m ρ c])
theorem E2_row (c : Dev nD) : (V5 m ρ c main_v65 : FVec Ideal S1x128 .f32) = KHost.biasRow (F := Ideal) 2 slices_S4x128_S1x128_2_0 (A3 m c) :=
  (KHost.host2_bias (W4 m ρ c)).trans (by rw [B4_arg3 m ρ c])
/-- The region's layer is layer 2 of the features so far. -/
theorem G2_eq (c : Dev nD) : Region2.G (V5 m ρ) c = (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))) :=
  (G2_congr (V5 m ρ) c (E2_agg m ρ c) (E2_x m ρ c) (E2_col m ρ c) (E2_wl m ρ c) (E2_wr m ρ c) (E2_row m ρ c)).trans
    (conv_layouts 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))))
theorem B6_v1 (c : Dev nD) : W6 m ρ c (Proc.devRef .tc main_v1) = KHost.srcRaw (A1 m c) :=
  (W6_v1 m ρ c).trans ((KHost.host2_keep_v1 (W4 m ρ c)).trans (B4_v1 m ρ c))
theorem B6_v3 (c : Dev nD) : W6 m ρ c (Proc.devRef .tc main_v3) = KHost.dstRaw (A1 m c) :=
  (W6_v3 m ρ c).trans ((KHost.host2_keep_v3 (W4 m ρ c)).trans (B4_v3 m ρ c))
theorem B6_v12 (c : Dev nD) : W6 m ρ c (Proc.devRef .tc main_v12) = KHost.invColK (F := Ideal) (KHost.dstRaw (A1 m c)) :=
  (W6_v12 m ρ c).trans ((KHost.host2_keep_v12 (W4 m ρ c)).trans (B4_v12 m ρ c))
theorem B6_arg2 (c : Dev nD) : W6 m ρ c (Proc.devRef .tc main_arg2) = A2 m c :=
  (W6_arg2 m ρ c).trans ((KHost.host2_keep_arg2 (W4 m ρ c)).trans (B4_arg2 m ρ c))
theorem B6_arg3 (c : Dev nD) : W6 m ρ c (Proc.devRef .tc main_arg3) = A3 m c :=
  (W6_arg3 m ρ c).trans ((KHost.host2_keep_arg3 (W4 m ρ c)).trans (B4_arg3 m ρ c))
theorem B6_arg4 (c : Dev nD) : W6 m ρ c (Proc.devRef .tc main_arg4) = A4 m c :=
  (W6_arg4 m ρ c).trans ((KHost.host2_keep_arg4 (W4 m ρ c)).trans (B4_arg4 m ρ c))
theorem B6_res (c : Dev nD) : W6 m ρ c (Proc.devRef .tc main_v66) = (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))) :=
  (W6_res m ρ c).trans (G2_eq m ρ c)

/-! ### Layer 3: the region's entry contents, and what it leaves -/

theorem E3_agg (c : Dev nD) : (V7 m ρ c main_v76 : FVec Ideal S50000x128 .f32) = KHost.aggOf (A1 m c) (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))) :=
  (KHost.host3_agg (W6 m ρ c)).trans (by rw [B6_v1 m ρ c, B6_v3 m ρ c, B6_res m ρ c]; rfl)
theorem E3_x (c : Dev nD) : (V7 m ρ c main_v66 : FVec Ideal S50000x128 .f32) = (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))) :=
  (KHost.host3_keep_prev (W6 m ρ c)).trans (B6_res m ρ c)
theorem E3_col (c : Dev nD) : (V7 m ρ c main_v12 : FVec Ideal S50000x1 .f32) = KHost.invColK (F := Ideal) (KHost.dstRaw (A1 m c)) :=
  (KHost.host3_keep_v12 (W6 m ρ c)).trans (B6_v12 m ρ c)
theorem E3_wl (c : Dev nD) : (V7 m ρ c main_v78 : FVec Ideal S128x128 .f32) = KHost.wMat (F := Ideal) 3 slices_S4x128x128_S1x128x128_3_0_0 (A2 m c) :=
  (KHost.host3_wl (W6 m ρ c)).trans (by rw [B6_arg2 m ρ c])
theorem E3_wr (c : Dev nD) : (V7 m ρ c main_v82 : FVec Ideal S128x128 .f32) = KHost.wMat (F := Ideal) 3 slices_S4x128x128_S1x128x128_3_0_0 (A4 m c) :=
  (KHost.host3_wr (W6 m ρ c)).trans (by rw [B6_arg4 m ρ c])
theorem E3_row (c : Dev nD) : (V7 m ρ c main_v83 : FVec Ideal S1x128 .f32) = KHost.biasRow (F := Ideal) 3 slices_S4x128_S1x128_3_0 (A3 m c) :=
  (KHost.host3_bias (W6 m ρ c)).trans (by rw [B6_arg3 m ρ c])
/-- The region's layer is layer 3 of the features so far. -/
theorem G3_eq (c : Dev nD) : Region3.G (V7 m ρ) c = (layerK 3 slices_S4x128x128_S1x128x128_3_0_0 slices_S4x128_S1x128_3_0 (A1 m c) (A2 m c) (A3 m c) (A4 m c) (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c))))) :=
  (G3_congr (V7 m ρ) c (E3_agg m ρ c) (E3_x m ρ c) (E3_col m ρ c) (E3_wl m ρ c) (E3_wr m ρ c) (E3_row m ρ c)).trans
    (conv_layouts 3 slices_S4x128x128_S1x128x128_3_0_0 slices_S4x128_S1x128_3_0 (A1 m c) (A2 m c) (A3 m c) (A4 m c) (layerK 2 slices_S4x128x128_S1x128x128_2_0_0 slices_S4x128_S1x128_2_0 (A1 m c) (A2 m c) (A3 m c) (A4 m c) (layerK 1 slices_S4x128x128_S1x128x128_1_0_0 slices_S4x128_S1x128_1_0 (A1 m c) (A2 m c) (A3 m c) (A4 m c) (layerK 0 slices_S4x128x128_S1x128x128_0_0_0 slices_S4x128_S1x128_0_0 (A1 m c) (A2 m c) (A3 m c) (A4 m c) (A0 m c)))))

/-! ## The program's value -/

/-- The last boundary's contents at the result buffer: the four layers of the argument arrays. -/
theorem result (c : Dev nD) :
    W8 m ρ c (Proc.devRef .tc main_v84) = KHost.net (A1 m c) (A2 m c) (A3 m c) (A4 m c) (A0 m c) :=
  (W8_res m ρ c).trans ((G3_eq m ρ c).trans (net_eq (A1 m c) (A2 m c) (A3 m c) (A4 m c) (A0 m c)))

/-- Every weakly fair execution of the program terminates, nothing faulting; the result buffer ends at the four
    layers of the argument arrays, and every argument array as launched. -/
theorem run : θ_run (defs (F := Ideal)) (onTc (τ := τ) (main (F := Ideal))) ⟨m, fun _ => 0, ρ⟩ (fun r => ∀ c : Dev nD,
      r.2.mem ((c.tc : Thread nD τ).loc main_v84)
        = KHost.net (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (result m ρ c), (h c).2⟩) (run_named m ρ)

end Cert.KernelIdeal.KValue

end
-- ==== Proof.RefRun.lean ====
/-
  The reference program's run. Its @main is four graph-convolution layers written out one after the other: a
  preamble that reads the two rows of the edge list (the rows to gather from, the rows to add into) and the
  column of inverse degrees, then per layer a gather of the rows of the current features, a scatter-add into
  the target rows, the scaling by the inverse degree, the product with that layer's first weight matrix, the
  bias, the product of the features with the second weight matrix, and the exponential linear unit (an
  outlined function, itself calling two outlined selects). Here the 185 operations are listed in seven
  consecutive stretches (the preamble, and each layer cut where the program's text is cut), @main is shown to
  be their straight line, and what each stretch leaves in the buffers the later ones read is stated as a term of
  what it found there. The run then ends with the result buffer at the four layers' composition of the
  argument arrays, and the arguments unchanged.
-/
import proofs.«104823_j65841848648310_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The preamble (operations 1 … 17): the two rows of the edge list as vectors, the degree of every row by a scatter-add of ones, its inverse (of the degree or of one, whichever is larger) and that as a column. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- The first layer (operations 18 … 59). -/
abbrev opsB : List (HloOp τ sig (Elt F)) :=
  [ nullary main_c (constantI S_ 32 0#32),
    unary main_c main_v13 (broadcastInDim S600000 ![] bcast_S_S600000 : (⟨S_, .i32⟩ : BufTy).Contents (Elt F) → (⟨S600000, .i32⟩ : BufTy).Contents (Elt F)),
    binary main_v1 main_v13 main_v14 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v15 (broadcastInDim S600000 ![] bcast_S_S600000 : (⟨S_, .i32⟩ : BufTy).Contents (Elt F) → (⟨S600000, .i32⟩ : BufTy).Contents (Elt F)),
    binary main_v1 main_v15 main_v16 (addi : (⟨S600000, .i32⟩ : BufTy).Contents (Elt F) → (⟨S600000, .i32⟩ : BufTy).Contents (Elt F) → (⟨S600000, .i32⟩ : BufTy).Contents (Elt F)),
    ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v17 main_v18 (broadcastInDim S600000x1 ![0] bcast_S600000_S600000x1_0 : (⟨S600000, .i32⟩ : BufTy).Contents (Elt F) → (⟨S600000x1, .i32⟩ : BufTy).Contents (Elt F)),
    binary main_arg0 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_4 (constant S_ .f32 0x00000000#32),
    unary main_cst_4 main_v20 (broadcastInDim S50000x128 ![] bcast_S_S50000x128 : (⟨S_, .f32⟩ : BufTy).Contents (Elt F) → (⟨S50000x128, .f32⟩ : BufTy).Contents (Elt F)),
    unary main_v3 main_v21 (broadcastInDim S600000x1 ![0] bcast_S600000_S600000x1_0 : (⟨S600000, .i32⟩ : BufTy).Contents (Elt F) → (⟨S600000x1, .i32⟩ : BufTy).Contents (Elt F)),
    ternary main_v20 main_v21 main_v19 main_v22 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v23 (broadcastInDim S50000x128 ![0, 1] bcast_S50000x1_S50000x128_0_1 : (⟨S50000x1, .f32⟩ : BufTy).Contents (Elt F) → (⟨S50000x128, .f32⟩ : BufTy).Contents (Elt F)),
    binary main_v22 main_v23 main_v24 (mulf : (⟨S50000x128, .f32⟩ : BufTy).Contents (Elt F) → (⟨S50000x128, .f32⟩ : BufTy).Contents (Elt F) → (⟨S50000x128, .f32⟩ : BufTy).Contents (Elt F)),
    unary main_arg2 main_v25 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v28 ((extractStridedSlice S1x128 ![0, 0] · slices_S4x128_S1x128_0_0) : (⟨S4x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v27 main_v31 main_v32 (addf : (⟨S50000x128, .f32⟩ : BufTy).Contents (Elt F) → (⟨S50000x128, .f32⟩ : BufTy).Contents (Elt F) → (⟨S50000x128, .f32⟩ : BufTy).Contents (Elt F)),
    unary main_arg4 main_v33 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v33 main_v34 rfl shapeCasts_S1x128x128_S128x128,
    binary main_arg0 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v32 main_v35 main_v36 (addf : (⟨S50000x128, .f32⟩ : BufTy).Contents (Elt F) → (⟨S50000x128, .f32⟩ : BufTy).Contents (Elt F) → (⟨S50000x128, .f32⟩ : BufTy).Contents (Elt F)),
    TRef.nullary (.of main_call0_cst : TRef sig ⟨S_, .f32⟩) (constant S_ .f32 0x00000000#32),
    TRef.unary (.of main_call0_cst : TRef sig ⟨S_, .f32⟩) (.of main_call0_v0 : TRef sig ⟨S50000x128, .f32⟩) (broadcastInDim S50000x128 ![] bcast_S_S50000x128),
    TRef.binary (.of main_v36 : TRef sig ⟨S50000x128, .f32⟩) (.of main_call0_v0 : TRef sig ⟨S50000x128, .f32⟩) (.of main_call0_v1 : TRef sig ⟨S50000x128, .i1⟩) (cmpf .ogt),
    TRef.nullary (.of main_call0_cst_0 : TRef sig ⟨S_, .f32⟩) (constant S_ .f32 0x00000000#32),
    TRef.unary (.of main_call0_cst_0 : TRef sig ⟨S_, .f32⟩) (.of main_call0_v2 : TRef sig ⟨S50000x128, .f32⟩) (broadcastInDim S50000x128 ![] bcast_S_S50000x128),
    TRef.binary (.of main_v36 : TRef sig ⟨S50000x128, .f32⟩) (.of main_call0_v2 : TRef sig ⟨S50000x128, .f32⟩) (.of main_call0_v3 : TRef sig ⟨S50000x128, .i1⟩) (cmpf .ogt),
    TRef.nullary (.of main_call0_cst_1 : TRef sig ⟨S_, .f32⟩) (constant S_ .f32 0x00000000#32),
    TRef.unary (.of main_call0_cst_1 : TRef sig ⟨S_, .f32⟩) (.of main_call0_call0_v0 : TRef sig ⟨S_, .f32⟩) id,
    TRef.unary (.of main_call0_call0_v0 : TRef sig ⟨S_, .f32⟩) (.of main_call0_call0_v1 : TRef sig ⟨S50000x128, .f32⟩) (broadcastInDim S50000x128 ![] bcast_S_S50000x128),
    TRef.ternary (.of main_call0_v3 : TRef sig ⟨S50000x128, .i1⟩) (.of main_call0_call0_v1 : TRef sig ⟨S50000x128, .f32⟩) (.of main_v36 : TRef sig ⟨S50000x128, .f32⟩) (.of main_call0_v4 : TRef sig ⟨S50000x128, .f32⟩) select,
    TRef.unary (.of main_call0_v4 : TRef sig ⟨S50000x128, .f32⟩) (.of main_call0_v5 : TRef sig ⟨S50000x128, .f32⟩) Host.expm1,
    TRef.nullary (.of main_call0_cst_2 : TRef sig ⟨S_, .f32⟩) (constant S_ .f32 0x3F800000#32),
    TRef.unary (.of main_call0_cst_2 : TRef sig ⟨S_, .f32⟩) (.of main_call0_v6 : TRef sig ⟨S50000x128, .f32⟩) (broadcastInDim S50000x128 ![] bcast_S_S50000x128),
    TRef.binary (.of main_call0_v6 : TRef sig ⟨S50000x128, .f32⟩) (.of main_call0_v5 : TRef sig ⟨S50000x128, .f32⟩) (.of main_call0_v7 : TRef sig ⟨S50000x128, .f32⟩) mulf,
    TRef.ternary (.of main_call0_v1 : TRef sig ⟨S50000x128, .i1⟩) (.of main_v36 : TRef sig ⟨S50000x128, .f32⟩) (.of main_call0_v7 : TRef sig ⟨S50000x128, .f32⟩) (.of main_v37 : TRef sig ⟨S50000x128, .f32⟩) select ]

/-- The second layer up to the scaling of the neighbour sums (operations 60 … 74). -/
abbrev opsC : List (HloOp τ sig (Elt F)) :=
  [ nullary main_c_5 (constantI S_ 32 0#32),
    unary main_c_5 main_v38 (broadcastInDim S600000 ![] bcast_S_S600000 : (⟨S_, .i32⟩ : BufTy).Contents (Elt F) → (⟨S600000, .i32⟩ : BufTy).Contents (Elt F)),
    binary main_v1 main_v38 main_v39 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v40 (broadcastInDim S600000 ![] bcast_S_S600000 : (⟨S_, .i32⟩ : BufTy).Contents (Elt F) → (⟨S600000, .i32⟩ : BufTy).Contents (Elt F)),
    binary main_v1 main_v40 main_v41 (addi : (⟨S600000, .i32⟩ : BufTy).Contents (Elt F) → (⟨S600000, .i32⟩ : BufTy).Contents (Elt F) → (⟨S600000, .i32⟩ : BufTy).Contents (Elt F)),
    ternary main_v39 main_v41 main_v1 main_v42 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v42 main_v43 (broadcastInDim S600000x1 ![0] bcast_S600000_S600000x1_0 : (⟨S600000, .i32⟩ : BufTy).Contents (Elt F) → (⟨S600000x1, .i32⟩ : BufTy).Contents (Elt F)),
    binary main_v37 main_v43 main_v44 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_7 (constant S_ .f32 0x00000000#32),
    unary main_cst_7 main_v45 (broadcastInDim S50000x128 ![] bcast_S_S50000x128 : (⟨S_, .f32⟩ : BufTy).Contents (Elt F) → (⟨S50000x128, .f32⟩ : BufTy).Contents (Elt F)),
    unary main_v3 main_v46 (broadcastInDim S600000x1 ![0] bcast_S600000_S600000x1_0 : (⟨S600000, .i32⟩ : BufTy).Contents (Elt F) → (⟨S600000x1, .i32⟩ : BufTy).Contents (Elt F)),
    ternary main_v45 main_v46 main_v44 main_v47 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v48 (broadcastInDim S50000x128 ![0, 1] bcast_S50000x1_S50000x128_0_1 : (⟨S50000x1, .f32⟩ : BufTy).Contents (Elt F) → (⟨S50000x128, .f32⟩ : BufTy).Contents (Elt F)),
    binary main_v47 main_v48 main_v49 (mulf : (⟨S50000x128, .f32⟩ : BufTy).Contents (Elt F) → (⟨S50000x128, .f32⟩ : BufTy).Contents (Elt F) → (⟨S50000x128, .f32⟩ : BufTy).Contents (Elt F)) ]

/-- The rest of the second layer (operations 75 … 101). -/
abbrev opsD : List (HloOp τ sig (Elt F)) :=
  [ unary main_arg2 main_v50 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v50 main_v51 rfl shapeCasts_S1x128x128_S128x128,
    binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v53 ((extractStridedSlice S1x128 ![1, 0] · slices_S4x128_S1x128_1_0) : (⟨S4x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v52 main_v56 main_v57 (addf : (⟨S50000x128, .f32⟩ : BufTy).Contents (Elt F) → (⟨S50000x128, .f32⟩ : BufTy).Contents (Elt F) → (⟨S50000x128, .f32⟩ : BufTy).Contents (Elt F)),
    unary main_arg4 main_v58 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v58 main_v59 rfl shapeCasts_S1x128x128_S128x128,
    binary main_v37 main_v59 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v57 main_v60 main_v61 (addf : (⟨S50000x128, .f32⟩ : BufTy).Contents (Elt F) → (⟨S50000x128, .f32⟩ : BufTy).Contents (Elt F) → (⟨S50000x128, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S50000x128, .f32⟩) (broadcastInDim S50000x128 ![] bcast_S_S50000x128),
    TRef.binary (.of main_v61 : TRef sig ⟨S50000x128, .f32⟩) (.of main_call1_v0 : TRef sig ⟨S50000x128, .f32⟩) (.of main_call1_v1 : TRef sig ⟨S50000x128, .i1⟩) (cmpf .ogt),
    TRef.nullary (.of main_call1_cst_0 : TRef sig ⟨S_, .f32⟩) (constant S_ .f32 0x00000000#32),
    TRef.unary (.of main_call1_cst_0 : TRef sig ⟨S_, .f32⟩) (.of main_call1_v2 : TRef sig ⟨S50000x128, .f32⟩) (broadcastInDim S50000x128 ![] bcast_S_S50000x128),
    TRef.binary (.of main_v61 : TRef sig ⟨S50000x128, .f32⟩) (.of main_call1_v2 : TRef sig ⟨S50000x128, .f32⟩) (.of main_call1_v3 : TRef sig ⟨S50000x128, .i1⟩) (cmpf .ogt),
    TRef.nullary (.of main_call1_cst_1 : TRef sig ⟨S_, .f32⟩) (constant S_ .f32 0x00000000#32),
    TRef.unary (.of main_call1_cst_1 : TRef sig ⟨S_, .f32⟩) (.of main_call1_call0_v0 : TRef sig ⟨S_, .f32⟩) id,
    TRef.unary (.of main_call1_call0_v0 : TRef sig ⟨S_, .f32⟩) (.of main_call1_call0_v1 : TRef sig ⟨S50000x128, .f32⟩) (broadcastInDim S50000x128 ![] bcast_S_S50000x128),
    TRef.ternary (.of main_call1_v3 : TRef sig ⟨S50000x128, .i1⟩) (.of main_call1_call0_v1 : TRef sig ⟨S50000x128, .f32⟩) (.of main_v61 : TRef sig ⟨S50000x128, .f32⟩) (.of main_call1_v4 : TRef sig ⟨S50000x128, .f32⟩) select,
    TRef.unary (.of main_call1_v4 : TRef sig ⟨S50000x128, .f32⟩) (.of main_call1_v5 : TRef sig ⟨S50000x128, .f32⟩) Host.expm1,
    TRef.nullary (.of main_call1_cst_2 : TRef sig ⟨S_, .f32⟩) (constant S_ .f32 0x3F800000#32),
    TRef.unary (.of main_call1_cst_2 : TRef sig ⟨S_, .f32⟩) (.of main_call1_v6 : TRef sig ⟨S50000x128, .f32⟩) (broadcastInDim S50000x128 ![] bcast_S_S50000x128),
    TRef.binary (.of main_call1_v6 : TRef sig ⟨S50000x128, .f32⟩) (.of main_call1_v5 : TRef sig ⟨S50000x128, .f32⟩) (.of main_call1_v7 : TRef sig ⟨S50000x128, .f32⟩) mulf,
    TRef.ternary (.of main_call1_v1 : TRef sig ⟨S50000x128, .i1⟩) (.of main_v61 : TRef sig ⟨S50000x128, .f32⟩) (.of main_call1_v7 : TRef sig ⟨S50000x128, .f32⟩) (.of main_v62 : TRef sig ⟨S50000x128, .f32⟩) select ]

/-- The third layer (operations 102 … 143). -/
abbrev opsE : List (HloOp τ sig (Elt F)) :=
  [ nullary main_c_8 (constantI S_ 32 0#32),
    unary main_c_8 main_v63 (broadcastInDim S600000 ![] bcast_S_S600000 : (⟨S_, .i32⟩ : BufTy).Contents (Elt F) → (⟨S600000, .i32⟩ : BufTy).Contents (Elt F)),
    binary main_v1 main_v63 main_v64 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v65 (broadcastInDim S600000 ![] bcast_S_S600000 : (⟨S_, .i32⟩ : BufTy).Contents (Elt F) → (⟨S600000, .i32⟩ : BufTy).Contents (Elt F)),
    binary main_v1 main_v65 main_v66 (addi : (⟨S600000, .i32⟩ : BufTy).Contents (Elt F) → (⟨S600000, .i32⟩ : BufTy).Contents (Elt F) → (⟨S600000, .i32⟩ : BufTy).Contents (Elt F)),
    ternary main_v64 main_v66 main_v1 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v67 main_v68 (broadcastInDim S600000x1 ![0] bcast_S600000_S600000x1_0 : (⟨S600000, .i32⟩ : BufTy).Contents (Elt F) → (⟨S600000x1, .i32⟩ : BufTy).Contents (Elt F)),
    binary main_v62 main_v68 main_v69 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_10 (constant S_ .f32 0x00000000#32),
    unary main_cst_10 main_v70 (broadcastInDim S50000x128 ![] bcast_S_S50000x128 : (⟨S_, .f32⟩ : BufTy).Contents (Elt F) → (⟨S50000x128, .f32⟩ : BufTy).Contents (Elt F)),
    unary main_v3 main_v71 (broadcastInDim S600000x1 ![0] bcast_S600000_S600000x1_0 : (⟨S600000, .i32⟩ : BufTy).Contents (Elt F) → (⟨S600000x1, .i32⟩ : BufTy).Contents (Elt F)),
    ternary main_v70 main_v71 main_v69 main_v72 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v73 (broadcastInDim S50000x128 ![0, 1] bcast_S50000x1_S50000x128_0_1 : (⟨S50000x1, .f32⟩ : BufTy).Contents (Elt F) → (⟨S50000x128, .f32⟩ : BufTy).Contents (Elt F)),
    binary main_v72 main_v73 main_v74 (mulf : (⟨S50000x128, .f32⟩ : BufTy).Contents (Elt F) → (⟨S50000x128, .f32⟩ : BufTy).Contents (Elt F) → (⟨S50000x128, .f32⟩ : BufTy).Contents (Elt F)),
    unary main_arg2 main_v75 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v75 main_v76 rfl shapeCasts_S1x128x128_S128x128,
    binary main_v74 main_v76 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v78 ((extractStridedSlice S1x128 ![2, 0] · slices_S4x128_S1x128_2_0) : (⟨S4x128, .f32⟩ : BufTy).Contents (Elt F) → (⟨S1x128, .f32⟩ : BufTy).Contents (Elt F)),
    reshape main_v78 main_v79 rfl shapeCasts_S1x128_S128,
    unary main_v79 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v77 main_v81 main_v82 (addf : (⟨S50000x128, .f32⟩ : BufTy).Contents (Elt F) → (⟨S50000x128, .f32⟩ : BufTy).Contents (Elt F) → (⟨S50000x128, .f32⟩ : BufTy).Contents (Elt F)),
    unary main_arg4 main_v83 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v83 main_v84 rfl shapeCasts_S1x128x128_S128x128,
    binary main_v62 main_v84 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v82 main_v85 main_v86 (addf : (⟨S50000x128, .f32⟩ : BufTy).Contents (Elt F) → (⟨S50000x128, .f32⟩ : BufTy).Contents (Elt F) → (⟨S50000x128, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S50000x128, .f32⟩) (broadcastInDim S50000x128 ![] bcast_S_S50000x128),
    TRef.binary (.of main_v86 : TRef sig ⟨S50000x128, .f32⟩) (.of main_call2_v0 : TRef sig ⟨S50000x128, .f32⟩) (.of main_call2_v1 : TRef sig ⟨S50000x128, .i1⟩) (cmpf .ogt),
    TRef.nullary (.of main_call2_cst_0 : TRef sig ⟨S_, .f32⟩) (constant S_ .f32 0x00000000#32),
    TRef.unary (.of main_call2_cst_0 : TRef sig ⟨S_, .f32⟩) (.of main_call2_v2 : TRef sig ⟨S50000x128, .f32⟩) (broadcastInDim S50000x128 ![] bcast_S_S50000x128),
    TRef.binary (.of main_v86 : TRef sig ⟨S50000x128, .f32⟩) (.of main_call2_v2 : TRef sig ⟨S50000x128, .f32⟩) (.of main_call2_v3 : TRef sig ⟨S50000x128, .i1⟩) (cmpf .ogt),
    TRef.nullary (.of main_call2_cst_1 : TRef sig ⟨S_, .f32⟩) (constant S_ .f32 0x00000000#32),
    TRef.unary (.of main_call2_cst_1 : TRef sig ⟨S_, .f32⟩) (.of main_call2_call0_v0 : TRef sig ⟨S_, .f32⟩) id,
    TRef.unary (.of main_call2_call0_v0 : TRef sig ⟨S_, .f32⟩) (.of main_call2_call0_v1 : TRef sig ⟨S50000x128, .f32⟩) (broadcastInDim S50000x128 ![] bcast_S_S50000x128),
    TRef.ternary (.of main_call2_v3 : TRef sig ⟨S50000x128, .i1⟩) (.of main_call2_call0_v1 : TRef sig ⟨S50000x128, .f32⟩) (.of main_v86 : TRef sig ⟨S50000x128, .f32⟩) (.of main_call2_v4 : TRef sig ⟨S50000x128, .f32⟩) select,
    TRef.unary (.of main_call2_v4 : TRef sig ⟨S50000x128, .f32⟩) (.of main_call2_v5 : TRef sig ⟨S50000x128, .f32⟩) Host.expm1,
    TRef.nullary (.of main_call2_cst_2 : TRef sig ⟨S_, .f32⟩) (constant S_ .f32 0x3F800000#32),
    TRef.unary (.of main_call2_cst_2 : TRef sig ⟨S_, .f32⟩) (.of main_call2_v6 : TRef sig ⟨S50000x128, .f32⟩) (broadcastInDim S50000x128 ![] bcast_S_S50000x128),
    TRef.binary (.of main_call2_v6 : TRef sig ⟨S50000x128, .f32⟩) (.of main_call2_v5 : TRef sig ⟨S50000x128, .f32⟩) (.of main_call2_v7 : TRef sig ⟨S50000x128, .f32⟩) mulf,
    TRef.ternary (.of main_call2_v1 : TRef sig ⟨S50000x128, .i1⟩) (.of main_v86 : TRef sig ⟨S50000x128, .f32⟩) (.of main_call2_v7 : TRef sig ⟨S50000x128, .f32⟩) (.of main_v87 : TRef sig ⟨S50000x128, .f32⟩) select ]

/-- The fourth layer up to the slice of its bias (operations 144 … 162). -/
abbrev opsG : List (HloOp τ sig (Elt F)) :=
  [ nullary main_c_11 (constantI S_ 32 0#32),
    unary main_c_11 main_v88 (broadcastInDim S600000 ![] bcast_S_S600000 : (⟨S_, .i32⟩ : BufTy).Contents (Elt F) → (⟨S600000, .i32⟩ : BufTy).Contents (Elt F)),
    binary main_v1 main_v88 main_v89 (cmpi .slt : (⟨S600000, .i32⟩ : BufTy).Contents (Elt F) → (⟨S600000, .i32⟩ : BufTy).Contents (Elt F) → (⟨S600000, .i1⟩ : BufTy).Contents (Elt F)),
    nullary main_c_12 (constantI S_ 32 50000#32),
    unary main_c_12 main_v90 (broadcastInDim S600000 ![] bcast_S_S600000 : (⟨S_, .i32⟩ : BufTy).Contents (Elt F) → (⟨S600000, .i32⟩ : BufTy).Contents (Elt F)),
    binary main_v1 main_v90 main_v91 (addi : (⟨S600000, .i32⟩ : BufTy).Contents (Elt F) → (⟨S600000, .i32⟩ : BufTy).Contents (Elt F) → (⟨S600000, .i32⟩ : BufTy).Contents (Elt F)),
    ternary main_v89 main_v91 main_v1 main_v92 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v92 main_v93 (broadcastInDim S600000x1 ![0] bcast_S600000_S600000x1_0 : (⟨S600000, .i32⟩ : BufTy).Contents (Elt F) → (⟨S600000x1, .i32⟩ : BufTy).Contents (Elt F)),
    binary main_v87 main_v93 main_v94 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_13 (constant S_ .f32 0x00000000#32),
    unary main_cst_13 main_v95 (broadcastInDim S50000x128 ![] bcast_S_S50000x128 : (⟨S_, .f32⟩ : BufTy).Contents (Elt F) → (⟨S50000x128, .f32⟩ : BufTy).Contents (Elt F)),
    unary main_v3 main_v96 (broadcastInDim S600000x1 ![0] bcast_S600000_S600000x1_0 : (⟨S600000, .i32⟩ : BufTy).Contents (Elt F) → (⟨S600000x1, .i32⟩ : BufTy).Contents (Elt F)),
    ternary main_v95 main_v96 main_v94 main_v97 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v98 (broadcastInDim S50000x128 ![0, 1] bcast_S50000x1_S50000x128_0_1 : (⟨S50000x1, .f32⟩ : BufTy).Contents (Elt F) → (⟨S50000x128, .f32⟩ : BufTy).Contents (Elt F)),
    binary main_v97 main_v98 main_v99 (mulf : (⟨S50000x128, .f32⟩ : BufTy).Contents (Elt F) → (⟨S50000x128, .f32⟩ : BufTy).Contents (Elt F) → (⟨S50000x128, .f32⟩ : BufTy).Contents (Elt F)),
    unary main_arg2 main_v100 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v100 main_v101 rfl shapeCasts_S1x128x128_S128x128,
    binary main_v99 main_v101 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v103 ((extractStridedSlice S1x128 ![3, 0] · slices_S4x128_S1x128_3_0) : (⟨S4x128, .f32⟩ : BufTy).Contents (Elt F) → (⟨S1x128, .f32⟩ : BufTy).Contents (Elt F)) ]

/-- The rest of the fourth layer (operations 163 … 185). -/
abbrev opsH : List (HloOp τ sig (Elt F)) :=
  [ reshape main_v103 main_v104 rfl shapeCasts_S1x128_S128,
    unary main_v104 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v102 main_v106 main_v107 (addf : (⟨S50000x128, .f32⟩ : BufTy).Contents (Elt F) → (⟨S50000x128, .f32⟩ : BufTy).Contents (Elt F) → (⟨S50000x128, .f32⟩ : BufTy).Contents (Elt F)),
    unary main_arg4 main_v108 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v108 main_v109 rfl shapeCasts_S1x128x128_S128x128,
    binary main_v87 main_v109 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v107 main_v110 main_v111 (addf : (⟨S50000x128, .f32⟩ : BufTy).Contents (Elt F) → (⟨S50000x128, .f32⟩ : BufTy).Contents (Elt F) → (⟨S50000x128, .f32⟩ : BufTy).Contents (Elt F)),
    TRef.nullary (.of main_call3_cst : TRef sig ⟨S_, .f32⟩) (constant S_ .f32 0x00000000#32),
    TRef.unary (.of main_call3_cst : TRef sig ⟨S_, .f32⟩) (.of main_call3_v0 : TRef sig ⟨S50000x128, .f32⟩) (broadcastInDim S50000x128 ![] bcast_S_S50000x128),
    TRef.binary (.of main_v111 : TRef sig ⟨S50000x128, .f32⟩) (.of main_call3_v0 : TRef sig ⟨S50000x128, .f32⟩) (.of main_call3_v1 : TRef sig ⟨S50000x128, .i1⟩) (cmpf .ogt),
    TRef.nullary (.of main_call3_cst_0 : TRef sig ⟨S_, .f32⟩) (constant S_ .f32 0x00000000#32),
    TRef.unary (.of main_call3_cst_0 : TRef sig ⟨S_, .f32⟩) (.of main_call3_v2 : TRef sig ⟨S50000x128, .f32⟩) (broadcastInDim S50000x128 ![] bcast_S_S50000x128),
    TRef.binary (.of main_v111 : TRef sig ⟨S50000x128, .f32⟩) (.of main_call3_v2 : TRef sig ⟨S50000x128, .f32⟩) (.of main_call3_v3 : TRef sig ⟨S50000x128, .i1⟩) (cmpf .ogt),
    TRef.nullary (.of main_call3_cst_1 : TRef sig ⟨S_, .f32⟩) (constant S_ .f32 0x00000000#32),
    TRef.unary (.of main_call3_cst_1 : TRef sig ⟨S_, .f32⟩) (.of main_call3_call0_v0 : TRef sig ⟨S_, .f32⟩) id,
    TRef.unary (.of main_call3_call0_v0 : TRef sig ⟨S_, .f32⟩) (.of main_call3_call0_v1 : TRef sig ⟨S50000x128, .f32⟩) (broadcastInDim S50000x128 ![] bcast_S_S50000x128),
    TRef.ternary (.of main_call3_v3 : TRef sig ⟨S50000x128, .i1⟩) (.of main_call3_call0_v1 : TRef sig ⟨S50000x128, .f32⟩) (.of main_v111 : TRef sig ⟨S50000x128, .f32⟩) (.of main_call3_v4 : TRef sig ⟨S50000x128, .f32⟩) select,
    TRef.unary (.of main_call3_v4 : TRef sig ⟨S50000x128, .f32⟩) (.of main_call3_v5 : TRef sig ⟨S50000x128, .f32⟩) Host.expm1,
    TRef.nullary (.of main_call3_cst_2 : TRef sig ⟨S_, .f32⟩) (constant S_ .f32 0x3F800000#32),
    TRef.unary (.of main_call3_cst_2 : TRef sig ⟨S_, .f32⟩) (.of main_call3_v6 : TRef sig ⟨S50000x128, .f32⟩) (broadcastInDim S50000x128 ![] bcast_S_S50000x128),
    TRef.binary (.of main_call3_v6 : TRef sig ⟨S50000x128, .f32⟩) (.of main_call3_v5 : TRef sig ⟨S50000x128, .f32⟩) (.of main_call3_v7 : TRef sig ⟨S50000x128, .f32⟩) mulf,
    TRef.ternary (.of main_call3_v1 : TRef sig ⟨S50000x128, .i1⟩) (.of main_v111 : TRef sig ⟨S50000x128, .f32⟩) (.of main_call3_v7 : TRef sig ⟨S50000x128, .f32⟩) (.of main_v112 : TRef sig ⟨S50000x128, .f32⟩) select ]

/-- What the first of @main's three printed parts runs. -/
abbrev ops0 : List (HloOp τ sig (Elt F)) := opsA ++ (opsB ++ opsC)
/-- What the second part runs. -/
abbrev ops1 : List (HloOp τ sig (Elt F)) := opsD ++ (opsE ++ opsG)
/-- @main's 185 operations, in order, the calls of the unit (and its calls of the two selects) unfolded. -/
abbrev ops : List (HloOp τ sig (Elt F)) := ops0 ++ (ops1 ++ opsH)

/-! ## @main is the straight line of the operations -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq opsH := rfl

/-- @main runs its three parts in order; each is the straight line of its operations, and straight lines run one after
    the other are the straight line of the concatenation. -/
theorem main_eq (c : Dev nD) : main (F := F) c = seq ops := by
  simp only [ops, seq_append (l₁ := ops0), seq_append (l₁ := ops1), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The operations' terms

Each definition is the composition of the program's own operations, in the program's spelling. -/

/-- Row 0 of the edge list as a vector: the row numbers to gather from, as given (operation %1). -/
def srcRaw (a1 : IVec S2x600000 32) : IVec S600000 32 :=
  shapeCast S600000 (extractStridedSlice S1x600000 ![0, 0] a1 slices_S2x600000_S1x600000_0_0) shapeCasts_S1x600000_S600000

/-- Row 1 of the edge list as a vector: the row numbers to add into (operation %3). -/
def dstRaw (a1 : IVec S2x600000 32) : IVec S600000 32 :=
  shapeCast S600000 (extractStridedSlice S1x600000 ![1, 0] a1 slices_S2x600000_S1x600000_1_0) shapeCasts_S1x600000_S600000

/-- The column of gather row numbers: a negative number counts from the end (50000 is added to it), then the vector
    is made a column (operations %13 … %18, and again in every layer). -/
def srcColOf (v1 : IVec S600000 32) : IVec S600000x1 32 :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 50000#32))) v1)

/-- The column of scatter row numbers (operation %6; every layer makes it again: %21, %46, %71, %96). -/
def dstColOf (v3 : IVec S600000 32) : IVec S600000x1 32 :=
  broadcastInDim S600000x1 ![0] bcast_S600000_S600000x1_0 v3

/-- The inverse degrees: one over the larger of one and the number of edges into the row, that number the
    scatter-add of ones into zeros (operations %4 … %11). -/
def invDegOf (v3 : IVec S600000 32) : FVec F S50000 .f32 :=
  Host.divf (broadcastInDim S50000 ![] bcast_S_S50000 (constant (F := F) S_ .f32 0x3F800000#32))
    (maximumf
      (Host.scatterAdd scatter_S50000_S600000x1_S600000_n_0_0_1
        (broadcastInDim S50000 ![] bcast_S_S50000 (constant (F := F) S_ .f32 0x00000000#32)) (dstColOf v3)
        (broadcastInDim S600000 ![] bcast_S_S600000 (constant (F := F) S_ .f32 0x3F800000#32)))
      (broadcastInDim S50000 ![] bcast_S_S50000 (constant (F := F) S_ .f32 0x3F800000#32)))

/-- The inverse degrees as a column (operation %12). -/
def invColOf (v3 : IVec S600000 32) : FVec F S50000x1 .f32 :=
  broadcastInDim S50000x1 ![0] bcast_S50000_S50000x1_0 (invDegOf (F := F) v3)

/-- The neighbour sums: the rows of `X` at the gather numbers, added into zeros at the scatter numbers
    (operations %19 … %22 of a layer). -/
def aggCols (s d : IVec S600000x1 32) (X : FVec F S50000x128 .f32) : FVec F S50000x128 .f32 :=
  Host.scatterAdd scatter_S50000x128_S600000x1_S600000x128_1_0_0_1
    (broadcastInDim S50000x128 ![] bcast_S_S50000x128 (constant (F := F) S_ .f32 0x00000000#32)) d
    (Host.gather gather_S50000x128_S600000x1_S600000x128_1_0_n_n_0_1_1128 X s)

/-- Matrix `K` of a stack of four (a slice, then the leading axis dropped). -/
def wMat (K : Nat) (h : S4x128x128.Slices ![K, 0, 0] S1x128x128) (a : FVec F S4x128x128 .f32) : FVec F S128x128 .f32 :=
  shapeCast S128x128 (extractStridedSlice S1x128x128 ![K, 0, 0] a h) shapeCasts_S1x128x128_S128x128

/-- Row `K` of the four biases, as a vector. -/
def bVec (K : Nat) (h : S4x128.Slices ![K, 0] S1x128) (a3 : FVec F S4x128 .f32) : FVec F S128 .f32 :=
  shapeCast S128 (extractStridedSlice S1x128 ![K, 0] a3 h) shapeCasts_S1x128_S128

/-- A layer before its unit: the neighbour sums scaled by the inverse-degree column, times the first matrix, plus the
    bias broadcast over the rows, plus the features times the second matrix. -/
def preHost (G X : FVec F S50000x128 .f32) (col : FVec F S50000x1 .f32) (Wl Wr : FVec F S128x128 .f32)
    (b : FVec F S128 .f32) : FVec F S50000x128 .f32 :=
  addf
    (addf
      (Host.dotGeneral dot_S50000x128_S128x128_S50000x128_1_0_0_1_n_n none
        (mulf G (broadcastInDim S50000x128 ![0, 1] bcast_S50000x1_S50000x128_0_1 col)) Wl)
      (broadcastInDim S50000x128 ![0, 1] bcast_S1x128_S50000x128_0_1 (broadcastInDim S1x128 ![1] bcast_S128_S1x128_1 b)))
    (Host.dotGeneral dot_S50000x128_S128x128_S50000x128_1_0_0_1_n_n none X Wr)

/-- The exponential linear unit as the program's outlined function computes it: the value where it exceeds zero,
    elsewhere one times exp-minus-one of the value with its positive entries replaced by zero. -/
def actHost (o : FVec F S50000x128 .f32) : FVec F S50000x128 .f32 :=
  select (cmpf .ogt o (broadcastInDim S50000x128 ![] bcast_S_S50000x128 (constant (F := F) S_ .f32 0x00000000#32))) o
    (mulf (broadcastInDim S50000x128 ![] bcast_S_S50000x128 (constant (F := F) S_ .f32 0x3F800000#32))
      (Host.expm1
        (select (cmpf .ogt o (broadcastInDim S50000x128 ![] bcast_S_S50000x128 (constant (F := F) S_ .f32 0x00000000#32)))
          (broadcastInDim S50000x128 ![] bcast_S_S50000x128 (id (constant (F := F) S_ .f32 0x00000000#32))) o)))

/-- Layer `K`, of the two edge-list rows, the inverse-degree column, the three parameter stacks and the features. -/
def layerHost (K : Nat) (h2 : S4x128x128.Slices ![K, 0, 0] S1x128x128) (h3 : S4x128.Slices ![K, 0] S1x128)
    (v1 v3 : IVec S600000 32) (col : FVec F S50000x1 .f32) (a2 : FVec F S4x128x128 .f32) (a3 : FVec F S4x128 .f32)
    (a4 : FVec F S4x128x128 .f32) (X : FVec F S50000x128 .f32) : FVec F S50000x128 .f32 :=
  actHost (preHost (aggCols (srcColOf v1) (dstColOf v3) X) X col (wMat K h2 a2) (wMat K h2 a4) (bVec K h3 a3))

/-- The four layers, of the argument arrays. -/
def netHost (a1 : IVec S2x600000 32) (a2 : FVec F S4x128x128 .f32) (a3 : FVec F S4x128 .f32) (a4 : FVec F S4x128x128 .f32)
    (X0 : FVec F S50000x128 .f32) : FVec F S50000x128 .f32 :=
  layerHost 3 slices_S4x128x128_S1x128x128_3_0_0 slices_S4x128_S1x128_3_0 (srcRaw a1) (dstRaw a1) (invColOf (dstRaw a1)) a2 a3 a4
    (layerHost 2 slices_S4x128x128_S1x128x128_2_0_0 slices_S4x128_S1x128_2_0 (srcRaw a1) (dstRaw a1) (invColOf (dstRaw a1)) a2 a3 a4
      (layerHost 1 slices_S4x128x128_S1x128x128_1_0_0 slices_S4x128_S1x128_1_0 (srcRaw a1) (dstRaw a1) (invColOf (dstRaw a1)) a2 a3 a4
        (layerHost 0 slices_S4x128x128_S1x128x128_0_0_0 slices_S4x128_S1x128_0_0 (srcRaw a1) (dstRaw a1) (invColOf (dstRaw a1)) a2 a3 a4 X0)))

/-! ## What each stretch leaves

From any contents `V` of the device's buffers: the buffers the later stretches read, after the stretch, as terms of
what it found. A buffer the stretch does not write keeps its contents. -/

/-- Contents after two lists run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
set_option maxHeartbeats 2000000 in
theorem valA_main_v1 (V : Valuation τ sig (Elt F)) : after opsA V (no_index (Proc.devRef .tc main_v1)) = srcRaw (V (Proc.devRef .tc main_arg1)) := by
  simp only [opsA]
  after_results_simp
  rfl
set_option maxRecDepth 8192 in
set_option maxHeartbeats 2000000 in
theorem valA_main_v3 (V : Valuation τ sig (Elt F)) : after opsA V (no_index (Proc.devRef .tc main_v3)) = dstRaw (V (Proc.devRef .tc main_arg1)) := by
  simp only [opsA]
  after_results_simp
  rfl
set_option maxRecDepth 8192 in
set_option maxHeartbeats 2000000 in
theorem valA_main_v12 (V : Valuation τ sig (Elt F)) : after opsA V (no_index (Proc.devRef .tc main_v12)) = invColOf (F := F) (dstRaw (V (Proc.devRef .tc main_arg1))) := by
  simp only [opsA]
  after_results_simp
  rfl
set_option maxRecDepth 8192 in
set_option maxHeartbeats 2000000 in
theorem valA_main_arg0 (V : Valuation τ sig (Elt F)) : after opsA V (no_index (Proc.devRef .tc main_arg0)) = (V (Proc.devRef .tc main_arg0)) := by
  simp only [opsA]
  after_results_simp
set_option maxRecDepth 8192 in
set_option maxHeartbeats 2000000 in
theorem valA_main_arg1 (V : Valuation τ sig (Elt F)) : after opsA V (no_index (Proc.devRef .tc main_arg1)) = (V (Proc.devRef .tc main_arg1)) := by
  simp only [opsA]
  after_results_simp
set_option maxRecDepth 8192 in
set_option maxHeartbeats 2000000 in
theorem valA_main_arg2 (V : Valuation τ sig (Elt F)) : after opsA V (no_index (Proc.devRef .tc main_arg2)) = (V (Proc.devRef .tc main_arg2)) := by
  simp only [opsA]
  after_results_simp
set_option maxRecDepth 8192 in
set_option maxHeartbeats 2000000 in
theorem valA_main_arg3 (V : Valuation τ sig (Elt F)) : after opsA V (no_index (Proc.devRef .tc main_arg3)) = (V (Proc.devRef .tc main_arg3)) := by
  simp only [opsA]
  after_results_simp
set_option maxRecDepth 8192 in
set_option maxHeartbeats 2000000 in
theorem valA_main_arg4 (V : Valuation τ sig (Elt F)) : after opsA V (no_index (Proc.devRef .tc main_arg4)) = (V (Proc.devRef .tc main_arg4)) := by
  simp only [opsA]
  after_results_simp

set_option maxRecDepth 8192 in
set_option maxHeartbeats 2000000 in
theorem valB_main_v37 (V : Valuation τ sig (Elt F)) : after opsB V (no_index (Proc.devRef .tc main_v37))
    = layerHost 0 slices_S4x128x128_S1x128x128_0_0_0 slices_S4x128_S1x128_0_0 (V (Proc.devRef .tc main_v1)) (V (Proc.devRef .tc main_v3)) (V (Proc.devRef .tc main_v12))
        (V (Proc.devRef .tc main_arg2)) (V (Proc.devRef .tc main_arg3)) (V (Proc.devRef .tc main_arg4)) (V (Proc.devRef .tc main_arg0)) := by
  simp only [opsB]
  after_results_simp
  rfl
set_option maxRecDepth 8192 in
set_option maxHeartbeats 2000000 in
theorem valB_main_arg0 (V : Valuation τ sig (Elt F)) : after opsB V (no_index (Proc.devRef .tc main_arg0)) = (V (Proc.devRef .tc main_arg0)) := by
  simp only [opsB]
  after_results_simp
set_option maxRecDepth 8192 in
set_option maxHeartbeats 2000000 in
theorem valB_main_arg1 (V : Valuation τ sig (Elt F)) : after opsB V (no_index (Proc.devRef .tc main_arg1)) = (V (Proc.devRef .tc main_arg1)) := by
  simp only [opsB]
  after_results_simp
set_option maxRecDepth 8192 in
set_option maxHeartbeats 2000000 in
theorem valB_main_arg2 (V : Valuation τ sig (Elt F)) : after opsB V (no_index (Proc.devRef .tc main_arg2)) = (V (Proc.devRef .tc main_arg2)) := by
  simp only [opsB]
  after_results_simp
set_option maxRecDepth 8192 in
set_option maxHeartbeats 2000000 in
theorem valB_main_arg3 (V : Valuation τ sig (Elt F)) : after opsB V (no_index (Proc.devRef .tc main_arg3)) = (V (Proc.devRef .tc main_arg3)) := by
  simp only [opsB]
  after_results_simp
set_option maxRecDepth 8192 in
set_option maxHeartbeats 2000000 in
theorem valB_main_arg4 (V : Valuation τ sig (Elt F)) : after opsB V (no_index (Proc.devRef .tc main_arg4)) = (V (Proc.devRef .tc main_arg4)) := by
  simp only [opsB]
  after_results_simp
set_option maxRecDepth 8192 in
set_option maxHeartbeats 2000000 in
theorem valB_main_v1 (V : Valuation τ sig (Elt F)) : after opsB V (no_index (Proc.devRef .tc main_v1)) = (V (Proc.devRef .tc main_v1)) := by
  simp only [opsB]
  after_results_simp
set_option maxRecDepth 8192 in
set_option maxHeartbeats 2000000 in
theorem valB_main_v3 (V : Valuation τ sig (Elt F)) : after opsB V (no_index (Proc.devRef .tc main_v3)) = (V (Proc.devRef .tc main_v3)) := by
  simp only [opsB]
  after_results_simp
set_option maxRecDepth 8192 in
set_option maxHeartbeats 2000000 in
theorem valB_main_v12 (V : Valuation τ sig (Elt F)) : after opsB V (no_index (Proc.devRef .tc main_v12)) = (V (Proc.devRef .tc main_v12)) := by
  simp only [opsB]
  after_results_simp

set_option maxRecDepth 8192 in
set_option maxHeartbeats 2000000 in
theorem valCD_main_v62 (V : Valuation τ sig (Elt F)) : after opsD (after opsC V) (no_index (Proc.devRef .tc main_v62))
    = layerHost 1 slices_S4x128x128_S1x128x128_1_0_0 slices_S4x128_S1x128_1_0 (V (Proc.devRef .tc main_v1)) (V (Proc.devRef .tc main_v3)) (V (Proc.devRef .tc main_v12))
        (V (Proc.devRef .tc main_arg2)) (V (Proc.devRef .tc main_arg3)) (V (Proc.devRef .tc main_arg4)) (V (Proc.devRef .tc main_v37)) := by
  simp only [opsC, opsD]
  after_results_simp
  rfl
set_option maxRecDepth 8192 in
set_option maxHeartbeats 2000000 in
theorem valCD_main_arg0 (V : Valuation τ sig (Elt F)) : after opsD (after opsC V) (no_index (Proc.devRef .tc main_arg0)) = (V (Proc.devRef .tc main_arg0)) := by
  simp only [opsC, opsD]
  after_results_simp
set_option maxRecDepth 8192 in
set_option maxHeartbeats 2000000 in
theorem valCD_main_arg1 (V : Valuation τ sig (Elt F)) : after opsD (after opsC V) (no_index (Proc.devRef .tc main_arg1)) = (V (Proc.devRef .tc main_arg1)) := by
  simp only [opsC, opsD]
  after_results_simp
set_option maxRecDepth 8192 in
set_option maxHeartbeats 2000000 in
theorem valCD_main_arg2 (V : Valuation τ sig (Elt F)) : after opsD (after opsC V) (no_index (Proc.devRef .tc main_arg2)) = (V (Proc.devRef .tc main_arg2)) := by
  simp only [opsC, opsD]
  after_results_simp
set_option maxRecDepth 8192 in
set_option maxHeartbeats 2000000 in
theorem valCD_main_arg3 (V : Valuation τ sig (Elt F)) : after opsD (after opsC V) (no_index (Proc.devRef .tc main_arg3)) = (V (Proc.devRef .tc main_arg3)) := by
  simp only [opsC, opsD]
  after_results_simp
set_option maxRecDepth 8192 in
set_option maxHeartbeats 2000000 in
theorem valCD_main_arg4 (V : Valuation τ sig (Elt F)) : after opsD (after opsC V) (no_index (Proc.devRef .tc main_arg4)) = (V (Proc.devRef .tc main_arg4)) := by
  simp only [opsC, opsD]
  after_results_simp
set_option maxRecDepth 8192 in
set_option maxHeartbeats 2000000 in
theorem valCD_main_v1 (V : Valuation τ sig (Elt F)) : after opsD (after opsC V) (no_index (Proc.devRef .tc main_v1)) = (V (Proc.devRef .tc main_v1)) := by
  simp only [opsC, opsD]
  after_results_simp
set_option maxRecDepth 8192 in
set_option maxHeartbeats 2000000 in
theorem valCD_main_v3 (V : Valuation τ sig (Elt F)) : after opsD (after opsC V) (no_index (Proc.devRef .tc main_v3)) = (V (Proc.devRef .tc main_v3)) := by
  simp only [opsC, opsD]
  after_results_simp
set_option maxRecDepth 8192 in
set_option maxHeartbeats 2000000 in
theorem valCD_main_v12 (V : Valuation τ sig (Elt F)) : after opsD (after opsC V) (no_index (Proc.devRef .tc main_v12)) = (V (Proc.devRef .tc main_v12)) := by
  simp only [opsC, opsD]
  after_results_simp

set_option maxRecDepth 8192 in
set_option maxHeartbeats 2000000 in
theorem valE_main_v87 (V : Valuation τ sig (Elt F)) : after opsE V (no_index (Proc.devRef .tc main_v87))
    = layerHost 2 slices_S4x128x128_S1x128x128_2_0_0 slices_S4x128_S1x128_2_0 (V (Proc.devRef .tc main_v1)) (V (Proc.devRef .tc main_v3)) (V (Proc.devRef .tc main_v12))
        (V (Proc.devRef .tc main_arg2)) (V (Proc.devRef .tc main_arg3)) (V (Proc.devRef .tc main_arg4)) (V (Proc.devRef .tc main_v62)) := by
  simp only [opsE]
  after_results_simp
  rfl
set_option maxRecDepth 8192 in
set_option maxHeartbeats 2000000 in
theorem valE_main_arg0 (V : Valuation τ sig (Elt F)) : after opsE V (no_index (Proc.devRef .tc main_arg0)) = (V (Proc.devRef .tc main_arg0)) := by
  simp only [opsE]
  after_results_simp
set_option maxRecDepth 8192 in
set_option maxHeartbeats 2000000 in
theorem valE_main_arg1 (V : Valuation τ sig (Elt F)) : after opsE V (no_index (Proc.devRef .tc main_arg1)) = (V (Proc.devRef .tc main_arg1)) := by
  simp only [opsE]
  after_results_simp
set_option maxRecDepth 8192 in
set_option maxHeartbeats 2000000 in
theorem valE_main_arg2 (V : Valuation τ sig (Elt F)) : after opsE V (no_index (Proc.devRef .tc main_arg2)) = (V (Proc.devRef .tc main_arg2)) := by
  simp only [opsE]
  after_results_simp
set_option maxRecDepth 8192 in
set_option maxHeartbeats 2000000 in
theorem valE_main_arg3 (V : Valuation τ sig (Elt F)) : after opsE V (no_index (Proc.devRef .tc main_arg3)) = (V (Proc.devRef .tc main_arg3)) := by
  simp only [opsE]
  after_results_simp
set_option maxRecDepth 8192 in
set_option maxHeartbeats 2000000 in
theorem valE_main_arg4 (V : Valuation τ sig (Elt F)) : after opsE V (no_index (Proc.devRef .tc main_arg4)) = (V (Proc.devRef .tc main_arg4)) := by
  simp only [opsE]
  after_results_simp
set_option maxRecDepth 8192 in
set_option maxHeartbeats 2000000 in
theorem valE_main_v1 (V : Valuation τ sig (Elt F)) : after opsE V (no_index (Proc.devRef .tc main_v1)) = (V (Proc.devRef .tc main_v1)) := by
  simp only [opsE]
  after_results_simp
set_option maxRecDepth 8192 in
set_option maxHeartbeats 2000000 in
theorem valE_main_v3 (V : Valuation τ sig (Elt F)) : after opsE V (no_index (Proc.devRef .tc main_v3)) = (V (Proc.devRef .tc main_v3)) := by
  simp only [opsE]
  after_results_simp
set_option maxRecDepth 8192 in
set_option maxHeartbeats 2000000 in
theorem valE_main_v12 (V : Valuation τ sig (Elt F)) : after opsE V (no_index (Proc.devRef .tc main_v12)) = (V (Proc.devRef .tc main_v12)) := by
  simp only [opsE]
  after_results_simp

set_option maxRecDepth 8192 in
set_option maxHeartbeats 2000000 in
theorem valGH_main_v112 (V : Valuation τ sig (Elt F)) : after opsH (after opsG V) (no_index (Proc.devRef .tc main_v112))
    = layerHost 3 slices_S4x128x128_S1x128x128_3_0_0 slices_S4x128_S1x128_3_0 (V (Proc.devRef .tc main_v1)) (V (Proc.devRef .tc main_v3)) (V (Proc.devRef .tc main_v12))
        (V (Proc.devRef .tc main_arg2)) (V (Proc.devRef .tc main_arg3)) (V (Proc.devRef .tc main_arg4)) (V (Proc.devRef .tc main_v87)) := by
  simp only [opsG, opsH]
  after_results_simp
  rfl
set_option maxRecDepth 8192 in
set_option maxHeartbeats 2000000 in
theorem valGH_main_arg0 (V : Valuation τ sig (Elt F)) : after opsH (after opsG V) (no_index (Proc.devRef .tc main_arg0)) = (V (Proc.devRef .tc main_arg0)) := by
  simp only [opsG, opsH]
  after_results_simp
set_option maxRecDepth 8192 in
set_option maxHeartbeats 2000000 in
theorem valGH_main_arg1 (V : Valuation τ sig (Elt F)) : after opsH (after opsG V) (no_index (Proc.devRef .tc main_arg1)) = (V (Proc.devRef .tc main_arg1)) := by
  simp only [opsG, opsH]
  after_results_simp
set_option maxRecDepth 8192 in
set_option maxHeartbeats 2000000 in
theorem valGH_main_arg2 (V : Valuation τ sig (Elt F)) : after opsH (after opsG V) (no_index (Proc.devRef .tc main_arg2)) = (V (Proc.devRef .tc main_arg2)) := by
  simp only [opsG, opsH]
  after_results_simp
set_option maxRecDepth 8192 in
set_option maxHeartbeats 2000000 in
theorem valGH_main_arg3 (V : Valuation τ sig (Elt F)) : after opsH (after opsG V) (no_index (Proc.devRef .tc main_arg3)) = (V (Proc.devRef .tc main_arg3)) := by
  simp only [opsG, opsH]
  after_results_simp
set_option maxRecDepth 8192 in
set_option maxHeartbeats 2000000 in
theorem valGH_main_arg4 (V : Valuation τ sig (Elt F)) : after opsH (after opsG V) (no_index (Proc.devRef .tc main_arg4)) = (V (Proc.devRef .tc main_arg4)) := by
  simp only [opsG, opsH]
  after_results_simp

/-! ## The whole line -/

/-- The contents after all 185 operations are the stretches' in turn. -/
theorem after_ops (V : Valuation τ sig (Elt F)) :
    after ops V = after opsH (after opsG (after opsE (after opsD (after opsC (after opsB (after opsA V)))))) := by
  simp only [ops, ops0, ops1, after_app]

/-- The result buffer after the whole line: the four layers of the arguments' contents. -/
theorem out_eq (V : Valuation τ sig (Elt F)) :
    after ops V (Proc.devRef .tc main_v112)
      = netHost (V (Proc.devRef .tc main_arg1)) (V (Proc.devRef .tc main_arg2)) (V (Proc.devRef .tc main_arg3)) (V (Proc.devRef .tc main_arg4)) (V (Proc.devRef .tc main_arg0)) := by
  rw [after_ops]
  simp only [valA_main_v1, valA_main_v3, valA_main_v12, valA_main_arg0, valA_main_arg1, valA_main_arg2, valA_main_arg3, valA_main_arg4, valB_main_v37, valB_main_arg0, valB_main_arg1, valB_main_arg2, valB_main_arg3, valB_main_arg4, valB_main_v1, valB_main_v3, valB_main_v12, valCD_main_v62, valCD_main_arg0, valCD_main_arg1, valCD_main_arg2, valCD_main_arg3, valCD_main_arg4, valCD_main_v1, valCD_main_v3, valCD_main_v12, valE_main_v87, valE_main_arg0, valE_main_arg1, valE_main_arg2, valE_main_arg3, valE_main_arg4, valE_main_v1, valE_main_v3, valE_main_v12, valGH_main_v112, valGH_main_arg0, valGH_main_arg1, valGH_main_arg2, valGH_main_arg3, valGH_main_arg4]
  rfl

/-- No operation writes an argument. -/
theorem main_arg0_eq (V : Valuation τ sig (Elt F)) : after ops V (Proc.devRef .tc main_arg0) = (V (Proc.devRef .tc main_arg0)) := by
  rw [after_ops]
  simp only [valA_main_arg0, valB_main_arg0, valCD_main_arg0, valE_main_arg0, valGH_main_arg0]

/-- No operation writes an argument. -/
theorem main_arg1_eq (V : Valuation τ sig (Elt F)) : after ops V (Proc.devRef .tc main_arg1) = (V (Proc.devRef .tc main_arg1)) := by
  rw [after_ops]
  simp only [valA_main_arg1, valB_main_arg1, valCD_main_arg1, valE_main_arg1, valGH_main_arg1]

/-- No operation writes an argument. -/
theorem main_arg2_eq (V : Valuation τ sig (Elt F)) : after ops V (Proc.devRef .tc main_arg2) = (V (Proc.devRef .tc main_arg2)) := by
  rw [after_ops]
  simp only [valA_main_arg2, valB_main_arg2, valCD_main_arg2, valE_main_arg2, valGH_main_arg2]

/-- No operation writes an argument. -/
theorem main_arg3_eq (V : Valuation τ sig (Elt F)) : after ops V (Proc.devRef .tc main_arg3) = (V (Proc.devRef .tc main_arg3)) := by
  rw [after_ops]
  simp only [valA_main_arg3, valB_main_arg3, valCD_main_arg3, valE_main_arg3, valGH_main_arg3]

/-- No operation writes an argument. -/
theorem main_arg4_eq (V : Valuation τ sig (Elt F)) : after ops V (Proc.devRef .tc main_arg4) = (V (Proc.devRef .tc main_arg4)) := by
  rw [after_ops]
  simp only [valA_main_arg4, valB_main_arg4, valCD_main_arg4, valE_main_arg4, valGH_main_arg4]

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
set_option maxRecDepth 8192 in
theorem opsD_sub : (opsD : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub ..⟩
set_option maxRecDepth 8192 in
theorem opsH_sub : (opsH : List (HloOp τ sig (Elt F))).Forall fun op => op.bufs ⊆ tcRefs τ sig :=
  ⟨reshape_bufs_sub .., unary_bufs_sub .., unary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h) | (h | h | h) | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsG_sub op h, List.forall_iff_forall_mem.mp opsH_sub op h]

set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsB_fresh : ∀ op ∈ (opsB : List (HloOp τ sig (Elt F))), op.fresh = ∅ := by
  intro _ h; (repeat (cases h with | head => rfl | tail _ h => ?_)); exact nomatch h
set_option maxRecDepth 8192 in
theorem opsC_fresh : ∀ op ∈ (opsC : List (HloOp τ sig (Elt F))), op.fresh = ∅ := by
  intro _ h; (repeat (cases h with | head => rfl | tail _ h => ?_)); exact nomatch h
set_option maxRecDepth 8192 in
theorem opsD_fresh : ∀ op ∈ (opsD : List (HloOp τ sig (Elt F))), op.fresh = ∅ := by
  intro _ h; (repeat (cases h with | head => rfl | tail _ h => ?_)); exact nomatch h
set_option maxRecDepth 8192 in
theorem opsE_fresh : ∀ op ∈ (opsE : List (HloOp τ sig (Elt F))), op.fresh = ∅ := by
  intro _ h; (repeat (cases h with | head => rfl | tail _ h => ?_)); exact nomatch h
set_option maxRecDepth 8192 in
theorem opsG_fresh : ∀ op ∈ (opsG : List (HloOp τ sig (Elt F))), op.fresh = ∅ := by
  intro _ h; (repeat (cases h with | head => rfl | tail _ h => ?_)); exact nomatch h
set_option maxRecDepth 8192 in
theorem opsH_fresh : ∀ op ∈ (opsH : List (HloOp τ sig (Elt F))), op.fresh = ∅ := by
  intro _ h; (repeat (cases h with | head => rfl | tail _ h => ?_)); exact nomatch h

/-- Every operation determines what it writes. -/
theorem ops_fresh : ∀ op ∈ (ops : List (HloOp τ sig (Elt F))), op.fresh = ∅ := fun op h => by
  simp only [ops, ops0, ops1, List.mem_append] at h
  rcases h with (h | h | h) | (h | h | h) | h
  exacts [opsA_fresh op h, opsB_fresh op h, opsC_fresh op h, opsD_fresh op h, opsE_fresh op h, opsG_fresh op h, opsH_fresh op h]

/-! ## The run -/

/-- On every device, for any float values, from any memory with zero counters: every weakly fair execution of @main
    terminates with the result buffer at the four layers of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112)
        = netHost (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v112).trans (out_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c))⟩)
    (run_seq scopedRefs_eq scopedSems_eq defs main (fun _ => ops) main_eq (fun _ => ops_sub) m ρ (fun _ => ops_fresh))

end Cert.ReferenceIdeal.RefRun

end
-- ==== Proof.RefValue.lean ====
/-
  The reference program's value as four graph-convolution layers.

  The run of the reference leaves the result buffer at a composition of host operations. Here that composition is
  read as mathematics: the two columns of row numbers (where to gather from, where to add into), the neighbour sums of
  a feature matrix (gather, then scatter-add into zeros), the inverse degrees (one over the larger of one and the
  number of edges into the row), matrix K of a stack of four and row K of the four biases — each stated as a function
  of the argument arrays alone, in the program's own operations — and one layer as the graph convolution of
  the neighbour sums and the features with those inverse degrees, matrices and bias. The step from the host's layer to the
  convolution is the reading of the host's spelling proved for a general layer, after two layout facts: the inverse-degree column read
  at (p, 0) is the inverse degree of row p, and the slices are the matrices and the bias named here. The program is
  the fourth layer of the third of the second of the first of the feature argument.
-/
import proofs.«104823_j65841848648310_1_alg».proof.Proof.RefRun
import proofs.«104823_j65841848648310_1_alg».proof.Proof.LibGraphConvLayer
import proofs.«104823_j65841848648310_1_alg».proof.Proof.LibColRow

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The pieces, of the argument arrays -/

/-- The `[600000, 1]` column of gather row numbers: row 0 of the edge list as a vector, a negative number counting from
    the end (50000 added to it), made a column. -/
def srcCol (a1 : IVec S2x600000 32) : IVec S600000x1 32 :=
  broadcastInDim S600000x1 ![0] bcast_S600000_S600000x1_0
    (select
      (cmpi .slt (shapeCast S600000 (extractStridedSlice S1x600000 ![0, 0] a1 slices_S2x600000_S1x600000_0_0) shapeCasts_S1x600000_S600000)
        (broadcastInDim S600000 ![] bcast_S_S600000 (constantI S_ 32 0#32)))
      (addi (shapeCast S600000 (extractStridedSlice S1x600000 ![0, 0] a1 slices_S2x600000_S1x600000_0_0) shapeCasts_S1x600000_S600000)
        (broadcastInDim S600000 ![] bcast_S_S600000 (constantI S_ 32 50000#32)))
      (shapeCast S600000 (extractStridedSlice S1x600000 ![0, 0] a1 slices_S2x600000_S1x600000_0_0) shapeCasts_S1x600000_S600000))

/-- The `[600000, 1]` column of scatter row numbers: row 1 of the edge list as a vector, made a column. -/
def dstCol (a1 : IVec S2x600000 32) : IVec S600000x1 32 :=
  broadcastInDim S600000x1 ![0] bcast_S600000_S600000x1_0
    (shapeCast S600000 (extractStridedSlice S1x600000 ![1, 0] a1 slices_S2x600000_S1x600000_1_0) shapeCasts_S1x600000_S600000)

/-- The neighbour sums of `X`: its rows at the gather numbers, added into zeros at the scatter numbers. -/
def aggOf (a1 : IVec S2x600000 32) (X : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32)) (dstCol a1)
    (Host.gather gather_S50000x128_S600000x1_S600000x128_1_0_n_n_0_1_1128 X (srcCol a1))

/-- The inverse degrees: one over the larger of one and the number of edges into the row (ones added into zeros at the
    scatter numbers). -/
def invDeg (a1 : IVec S2x600000 32) : FVec Ideal S50000 .f32 :=
  Host.divf (broadcastInDim S50000 ![] bcast_S_S50000 (constant (F := Ideal) S_ .f32 0x3F800000#32))
    (maximumf
      (Host.scatterAdd scatter_S50000_S600000x1_S600000_n_0_0_1
        (broadcastInDim S50000 ![] bcast_S_S50000 (constant (F := Ideal) S_ .f32 0x00000000#32)) (dstCol a1)
        (broadcastInDim S600000 ![] bcast_S_S600000 (constant (F := Ideal) S_ .f32 0x3F800000#32)))
      (broadcastInDim S50000 ![] bcast_S_S50000 (constant (F := Ideal) S_ .f32 0x3F800000#32)))

/-- Matrix `K` of a stack of four: the slice, its leading axis dropped. -/
def wMat (K : Nat) (h : S4x128x128.Slices ![K, 0, 0] S1x128x128) (a : FVec Ideal S4x128x128 .f32) : FVec Ideal S128x128 .f32 :=
  shapeCast S128x128 (extractStridedSlice S1x128x128 ![K, 0, 0] a h) shapeCasts_S1x128x128_S128x128

/-- Row `K` of the four biases, as a vector. -/
def bVec (K : Nat) (h : S4x128.Slices ![K, 0] S1x128) (a3 : FVec Ideal S4x128 .f32) : FVec Ideal S128 .f32 :=
  shapeCast S128 (extractStridedSlice S1x128 ![K, 0] a3 h) shapeCasts_S1x128_S128

/-- One layer: the graph convolution of the neighbour sums of `X` and `X` itself, with row scales `d`, the two
    matrices and the bias. -/
def layerOf (a1 : IVec S2x600000 32) (d : Fin 50000 → EReal) (Wl Wr : FVec Ideal S128x128 .f32) (β : Fin 128 → EReal)
    (X : FVec Ideal S50000x128 .f32) : FVec Ideal S50000x128 .f32 :=
  Cert.LibGraphConvLayer.conv (aggOf a1 X) X d Wl Wr β

/-- The four layers: layer `K` scales by the inverse degrees and takes matrix `K` of each stack and bias row `K`. -/
def net (a1 : IVec S2x600000 32) (a2 : FVec Ideal S4x128x128 .f32) (a3 : FVec Ideal S4x128 .f32)
    (a4 : FVec Ideal S4x128x128 .f32) (X0 : FVec Ideal S50000x128 .f32) : FVec Ideal S50000x128 .f32 :=
  layerOf a1 (fun p => invDeg a1 (ix1 p)) (wMat 3 slices_S4x128x128_S1x128x128_3_0_0 a2) (wMat 3 slices_S4x128x128_S1x128x128_3_0_0 a4) (fun q => bVec 3 slices_S4x128_S1x128_3_0 a3 (ix1 q))
    (layerOf a1 (fun p => invDeg a1 (ix1 p)) (wMat 2 slices_S4x128x128_S1x128x128_2_0_0 a2) (wMat 2 slices_S4x128x128_S1x128x128_2_0_0 a4) (fun q => bVec 2 slices_S4x128_S1x128_2_0 a3 (ix1 q))
      (layerOf a1 (fun p => invDeg a1 (ix1 p)) (wMat 1 slices_S4x128x128_S1x128x128_1_0_0 a2) (wMat 1 slices_S4x128x128_S1x128x128_1_0_0 a4) (fun q => bVec 1 slices_S4x128_S1x128_1_0 a3 (ix1 q))
        (layerOf a1 (fun p => invDeg a1 (ix1 p)) (wMat 0 slices_S4x128x128_S1x128x128_0_0_0 a2) (wMat 0 slices_S4x128x128_S1x128x128_0_0_0 a4) (fun q => bVec 0 slices_S4x128_S1x128_0_0 a3 (ix1 q)) X0)))

/-! ## The run's terms are these -/

theorem srcCol_eq (a1 : IVec S2x600000 32) : RefRun.srcColOf (RefRun.srcRaw a1) = srcCol a1 := rfl
theorem dstCol_eq (a1 : IVec S2x600000 32) : RefRun.dstColOf (RefRun.dstRaw a1) = dstCol a1 := rfl
theorem aggOf_eq (a1 : IVec S2x600000 32) (X : FVec Ideal S50000x128 .f32) :
    RefRun.aggCols (RefRun.srcColOf (RefRun.srcRaw a1)) (RefRun.dstColOf (RefRun.dstRaw a1)) X = aggOf a1 X := rfl
theorem invDeg_eq (a1 : IVec S2x600000 32) : RefRun.invDegOf (F := Ideal) (RefRun.dstRaw a1) = invDeg a1 := rfl
theorem wMat_eq (K : Nat) (h : S4x128x128.Slices ![K, 0, 0] S1x128x128) (a : FVec Ideal S4x128x128 .f32) :
    RefRun.wMat K h a = wMat K h a := rfl
theorem bVec_eq (K : Nat) (h : S4x128.Slices ![K, 0] S1x128) (a3 : FVec Ideal S4x128 .f32) :
    RefRun.bVec K h a3 = bVec K h a3 := rfl
theorem actHost_eq (o : FVec Ideal S50000x128 .f32) :
    RefRun.actHost (F := Ideal) o = Cert.LibGraphConvLayer.hostAct bcast_S_S50000x128 o := rfl

/-- The inverse-degree column read at `(p, 0)` is the inverse degree of row `p`. -/
theorem invCol_apply (a1 : IVec S2x600000 32) (p : Fin 50000) :
    RefRun.invColOf (F := Ideal) (RefRun.dstRaw a1) (ix2 p (0 : Fin 1)) = invDeg a1 (ix1 p) := by
  unfold RefRun.invColOf
  rw [invDeg_eq]
  exact Cert.LibColRow.bcast_a_a1_apply (invDeg a1) bcast_S50000_S50000x1_0 p 0

/-- The host's layer `K` is the graph convolution. -/
theorem layerHost_eq (K : Nat) (h2 : S4x128x128.Slices ![K, 0, 0] S1x128x128) (h3 : S4x128.Slices ![K, 0] S1x128)
    (a1 : IVec S2x600000 32) (a2 : FVec Ideal S4x128x128 .f32) (a3 : FVec Ideal S4x128 .f32) (a4 : FVec Ideal S4x128x128 .f32)
    (X : FVec Ideal S50000x128 .f32) :
    RefRun.layerHost (F := Ideal) K h2 h3 (RefRun.srcRaw a1) (RefRun.dstRaw a1) (RefRun.invColOf (RefRun.dstRaw a1)) a2 a3 a4 X
      = layerOf a1 (fun p => invDeg a1 (ix1 p)) (wMat K h2 a2) (wMat K h2 a4) (fun q => bVec K h3 a3 (ix1 q)) X := by
  unfold RefRun.layerHost RefRun.preHost layerOf
  rw [aggOf_eq, actHost_eq, wMat_eq, wMat_eq, bVec_eq]
  rw [Cert.LibGraphConvLayer.host_eq_conv dot_S50000x128_S128x128_S50000x128_1_0_0_1_n_n rfl]
  have hc : (fun p : Fin 50000 => RefRun.invColOf (F := Ideal) (RefRun.dstRaw a1) (ix2 p (0 : Fin 1)))
      = fun p => invDeg a1 (ix1 p) := funext (invCol_apply a1)
  rw [hc]

/-- The run's term is the four layers. -/
theorem netHost_eq (a1 : IVec S2x600000 32) (a2 : FVec Ideal S4x128x128 .f32) (a3 : FVec Ideal S4x128 .f32)
    (a4 : FVec Ideal S4x128x128 .f32) (X0 : FVec Ideal S50000x128 .f32) :
    RefRun.netHost (F := Ideal) a1 a2 a3 a4 X0 = net a1 a2 a3 a4 X0 := by
  unfold RefRun.netHost net
  rw [layerHost_eq, layerHost_eq, layerHost_eq, layerHost_eq]

/-! ## The run -/

/-- On every device, from any memory with zero counters: every weakly fair execution of @main terminates with the result
    buffer at the four layers of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v112)
        = net (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (netHost_eq _ _ _ _ _), (h c).2⟩) (RefRun.run (F := Ideal) m ρ)

end Cert.ReferenceIdeal.RefValue

end
-- ==== Proof.lean ====
/-
  The certificate of a four-layer graph network: per layer, the mean of the neighbours' features (a scatter-add of
  gathered rows, scaled row by row by the inverse degree) times one weight matrix, plus the node's own features times
  another, plus a bias, through the exponential linear unit.

  The kernel program computes the gather and the scatter-add on the host and each layer's dense part in a pallas_call
  over 25 blocks of 2000 rows; the reference computes everything on the host. At the ideal values both end holding the
  same function of the five argument arrays, net: the host operations that feed the dense part are the same operations
  in both programs, the kernel's row blocks tile the rows and a block of rows of a layer is the layer of those rows,
  the two products and the bias are added in another order (addition of extended reals is commutative and
  associative), and the two spellings of the unit agree entry by entry. No finiteness of the inputs is used.

  The three frames: the two kernel programs' are their generated frame certificates; the reference's is its run with
  the result dropped. No operation was rewritten by the idealization, so there is nothing to preserve.
-/
import proofs.«104823_j65841848648310_1_alg».proof.Defs
import proofs.«104823_j65841848648310_1_alg».proof.Proof.Gen.Kernel
import proofs.«104823_j65841848648310_1_alg».proof.Proof.Gen.Kernel.Frame
import proofs.«104823_j65841848648310_1_alg».proof.Proof.Gen.KernelIdeal
import proofs.«104823_j65841848648310_1_alg».proof.Proof.Gen.KernelIdeal.Frame
import proofs.«104823_j65841848648310_1_alg».proof.Proof.Gen.ReferenceIdeal
import proofs.«104823_j65841848648310_1_alg».proof.Proof.Gen.Pre_finite_inputs
import proofs.«104823_j65841848648310_1_alg».proof.Proof.KValue
import proofs.«104823_j65841848648310_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The two programs' networks are one function of the argument arrays: each host operation that feeds a layer is the
    same operation in both programs. -/
theorem net_eq (a1 : IVec Cert.KernelIdeal.S2x600000 32)
    (a2 : FVec Ideal Cert.KernelIdeal.S4x128x128 .f32) (a3 : FVec Ideal Cert.KernelIdeal.S4x128 .f32)
    (a4 : FVec Ideal Cert.KernelIdeal.S4x128x128 .f32) (X0 : FVec Ideal Cert.KernelIdeal.S50000x128 .f32) :
    Cert.ReferenceIdeal.RefValue.net a1 a2 a3 a4 X0 = Cert.KernelIdeal.KHost.net a1 a2 a3 a4 X0 := rfl

/-- Run from memories that agree on the arguments, both idealized programs end with the network of the arguments in
    their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4⟩ := hagree c
  rw [e0, e1, e2, e3, e4]
  exact net_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
